-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x19 : Shape := ⟨2, ![100000, 19]⟩
abbrev S50000x5 : Shape := ⟨2, ![50000, 5]⟩
abbrev S2x1250000 : Shape := ⟨2, ![2, 1250000]⟩
abbrev S1250000 : Shape := ⟨1, ![1250000]⟩
abbrev S19x64 : Shape := ⟨2, ![19, 64]⟩
abbrev S64 : Shape := ⟨1, ![64]⟩
abbrev S5x64 : Shape := ⟨2, ![5, 64]⟩
abbrev S128x64 : Shape := ⟨2, ![128, 64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x19 : S_.BroadcastsInDim S100000x19 (![] : Fin 0 → Fin S100000x19.rank)
  reducesTo_S100000x19_S_d0_1 : S100000x19.ReducesTo [0, 1] S_
  h_S_ : 0 < S_.numel
  bcast_S_S50000x5 : S_.BroadcastsInDim S50000x5 (![] : Fin 0 → Fin S50000x5.rank)
  reducesTo_S50000x5_S_d0_1 : S50000x5.ReducesTo [0, 1] S_
  bcast_S_S1250000 : S_.BroadcastsInDim S1250000 (![] : Fin 0 → Fin S1250000.rank)
  reducesTo_S1250000_S_d0 : S1250000.ReducesTo [0] S_
  bcast_S_S19x64 : S_.BroadcastsInDim S19x64 (![] : Fin 0 → Fin S19x64.rank)
  reducesTo_S19x64_S_d0_1 : S19x64.ReducesTo [0, 1] S_
  bcast_S_S64 : S_.BroadcastsInDim S64 (![] : Fin 0 → Fin S64.rank)
  reducesTo_S64_S_d0 : S64.ReducesTo [0] S_
  bcast_S_S5x64 : S_.BroadcastsInDim S5x64 (![] : Fin 0 → Fin S5x64.rank)
  reducesTo_S5x64_S_d0_1 : S5x64.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64x1 .f32) (main_arg16 : FVec F S1 .f32) (main_v63 : IVec S_ 1) (main_v67 : IVec S_ 1) : IVec S_ 1 :=
  let main_v68 : IVec S_ 1 := andi main_v63 main_v67
  let main_v69 : FVec F S64x1 .f32 := Host.absf main_arg15
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S64 .f32) (main_arg13 : FVec F S64x64 .f32) (main_arg14 : FVec F S64 .f32) (main_arg15 : FVec F S64x1 .f32) (main_arg16 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S64 .f32) (main_arg9 : FVec F S128x64 .f32) (main_arg10 : FVec F S64 .f32) (main_arg11 : FVec F S128x64 .f32) (main_arg12 : FVec F S64 .f32) (main_arg13 : FVec F S64x64 .f32) (main_arg14 : FVec F S64 .f32) (main_arg15 : FVec F S64x1 .f32) (main_arg16 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_arg15 main_arg16 main_v48 main_v49 main_v50

def fn_part1 {F : FTy → Type} [FloatOps F] (main_arg5 : FVec F S64 .f32) (main_arg6 : FVec F S5x64 .f32) (main_arg7 : FVec F S64 .f32) (main_arg8 : FVec F S64 .f32) (main_arg9 : FVec F S128x64 .f32) (main_arg10 : FVec F S64 .f32) (main_arg11 : FVec F S128x64 .f32) (main_arg12 : FVec F S64 .f32) (main_arg13 : FVec F S64x64 .f32) (main_arg14 : FVec F S64 .f32) (main_arg15 : FVec F S64x1 .f32) (main_arg16 : FVec F S1 .f32) (main_v13 : IVec S_ 1) (main_v16 : IVec S19x64 1) : IVec S_ 1 :=
  let main_c_5 : IVec S_ 1 := constantI S_ 1 1#1
  let main_v17 : IVec S_ 1 := (fun x v => Host.reduce IntOp.andi x v reducesTo_S19x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S5x64 .f32 := Host.absf main_arg6
  let main_cst_8 : FVec F S_ .f32 := constant S_ .f32 0x7F800000#32
  let main_v25 : FVec F S5x64 .f32 := broadcastInDim S5x64 ![] bcast_S_S5x64 main_cst_8
  let main_v26 : IVec S5x64 1 := cmpf .olt main_v24 main_v25
  let main_c_9 : IVec S_ 1 := constantI S_ 1 1#1
  let main_v27 : IVec S_ 1 := (fun x v => Host.reduce IntOp.andi x v reducesTo_S5x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x19 .f32) (main_arg1 : FVec F S50000x5 .f32) (main_arg2 : IVec S2x1250000 32) (main_arg3 : FVec F S1250000 .f32) (main_arg4 : FVec F S19x64 .f32) (main_arg5 : FVec F S64 .f32) (main_arg6 : FVec F S5x64 .f32) (main_arg7 : FVec F S64 .f32) (main_arg8 : FVec F S64 .f32) (main_arg9 : FVec F S128x64 .f32) (main_arg10 : FVec F S64 .f32) (main_arg11 : FVec F S128x64 .f32) (main_arg12 : FVec F S64 .f32) (main_arg13 : FVec F S64x64 .f32) (main_arg14 : FVec F S64 .f32) (main_arg15 : FVec F S64x1 .f32) (main_arg16 : FVec F S1 .f32) : IVec S_ 1 :=
  let main_v0 : FVec F S100000x19 .f32 := Host.absf main_arg0
  let main_cst : FVec F S_ .f32 := constant S_ .f32 0x7F800000#32
  let main_v1 : FVec F S100000x19 .f32 := broadcastInDim S100000x19 ![] bcast_S_S100000x19 main_cst
  let main_v2 : IVec S100000x19 1 := cmpf .olt main_v0 main_v1
  let main_c : IVec S_ 1 := constantI S_ 1 1#1
  let main_v3 : IVec S_ 1 := (fun x v => Host.reduce IntOp.andi x v reducesTo_S100000x19_S_d0_1 h_S_) main_v2 main_c
  let main_v4 : FVec F S50000x5 .f32 := Host.absf main_arg1
  let main_cst_0 : FVec F S_ .f32 := constant S_ .f32 0x7F800000#32
  let main_v5 : FVec F S50000x5 .f32 := broadcastInDim S50000x5 ![] bcast_S_S50000x5 main_cst_0
  let main_v6 : IVec S50000x5 1 := cmpf .olt main_v4 main_v5
  let main_c_1 : IVec S_ 1 := constantI S_ 1 1#1
  let main_v7 : IVec S_ 1 := (fun x v => Host.reduce IntOp.andi x v reducesTo_S50000x5_S_d0_1 h_S_) main_v6 main_c_1
  let main_v8 : IVec S_ 1 := andi main_v3 main_v7
  let main_v9 : FVec F S1250000 .f32 := Host.absf main_arg3
  let main_cst_2 : FVec F S_ .f32 := constant S_ .f32 0x7F800000#32
  let main_v10 : FVec F S1250000 .f32 := broadcastInDim S1250000 ![] bcast_S_S1250000 main_cst_2
  let main_v11 : IVec S1250000 1 := cmpf .olt main_v9 main_v10
  let main_c_3 : IVec S_ 1 := constantI S_ 1 1#1
  let main_v12 : IVec S_ 1 := (fun x v => Host.reduce IntOp.andi x v reducesTo_S1250000_S_d0 h_S_) main_v11 main_c_3
  let main_v13 : IVec S_ 1 := andi main_v8 main_v12
  let main_v14 : FVec F S19x64 .f32 := Host.absf main_arg4
  let main_cst_4 : FVec F S_ .f32 := constant S_ .f32 0x7F800000#32
  let main_v15 : FVec F S19x64 .f32 := broadcastInDim S19x64 ![] bcast_S_S19x64 main_cst_4
  let main_v16 : IVec S19x64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x19 : Shape := ⟨2, ![100000, 19]⟩
abbrev S50000x5 : Shape := ⟨2, ![50000, 5]⟩
abbrev S2x1250000 : Shape := ⟨2, ![2, 1250000]⟩
abbrev S1250000 : Shape := ⟨1, ![1250000]⟩
abbrev S19x64 : Shape := ⟨2, ![19, 64]⟩
abbrev S64 : Shape := ⟨1, ![64]⟩
abbrev S5x64 : Shape := ⟨2, ![5, 64]⟩
abbrev S128x64 : Shape := ⟨2, ![128, 64]⟩
abbrev S64x64 : Shape := ⟨2, ![64, 64]⟩
abbrev S64x1 : Shape := ⟨2, ![64, 1]⟩
abbrev S1 : Shape := ⟨1, ![1]⟩
abbrev S1x1250000 : Shape := ⟨2, ![1, 1250000]⟩
abbrev S1x64 : Shape := ⟨2, ![1, 64]⟩
abbrev S100000x64 : Shape := ⟨2, ![100000, 64]⟩
abbrev S10000x19 : Shape := ⟨2, ![10000, 19]⟩
abbrev S10000x64 : Shape := ⟨2, ![10000, 64]⟩
abbrev S50000x64 : Shape := ⟨2, ![50000, 64]⟩
abbrev S10000x5 : Shape := ⟨2, ![10000, 5]⟩
abbrev S_ : Shape := ⟨0, ![]⟩
abbrev S1250000x1 : Shape := ⟨2, ![1250000, 1]⟩
abbrev S1250000x64 : Shape := ⟨2, ![1250000, 64]⟩
abbrev S5000x64 : Shape := ⟨2, ![5000, 64]⟩
abbrev S1x1 : Shape := ⟨2, ![1, 1]⟩
abbrev S100000x1 : Shape := ⟨2, ![100000, 1]⟩
abbrev S4000x64 : Shape := ⟨2, ![4000, 64]⟩
abbrev S4000x1 : Shape := ⟨2, ![4000, 1]⟩
abbrev S100000 : Shape := ⟨1, ![100000]⟩

abbrev nBuf : Space → Nat
  | .hbm => 74
  | .vmem => 34
  | .smem => 0
  | _ => 0

abbrev bufTy : (tb : Table) → Fin (tcTables nBuf tb) → BufTy
  | .hbm, ⟨0, _⟩ => ⟨S100000x19, .f32⟩
  | .hbm, ⟨1, _⟩ => ⟨S50000x5, .f32⟩
  | .hbm, ⟨2, _⟩ => ⟨S2x1250000, .i32⟩
  | .hbm, ⟨3, _⟩ => ⟨S1250000, .f32⟩
  | .hbm, ⟨4, _⟩ => ⟨S19x64, .f32⟩
  | .hbm, ⟨5, _⟩ => ⟨S64, .f32⟩
  | .hbm, ⟨6, _⟩ => ⟨S5x64, .f32⟩
  | .hbm, ⟨7, _⟩ => ⟨S64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x1250000, .i32⟩
  | .hbm, ⟨18, _⟩ => ⟨S1250000, .i32⟩
  | .hbm, ⟨19, _⟩ => ⟨S1x1250000, .i32⟩
  | .hbm, ⟨20, _⟩ => ⟨S1250000, .i32⟩
  | .hbm, ⟨21, _⟩ => ⟨S1x64, .f32⟩
  | .hbm, ⟨22, _⟩ => ⟨S100000x64, .f32⟩
  | .hbm, ⟨23, _⟩ => ⟨S1x64, .f32⟩
  | .hbm, ⟨24, _⟩ => ⟨S50000x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x1, .f32⟩
  | .hbm, ⟨30, _⟩ => ⟨S64x64, .f32⟩
  | .hbm, ⟨31, _⟩ => ⟨S64x64, .f32⟩
  | .hbm, ⟨32, _⟩ => ⟨S64x1, .f32⟩
  | .hbm, ⟨33, _⟩ => ⟨S64x64, .f32⟩
  | .hbm, ⟨34, _⟩ => ⟨S64x64, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000x64, .f32⟩
  | .hbm, ⟨44, _⟩ => ⟨S1250000x1, .f32⟩
  | .hbm, ⟨45, _⟩ => ⟨S1250000x64, .f32⟩
  | .hbm, ⟨46, _⟩ => ⟨S1250000x64, .f32⟩
  | .hbm, ⟨47, _⟩ => ⟨S_, .f32⟩
  | .hbm, ⟨48, _⟩ => ⟨S50000x64, .f32⟩
  | .hbm, ⟨49, _⟩ => ⟨S1250000x1, .i32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S_, .i32⟩
  | .hbm, ⟨54, _⟩ => ⟨S1250000, .i32⟩
  | .hbm, ⟨55, _⟩ => ⟨S1250000, .i1⟩
  | .hbm, ⟨56, _⟩ => ⟨S_, .i32⟩
  | .hbm, ⟨57, _⟩ => ⟨S1250000, .i32⟩
  | .hbm, ⟨58, _⟩ => ⟨S1250000, .i32⟩
  | .hbm, ⟨59, _⟩ => ⟨S1250000, .i32⟩
  | .hbm, ⟨60, _⟩ => ⟨S1250000x1, .i32⟩
  | .hbm, ⟨61, _⟩ => ⟨S1250000x64, .f32⟩
  | .hbm, ⟨62, _⟩ => ⟨S1250000x1, .f32⟩
  | .hbm, ⟨63, _⟩ => ⟨S1250000x64, .f32⟩
  | .hbm, ⟨64, _⟩ => ⟨S1250000x64, .f32⟩
  | .hbm, ⟨65, _⟩ => ⟨S_, .f32⟩
  | .hbm, ⟨66, _⟩ => ⟨S100000x64, .f32⟩
  | .hbm, ⟨67, _⟩ => ⟨S1250000x1, .i32⟩
  | .hbm, ⟨68, _⟩ => ⟨S100000x64, .f32⟩
  | .hbm, ⟨69, _⟩ => ⟨S1x64, .f32⟩
  | .hbm, ⟨70, _⟩ => ⟨S1x64, .f32⟩
  | .hbm, ⟨71, _⟩ => ⟨S1x1, .f32⟩
  | .hbm, ⟨72, _⟩ => ⟨S100000x1, .f32⟩
  | .hbm, ⟨73, _⟩ => ⟨S100000, .f32⟩
  | .local _ .vmem, ⟨0, _⟩ => ⟨S10000x19, .f32⟩
  | .local _ .vmem, ⟨1, _⟩ => ⟨S10000x19, .f32⟩
  | .local _ .vmem, ⟨2, _⟩ => ⟨S19x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x5, .f32⟩
  | .local _ .vmem, ⟨7, _⟩ => ⟨S10000x5, .f32⟩
  | .local _ .vmem, ⟨8, _⟩ => ⟨S5x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S64x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S64x1, .f32⟩
  | .local _ .vmem, ⟨31, _⟩ => ⟨S1x1, .f32⟩
  | .local _ .vmem, ⟨32, _⟩ => ⟨S4000x1, .f32⟩
  | .local _ .vmem, ⟨33, _⟩ => ⟨S4000x1, .f32⟩
  | _, _ => ⟨S100000x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_1 : Ref sig .tc := ⟨.hbm, 53, rfl⟩
abbrev main_v33 : Ref sig .tc := ⟨.hbm, 54, rfl⟩
abbrev main_v34 : Ref sig .tc := ⟨.hbm, 55, rfl⟩
abbrev main_c_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg9_0 : Ref sig .tc := ⟨.vmem, 32, rfl⟩
abbrev cc3_stg9_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem9_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S19x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  shapeCasts_S64_S1x64 : S64.ShapeCasts S1x64
  inb_S10000x19_S10000x19_0_0 : ∀ a, (![0, 0] : Fin 2 → Nat) a + S10000x19.size a ≤ S10000x19.size a
  h_S10000x19 : 0 < S10000x19.numel
  bitsLt_bf16_f32 : FTy.bits .bf16 < FTy.bits .f32
  inb_S19x64_S19x64_0_0 : ∀ a, (![0, 0] : Fin 2 → Nat) a + S19x64.size a ≤ S19x64.size a
  h_S19x64 : 0 < S19x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S10000x5_S10000x5_0_0 : ∀ a, (![0, 0] : Fin 2 → Nat) a + S10000x5.size a ≤ S10000x5.size a
  h_S10000x5 : 0 < S10000x5.numel
  inb_S5x64_S5x64_0_0 : ∀ a, (![0, 0] : Fin 2 → Nat) a + S5x64.size a ≤ S5x64.size a
  h_S5x64 : 0 < S5x64.numel
  slices_S128x64_S64x64_0_0 : S128x64.Slices ![0, 0] S64x64
  slices_S128x64_S64x64_64_0 : S128x64.Slices ![64, 0] S64x64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  bcast_S_S100000x64 : S_.BroadcastsInDim S100000x64 (![] : Fin 0 → Fin S100000x64.rank)
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  dot_S10000x19_S19x64_S10000x64_1_0_0_1_n_n_wf : DotDims.WF S10000x19 S19x64 S10000x64 [1] [0] [0] [1] [] []
  dot_S10000x5_S5x64_S10000x64_1_0_0_1_n_n_wf : DotDims.WF S10000x5 S5x64 S10000x64 [1] [0] [0] [1] [] []
  gather_S100000x64_S1250000x1_S1250000x64_1_0_n_n_0_1_164_wf : GatherDims.WF S100000x64 S1250000x1 S1250000x64 [1] [0] [] [0] [] 1 ![1, 64]
  scatter_S50000x64_S1250000x1_S1250000x64_1_0_0_1_wf : ScatterDims.WF S50000x64 S1250000x1 S1250000x64 [1] [0] [0] 1
  dot_S5000x64_S64x64_S5000x64_1_0_0_1_n_n_wf : DotDims.WF S5000x64 S64x64 S5000x64 [1] [0] [0] [1] [] []
  gather_S50000x64_S1250000x1_S1250000x64_1_0_n_n_0_1_164_wf : GatherDims.WF S50000x64 S1250000x1 S1250000x64 [1] [0] [] [0] [] 1 ![1, 64]
  scatter_S100000x64_S1250000x1_S1250000x64_1_0_0_1_wf : ScatterDims.WF S100000x64 S1250000x1 S1250000x64 [1] [0] [0] 1
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x19.size a ≤ S100000x19.size a
  hwx0_0 : ∀ i : grid0.Coords, EltTy.bits .f32 = 32 ∨ (Rect.block (s := S100000x19) S10000x19.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S19x64.size a ≤ S19x64.size a
  hwx0_1 : ∀ i : grid0.Coords, EltTy.bits .f32 = 32 ∨ (Rect.block (s := S19x64) S19x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x5.size a ≤ S50000x5.size a
  hwx1_0 : ∀ i : grid1.Coords, EltTy.bits .f32 = 32 ∨ (Rect.block (s := S50000x5) S10000x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x64.size a ≤ S5x64.size a
  hwx1_1 : ∀ i : grid1.Coords, EltTy.bits .f32 = 32 ∨ (Rect.block (s := S5x64) S5x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x1.size a ≤ S64x1.size a
  hwx3_7 : ∀ i : grid3.Coords, EltTy.bits .f32 = 32 ∨ (Rect.block (s := S64x1) S64x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x1.size a ≤ S100000x1.size a
  hwx3_9 : ∀ i : grid3.Coords, EltTy.bits .f32 = 32 ∨ (Rect.block (s := S100000x1) S4000x1.size (cc3_transform_9 i) (hinb3_9 i)).WholeWords (EltTy.packing .f32)

variable [Facts₀]

def dot_S10000x19_S19x64_S10000x64_1_0_0_1_n_n : DotDims S10000x19 S19x64 S10000x64 where
  lhsContracting := [1]
  rhsContracting := [0]
  lhsNonContracting := [0]
  rhsNonContracting := [1]
  lhsBatch := []
  rhsBatch := []
  wf := dot_S10000x19_S19x64_S10000x64_1_0_0_1_n_n_wf
def dot_S10000x5_S5x64_S10000x64_1_0_0_1_n_n : DotDims S10000x5 S5x64 S10000x64 where
  lhsContracting := [1]
  rhsContracting := [0]
  lhsNonContracting := [0]
  rhsNonContracting := [1]
  lhsBatch := []
  rhsBatch := []
  wf := dot_S10000x5_S5x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S10000x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S19x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S5x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v5) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg15) S64x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v48) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v49) S4000x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x19 : Shape := ⟨2, ![100000, 19]⟩
abbrev S50000x5 : Shape := ⟨2, ![50000, 5]⟩
abbrev S2x1250000 : Shape := ⟨2, ![2, 1250000]⟩
abbrev S1250000 : Shape := ⟨1, ![1250000]⟩
abbrev S19x64 : Shape := ⟨2, ![19, 64]⟩
abbrev S64 : Shape := ⟨1, ![64]⟩
abbrev S5x64 : Shape := ⟨2, ![5, 64]⟩
abbrev S128x64 : Shape := ⟨2, ![128, 64]⟩
abbrev S64x64 : Shape := ⟨2, ![64, 64]⟩
abbrev S64x1 : Shape := ⟨2, ![64, 1]⟩
abbrev S1 : Shape := ⟨1, ![1]⟩
abbrev S1x1250000 : Shape := ⟨2, ![1, 1250000]⟩
abbrev S100000x64 : Shape := ⟨2, ![100000, 64]⟩
abbrev S1x64 : Shape := ⟨2, ![1, 64]⟩
abbrev S_ : Shape := ⟨0, ![]⟩
abbrev S50000x64 : Shape := ⟨2, ![50000, 64]⟩
abbrev S1250000x1 : Shape := ⟨2, ![1250000, 1]⟩
abbrev S1250000x64 : Shape := ⟨2, ![1250000, 64]⟩
abbrev S50000x128 : Shape := ⟨2, ![50000, 128]⟩
abbrev S100000x128 : Shape := ⟨2, ![100000, 128]⟩
abbrev S100000x1 : Shape := ⟨2, ![100000, 1]⟩
abbrev S1x1 : Shape := ⟨2, ![1, 1]⟩
abbrev S100000 : Shape := ⟨1, ![100000]⟩

abbrev nBuf : Space → Nat
  | .hbm => 96
  | .vmem => 0
  | .smem => 0
  | _ => 0

abbrev bufTy : (tb : Table) → Fin (tcTables nBuf tb) → BufTy
  | .hbm, ⟨0, _⟩ => ⟨S100000x19, .f32⟩
  | .hbm, ⟨1, _⟩ => ⟨S50000x5, .f32⟩
  | .hbm, ⟨2, _⟩ => ⟨S2x1250000, .i32⟩
  | .hbm, ⟨3, _⟩ => ⟨S1250000, .f32⟩
  | .hbm, ⟨4, _⟩ => ⟨S19x64, .f32⟩
  | .hbm, ⟨5, _⟩ => ⟨S64, .f32⟩
  | .hbm, ⟨6, _⟩ => ⟨S5x64, .f32⟩
  | .hbm, ⟨7, _⟩ => ⟨S64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x1250000, .i32⟩
  | .hbm, ⟨18, _⟩ => ⟨S1250000, .i32⟩
  | .hbm, ⟨19, _⟩ => ⟨S1x1250000, .i32⟩
  | .hbm, ⟨20, _⟩ => ⟨S1250000, .i32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | .hbm, ⟨28, _⟩ => ⟨S50000x64, .f32⟩
  | .hbm, ⟨29, _⟩ => ⟨S1x64, .f32⟩
  | .hbm, ⟨30, _⟩ => ⟨S50000x64, .f32⟩
  | .hbm, ⟨31, _⟩ => ⟨S50000x64, .f32⟩
  | .hbm, ⟨32, _⟩ => ⟨S_, .f32⟩
  | .hbm, ⟨33, _⟩ => ⟨S50000x64, .f32⟩
  | .hbm, ⟨34, _⟩ => ⟨S50000x64, .f32⟩
  | .hbm, ⟨35, _⟩ => ⟨S1250000x1, .f32⟩
  | .hbm, ⟨36, _⟩ => ⟨S1x64, .f32⟩
  | .hbm, ⟨37, _⟩ => ⟨S1250000x64, .f32⟩
  | .hbm, ⟨38, _⟩ => ⟨S1250000x64, .f32⟩
  | .hbm, ⟨39, _⟩ => ⟨S1250000x64, .f32⟩
  | .hbm, ⟨40, _⟩ => ⟨S_, .i32⟩
  | .hbm, ⟨41, _⟩ => ⟨S1250000, .i32⟩
  | .hbm, ⟨42, _⟩ => ⟨S1250000, .i1⟩
  | .hbm, ⟨43, _⟩ => ⟨S_, .i32⟩
  | .hbm, ⟨44, _⟩ => ⟨S1250000, .i32⟩
  | .hbm, ⟨45, _⟩ => ⟨S1250000, .i32⟩
  | .hbm, ⟨46, _⟩ => ⟨S1250000, .i32⟩
  | .hbm, ⟨47, _⟩ => ⟨S1250000x1, .i32⟩
  | .hbm, ⟨48, _⟩ => ⟨S1250000x64, .f32⟩
  | .hbm, ⟨49, _⟩ => ⟨S1250000x64, .f32⟩
  | .hbm, ⟨50, _⟩ => ⟨S_, .f32⟩
  | .hbm, ⟨51, _⟩ => ⟨S50000x64, .f32⟩
  | .hbm, ⟨52, _⟩ => ⟨S1250000x1, .i32⟩
  | .hbm, ⟨53, _⟩ => ⟨S50000x64, .f32⟩
  | .hbm, ⟨54, _⟩ => ⟨S50000x128, .f32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S_, .i32⟩
  | .hbm, ⟨63, _⟩ => ⟨S1250000, .i32⟩
  | .hbm, ⟨64, _⟩ => ⟨S1250000, .i1⟩
  | .hbm, ⟨65, _⟩ => ⟨S_, .i32⟩
  | .hbm, ⟨66, _⟩ => ⟨S1250000, .i32⟩
  | .hbm, ⟨67, _⟩ => ⟨S1250000, .i32⟩
  | .hbm, ⟨68, _⟩ => ⟨S1250000, .i32⟩
  | .hbm, ⟨69, _⟩ => ⟨S1250000x1, .i32⟩
  | .hbm, ⟨70, _⟩ => ⟨S1250000x64, .f32⟩
  | .hbm, ⟨71, _⟩ => ⟨S1250000x64, .f32⟩
  | .hbm, ⟨72, _⟩ => ⟨S_, .f32⟩
  | .hbm, ⟨73, _⟩ => ⟨S100000x64, .f32⟩
  | .hbm, ⟨74, _⟩ => ⟨S1250000x1, .i32⟩
  | .hbm, ⟨75, _⟩ => ⟨S100000x64, .f32⟩
  | .hbm, ⟨76, _⟩ => ⟨S100000x128, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x1, .f32⟩
  | .hbm, ⟨92, _⟩ => ⟨S1x1, .f32⟩
  | .hbm, ⟨93, _⟩ => ⟨S100000x1, .f32⟩
  | .hbm, ⟨94, _⟩ => ⟨S100000x1, .f32⟩
  | .hbm, ⟨95, _⟩ => ⟨S100000, .f32⟩
  | _, _ => ⟨S100000x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_cst : Ref sig .tc := ⟨.hbm, 32, rfl⟩
abbrev main_call1_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call2_cst : Ref sig .tc := ⟨.hbm, 59, rfl⟩
abbrev main_call2_v0 : Ref sig .tc := ⟨.hbm, 60, rfl⟩
abbrev main_v35 : Ref sig .tc := ⟨.hbm, 61, rfl⟩
abbrev main_c_1 : Ref sig .tc := ⟨.hbm, 62, rfl⟩
abbrev main_v36 : Ref sig .tc := ⟨.hbm, 63, rfl⟩
abbrev main_v37 : Ref sig .tc := ⟨.hbm, 64, rfl⟩
abbrev main_c_2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_3 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call3_cst : Ref sig .tc := ⟨.hbm, 81, rfl⟩
abbrev main_call3_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call4_cst : Ref sig .tc := ⟨.hbm, 88, rfl⟩
abbrev main_call4_v0 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S1x64_S1250000x64_0_1 : S1x64.BroadcastsInDim S1250000x64 (![0, 1] : Fin 2 → Fin S1250000x64.rank)
  bcast_S_S1250000 : S_.BroadcastsInDim S1250000 (![] : Fin 0 → Fin S1250000.rank)
  concatenates_S50000x64_S50000x64_S50000x128_d1 : Shape.Concatenates [S50000x64, S50000x64] S50000x128 1
  concatenates_S100000x64_S100000x64_S100000x128_d1 : Shape.Concatenates [S100000x64, S100000x64] S100000x128 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x19_S19x64_S100000x64_1_0_0_1_n_n_wf : DotDims.WF S100000x19 S19x64 S100000x64 [1] [0] [0] [1] [] []
  dot_S50000x5_S5x64_S50000x64_1_0_0_1_n_n_wf : DotDims.WF S50000x5 S5x64 S50000x64 [1] [0] [0] [1] [] []
  gather_S100000x64_S1250000x1_S1250000x64_1_0_n_n_0_1_164_wf : GatherDims.WF S100000x64 S1250000x1 S1250000x64 [1] [0] [] [0] [] 1 ![1, 64]
  scatter_S50000x64_S1250000x1_S1250000x64_1_0_0_1_wf : ScatterDims.WF S50000x64 S1250000x1 S1250000x64 [1] [0] [0] 1
  dot_S50000x128_S128x64_S50000x64_1_0_0_1_n_n_wf : DotDims.WF S50000x128 S128x64 S50000x64 [1] [0] [0] [1] [] []
  gather_S50000x64_S1250000x1_S1250000x64_1_0_n_n_0_1_164_wf : GatherDims.WF S50000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x19_S19x64_S100000x64_1_0_0_1_n_n : DotDims S100000x19 S19x64 S100000x64 where
  lhsContracting := [1]
  rhsContracting := [0]
  lhsNonContracting := [0]
  rhsNonContracting := [1]
  lhsBatch := []
  rhsBatch := []
  wf := dot_S100000x19_S19x64_S100000x64_1_0_0_1_n_n_wf
def dot_S50000x5_S5x64_S50000x64_1_0_0_1_n_n : DotDims S50000x5 S5x64 S50000x64 where
  lhsContracting := [1]
  rhsContracting := [0]
  lhsNonContracting := [0]
  rhsNonContracting := [1]
  lhsBatch := []
  rhsBatch := []
  wf := dot_S50000x5_S5x64_S50000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel program's run with its result named: every weakly fair execution from a memory with zero
  counters terminates without a fault, the result array holds what the last stretch of host operations leaves in
  it — the contents `W9` folded through the four regions and the five stretches of host operations from the launch
  memory — and every argument array is as launched.
-/
import proofs.«105270_j8598524526745_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run, the result array named: the launch over the program's nine segments, the last thread state read
    against the final state, the result at the last boundary's contents and each argument walked back to the launch
    memory. -/
theorem run : θ_run defs (onTc (τ := τ) (main (F := F))) ⟨m, fun _ => 0, ρ⟩ (fun r => ∀ c : Dev nD,
      r.2.mem ((c.tc : Thread nD τ).loc main_v50) = W9 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v50 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩)

end Cert.KernelIdeal.RunV

end
-- ==== Proof.Model.lean ====
/-
  The two computations as functions of their data, over plain finite index types.

  A bipartite graph network: variables and constraints are embedded by a dense layer, messages travel along the
  edges from the variables to the constraints and back, each message an embedding row scaled by the edge's
  attribute and by a per-column edge weight, summed per receiving node, and a dense update joins a node's own
  embedding with the sum it received; a two-layer head reads a score off each variable.

  The two forms differ in where the per-column edge weight is applied. In the first it scales every message
  before the sum; in the second the messages are summed unscaled and the weight scales the rows of the lower half
  of the update matrix. They also differ in how the update is spelt: one product with the joined matrix
  [own | received] against the two products added. Gathering and summing are described by abstract maps: which
  row an edge reads, and on which row, if any, its message lands.
-/
import Mathlib.Data.EReal.Basic
import Mathlib.Algebra.BigOperators.Fin

noncomputable section

open scoped BigOperators

namespace Cert.Model

/-- relu(x·w + b). -/
def dense {A K B : Nat} (x : Fin A → Fin K → EReal) (w : Fin K → Fin B → EReal) (b : Fin B → EReal) :
    Fin A → Fin B → EReal :=
  fun p q => max ((∑ k : Fin K, x p k * w k q) + b q) 0

/-- relu(x·wx + y·wy + b). -/
def dense2 {A K B : Nat} (x y : Fin A → Fin K → EReal) (wx wy : Fin K → Fin B → EReal) (b : Fin B → EReal) :
    Fin A → Fin B → EReal :=
  fun p q => max (((∑ k : Fin K, x p k * wx k q) + (∑ k : Fin K, y p k * wy k q)) + b q) 0

/-- The sum, per receiving row, of the rows that land on it, from zero. -/
def segsum {N C E : Nat} (l : Fin E → Option (Fin N)) (u : Fin E → Fin C → EReal) : Fin N → Fin C → EReal :=
  fun j q => 0 + ∑ k ∈ Finset.univ.filter (fun k : Fin E => l k = some j), u k q

/-- Two matrices of 64 columns laid side by side. -/
def cat {A : Nat} (x y : Fin A → Fin 64 → EReal) : Fin A → Fin 128 → EReal :=
  fun p k => if h : k.val < 64 then x p ⟨k.val, h⟩ else y p ⟨k.val - 64, by have := k.isLt; omega⟩

/-- The upper 64 rows of a matrix of 128 rows. -/
def top {B : Nat} (w : Fin 128 → Fin B → EReal) : Fin 64 → Fin B → EReal :=
  fun k q => w ⟨k.val, by have := k.isLt; omega⟩ q

/-- The lower 64 rows of a matrix of 128 rows. -/
def bot {B : Nat} (w : Fin 128 → Fin B → EReal) : Fin 64 → Fin B → EReal :=
  fun k q => w ⟨64 + k.val, by have := k.isLt; omega⟩ q

/-- The score head: h·w + b, one column. -/
def head {A K : Nat} (h : Fin A → Fin K → EReal) (w : Fin K → Fin 1 → EReal) (b : Fin 1 → EReal) : Fin A → EReal :=
  fun v => (∑ k : Fin K, h v k * w k ⟨0, Nat.one_pos⟩) + b ⟨0, Nat.one_pos⟩

section
variable {NV NC E : Nat}
  (X : Fin NV → Fin 19 → EReal) (Y : Fin NC → Fin 5 → EReal)
  (gv : Fin E → Fin NV) (gc : Fin E → Fin NC) (lc : Fin E → Option (Fin NC)) (lv : Fin E → Option (Fin NV))
  (a : Fin E → EReal)
  (Wv : Fin 19 → Fin 64 → EReal) (bv : Fin 64 → EReal) (Wc : Fin 5 → Fin 64 → EReal) (bc : Fin 64 → EReal)
  (we : Fin 64 → EReal)
  (Wcu : Fin 128 → Fin 64 → EReal) (bcu : Fin 64 → EReal) (Wvu : Fin 128 → Fin 64 → EReal) (bvu : Fin 64 → EReal)
  (Wp1 : Fin 64 → Fin 64 → EReal) (bp1 : Fin 64 → EReal) (Wp2 : Fin 64 → Fin 1 → EReal) (bp2 : Fin 1 → EReal)

/-- The lower half of an update matrix with row k scaled by the edge weight of column k. -/
def scaled (W : Fin 128 → Fin 64 → EReal) : Fin 64 → Fin 64 → EReal := fun k n => bot W k n * we k

/-- Variable embeddings. -/
def varEmb : Fin NV → Fin 64 → EReal := dense X Wv bv
/-- Constraint embeddings. -/
def conEmb : Fin NC → Fin 64 → EReal := dense Y Wc bc

/-- Weights folded into the update matrix: what each constraint receives, unscaled by the edge weight. -/
def kConAgg : Fin NC → Fin 64 → EReal := segsum lc (fun e k => varEmb X Wv bv (gv e) k * a e)
def kConEmb2 : Fin NC → Fin 64 → EReal :=
  dense2 (conEmb Y Wc bc) (kConAgg X gv lc a Wv bv) (top Wcu) (scaled we Wcu) bcu
def kVarAgg : Fin NV → Fin 64 → EReal :=
  segsum lv (fun e k => kConEmb2 X Y gv lc a Wv bv Wc bc we Wcu bcu (gc e) k * a e)
def kVarEmb2 : Fin NV → Fin 64 → EReal :=
  dense2 (varEmb X Wv bv) (kVarAgg X Y gv gc lc lv a Wv bv Wc bc we Wcu bcu) (top Wvu) (scaled we Wvu) bvu
/-- The scores, weights folded into the update matrices. -/
def kOut : Fin NV → EReal :=
  head (dense (kVarEmb2 X Y gv gc lc lv a Wv bv Wc bc we Wcu bcu Wvu bvu) Wp1 bp1) Wp2 bp2

/-- Weights on the messages: what each constraint receives. -/
def rConAgg : Fin NC → Fin 64 → EReal := segsum lc (fun e k => varEmb X Wv bv (gv e) k * (a e * we k))
def rConEmb2 : Fin NC → Fin 64 → EReal :=
  dense (cat (conEmb Y Wc bc) (rConAgg X gv lc a Wv bv we)) Wcu bcu
def rVarAgg : Fin NV → Fin 64 → EReal :=
  segsum lv (fun e k => rConEmb2 X Y gv lc a Wv bv Wc bc we Wcu bcu (gc e) k * (a e * we k))
def rVarEmb2 : Fin NV → Fin 64 → EReal :=
  dense (cat (varEmb X Wv bv) (rVarAgg X Y gv gc lc lv a Wv bv Wc bc we Wcu bcu)) Wvu bvu
/-- The scores, weights on the messages. -/
def rOut : Fin NV → EReal :=
  head (dense (rVarEmb2 X Y gv gc lc lv a Wv bv Wc bc we Wcu bcu Wvu bvu) Wp1 bp1) Wp2 bp2

end

end Cert.Model

end
-- ==== Proof.LibRowScatter.lean ====
/-
  General lemmas for `x.at[idx].add(u)` on the rows of a matrix: a scatter-add into a matrix of `N` rows of `C` entries
  from a column of `E` index words and `E` update rows. Update row `k` lands, whole, on the row its word names read
  signed, and nowhere when the word is outside `[0, N)`; so entry `(j, q)` of the result is the operand's entry plus
  the sum, over the update rows whose word names `j`, of their entries in column `q`.
-/
import Idealize.ShloMosaic.PureOps.Ideal
import Idealize.ShloMosaic.Lib.ValueIdx

noncomputable section

open scoped BigOperators

namespace Cert.LibRowScatter

open Idealize.ShloMosaic Idealize.ShloMosaic.ValueIdx

/-- The dimension numbers of `x.at[idx].add(u)` for a matrix `x` of `N` rows of `C` entries, a column of `E` index
    words and `E` update rows: whole rows are added. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- The row a word names: the word read signed, and none when it is outside `[0, N)`. -/
def lands (N : Nat) {w : Nat} (W : BitVec w) : Option (Fin N) :=
  if h : 0 ≤ W.toInt ∧ W.toInt < (N : Int) then some ⟨W.toInt.toNat, by omega⟩ else none

section
variable {N C E w : Nat} (wf : ScatterDims.WF ⟨2, ![N, C]⟩ ⟨2, ![E, 1]⟩ ⟨2, ![E, C]⟩ [1] [0] [0] 1)

/-- On the row axis the window of update `j` starts at its index word, read signed … -/
theorem rowScatter_start0 (j : (⟨2, ![E, C]⟩ : Shape).Idx) (idx : IVec ⟨2, ![E, 1]⟩ w) :
    (rowScatter N C E wf).start j idx (0 : Fin 2) = (idx (ix2 (j 0) (⟨0, Nat.one_pos⟩ : Fin 1))).toInt := by
  unfold ScatterDims.start
  rw [dif_pos (show (0 : Fin 2) ∈ (rowScatter N C E wf).scatterDimsToOperandDims from List.mem_singleton.mpr rfl)]
  have hsi : (rowScatter N C E wf).siIdx j ⟨List.idxOf (0 : Fin 2) (rowScatter N C E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  try rfl

/-- … and on the column axis at zero. -/
theorem rowScatter_start1 (j : (⟨2, ![E, C]⟩ : Shape).Idx) (idx : IVec ⟨2, ![E, 1]⟩ w) :
    (rowScatter N C E wf).start j idx (1 : Fin 2) = 0 := by
  unfold ScatterDims.start
  rw [dif_neg]
  intro h
  have h2 := List.mem_singleton.mp h
  exact Nat.one_ne_zero (congrArg Fin.val h2)

/-- The window is one row: its row coordinate is zero … -/
theorem rowScatter_window0 (j : (⟨2, ![E, C]⟩ : Shape).Idx) : (rowScatter N C E wf).window j (0 : Fin 2) = 0 := by
  unfold ScatterDims.window
  rw [dif_neg]
  intro h
  have h2 := (List.mem_filter.mp h).2
  simp at h2

/-- … and its column coordinate the update's. -/
theorem rowScatter_window1 (j : (⟨2, ![E, C]⟩ : Shape).Idx) : (rowScatter N C E wf).window j (1 : Fin 2) = (j 1).val := by
  unfold ScatterDims.window
  have hm : (1 : Fin 2) ∈ (List.finRange 2).filter (fun a => a ∉ [(0 : Fin 2)]) := by decide
  rw [dif_pos (show (1 : Fin 2) ∈ (rowScatter N C E wf).sKept from hm)]
  rfl

/-- Update row `k` lands, column by column, on the row its word names, and nowhere when the word is outside `[0, N)`. -/
theorem rowScatter_lands (k : Fin E) (q : Fin C) (idx : IVec ⟨2, ![E, 1]⟩ w) :
    (rowScatter N C E wf).resultIdx? (ix2 k q) idx
      = if h : 0 ≤ (idx (ix2 k (⟨0, Nat.one_pos⟩ : Fin 1))).toInt ∧ (idx (ix2 k (⟨0, Nat.one_pos⟩ : Fin 1))).toInt < (N : Int) then
          some (ix2 ⟨(idx (ix2 k (⟨0, Nat.one_pos⟩ : Fin 1))).toInt.toNat, by omega⟩ q)
        else none := by
  have s0 : (rowScatter N C E wf).start (ix2 k q) idx (0 : Fin 2) + ((rowScatter N C E wf).window (ix2 k q) (0 : Fin 2) : Int)
      = (idx (ix2 k (⟨0, Nat.one_pos⟩ : Fin 1))).toInt := by
    rw [rowScatter_start0, rowScatter_window0, Nat.cast_zero, add_zero]
    try rfl
  have s1 : (rowScatter N C E wf).start (ix2 k q) idx (1 : Fin 2) + ((rowScatter N C E wf).window (ix2 k q) (1 : Fin 2) : Int)
      = (q.val : Int) := by
    rw [rowScatter_start1, rowScatter_window1, zero_add]
    try rfl
  unfold ScatterDims.resultIdx?
  by_cases h : 0 ≤ (idx (ix2 k (⟨0, Nat.one_pos⟩ : Fin 1))).toInt ∧ (idx (ix2 k (⟨0, Nat.one_pos⟩ : Fin 1))).toInt < (N : Int)
  · have hall : ∀ a : Fin 2, 0 ≤ (rowScatter N C E wf).start (ix2 k q) idx a + ((rowScatter N C E wf).window (ix2 k q) a : Int)
        ∧ (rowScatter N C E wf).start (ix2 k q) idx a + ((rowScatter N C E wf).window (ix2 k q) a : Int)
          < ((⟨2, ![N, C]⟩ : Shape).size a : Int) := by
      intro a
      match a with
      | ⟨0, _⟩ =>
        show 0 ≤ (rowScatter N C E wf).start (ix2 k q) idx (0 : Fin 2) + ((rowScatter N C E wf).window (ix2 k q) (0 : Fin 2) : Int)
          ∧ (rowScatter N C E wf).start (ix2 k q) idx (0 : Fin 2) + ((rowScatter N C E wf).window (ix2 k q) (0 : Fin 2) : Int) < (N : Int)
        rw [s0]; exact h
      | ⟨1, _⟩ =>
        show 0 ≤ (rowScatter N C E wf).start (ix2 k q) idx (1 : Fin 2) + ((rowScatter N C E wf).window (ix2 k q) (1 : Fin 2) : Int)
          ∧ (rowScatter N C E wf).start (ix2 k q) idx (1 : Fin 2) + ((rowScatter N C E wf).window (ix2 k q) (1 : Fin 2) : Int) < (C : Int)
        rw [s1]; have := q.isLt; omega
    rw [dif_pos hall, dif_pos h]
    congr 1
    funext a
    refine Fin.ext ?_
    match a with
    | ⟨0, _⟩ =>
      show ((rowScatter N C E wf).start (ix2 k q) idx (0 : Fin 2) + ((rowScatter N C E wf).window (ix2 k q) (0 : Fin 2) : Int)).toNat
        = (idx (ix2 k (⟨0, Nat.one_pos⟩ : Fin 1))).toInt.toNat
      rw [s0]
    | ⟨1, _⟩ =>
      show ((rowScatter N C E wf).start (ix2 k q) idx (1 : Fin 2) + ((rowScatter N C E wf).window (ix2 k q) (1 : Fin 2) : Int)).toNat
        = q.val
      rw [s1]; simp
  · rw [dif_neg h, dif_neg]
    intro hall
    have h0 := hall (0 : Fin 2)
    rw [s0] at h0
    exact h h0

/-- So update entry `(k, q')` lands on entry `(j, q)` exactly when row `k`'s word names `j` and the columns agree. -/
theorem rowScatter_lands_iff (k : Fin E) (q' : Fin C) (idx : IVec ⟨2, ![E, 1]⟩ w) (j : Fin N) (q : Fin C) :
    (rowScatter N C E wf).resultIdx? (ix2 k q') idx = some (ix2 j q)
      ↔ lands N (idx (ix2 k (⟨0, Nat.one_pos⟩ : Fin 1))) = some j ∧ q' = q := by
  rw [rowScatter_lands]
  unfold lands
  by_cases h : 0 ≤ (idx (ix2 k (⟨0, Nat.one_pos⟩ : Fin 1))).toInt ∧ (idx (ix2 k (⟨0, Nat.one_pos⟩ : Fin 1))).toInt < (N : Int)
  · rw [dif_pos h, dif_pos h]
    constructor
    · intro e
      have e' := Option.some.inj e
      have e0 := congrFun e' (0 : Fin 2)
      have e1 := congrFun e' (1 : Fin 2)
      exact ⟨congrArg some e0, e1⟩
    · rintro ⟨e0, rfl⟩
      rw [Option.some.inj e0]
  · rw [dif_neg h, dif_neg h]
    constructor
    · intro e; exact absurd e (by simp)
    · rintro ⟨e, -⟩; exact absurd e (by simp)

/-- Entry `(j, q)` of the scatter-add: the operand's entry plus the entries in column `q` of the update rows whose
    word names row `j`. -/
theorem rowScatter_apply (x : (⟨2, ![N, C]⟩ : Shape).Idx → EReal) (idx : IVec ⟨2, ![E, 1]⟩ w)
    (upd : (⟨2, ![E, C]⟩ : Shape).Idx → EReal) (j : Fin N) (q : Fin C) :
    Ideal.hostScatterAdd (rowScatter N C E wf) x idx upd (ix2 j q)
      = x (ix2 j q) + ∑ k ∈ Finset.univ.filter (fun k : Fin E => lands N (idx (ix2 k (⟨0, Nat.one_pos⟩ : Fin 1))) = some j),
          upd (ix2 k q) := by
  unfold Ideal.hostScatterAdd
  refine congrArg (x (ix2 j q) + ·) (Eq.symm ?_)
  refine Finset.sum_bij (fun k _ => ix2 k q) ?_ ?_ ?_ ?_
  · intro k hk
    have hk' := (Finset.mem_filter.mp hk).2
    exact Finset.mem_filter.mpr ⟨Finset.mem_univ _, (rowScatter_lands_iff wf k q idx j q).mpr ⟨hk', rfl⟩⟩
  · intro k _ k' _ e
    exact congrFun e (0 : Fin 2)
  · intro u hu
    have hu' := (Finset.mem_filter.mp hu).2
    rw [eq_ix2 u] at hu'
    obtain ⟨h1, h2⟩ := (rowScatter_lands_iff wf (u 0) (u 1) idx j q).mp hu'
    refine ⟨u 0, Finset.mem_filter.mpr ⟨Finset.mem_univ _, h1⟩, ?_⟩
    rw [← h2]; exact (eq_ix2 u).symm
  · intro k _; rfl

end

end Cert.LibRowScatter

end
-- ==== Proof.View.lean ====
/-
  Arrays seen as functions of plain coordinates, and the two maps an index column defines: the row an edge reads
  (its word read signed and clamped into the rows) and the row its message lands on (its word read signed, none
  when it is outside the rows).
-/
import Idealize.ShloMosaic.Lib.ValueIdx
import proofs.«105270_j8598524526745_2_alg».proof.Proof.LibRowScatter

noncomputable section

namespace Cert.View

open Idealize.ShloMosaic Idealize.ShloMosaic.ValueIdx

/-- A matrix as a function of its row and column. -/
def cur2 {a b : Nat} (x : (⟨2, ![a, b]⟩ : Shape).Idx → EReal) : Fin a → Fin b → EReal := fun p q => x (ix2 p q)

/-- A vector as a function of its position. -/
def cur1 {a : Nat} (x : (⟨1, ![a]⟩ : Shape).Idx → EReal) : Fin a → EReal := fun p => x (ix1 p)

/-- The row edge `e` reads: its index word read signed and clamped into `[0, N − 1]`. -/
def rowOf (N : Nat) (hN : 0 < N) {E : Nat} (J : IVec ⟨2, ![E, 1]⟩ 32) : Fin E → Fin N :=
  fun e => ⟨min (J (ix2 e (⟨0, Nat.one_pos⟩ : Fin 1))).toInt.toNat (N - 1), by omega⟩

/-- The row edge `e`'s message lands on: its index word read signed, none when outside `[0, N)`. -/
def landOf (N : Nat) {E : Nat} (I : IVec ⟨2, ![E, 1]⟩ 32) : Fin E → Option (Fin N) :=
  fun e => Cert.LibRowScatter.lands N (I (ix2 e (⟨0, Nat.one_pos⟩ : Fin 1)))

theorem cur2_apply {a b : Nat} (x : (⟨2, ![a, b]⟩ : Shape).Idx → EReal) (p : Fin a) (q : Fin b) : cur2 x p q = x (ix2 p q) := rfl
theorem cur1_apply {a : Nat} (x : (⟨1, ![a]⟩ : Shape).Idx → EReal) (p : Fin a) : cur1 x p = x (ix1 p) := rfl

end Cert.View

end
-- ==== Proof.LibTake.lean ====
/-
  General lemmas: what `x[idx]` lowers to, read at an index. A gather of a vector, or of the rows of a matrix, at a
  column of start indices [E, 1] is the operand at the start index read signed and clamped into the operand's
  rows; and the two broadcasts that carry a per-row vector to a column and a column across the columns.
-/
import Idealize.ShloMosaic.Lib.ValueIdx
import Idealize.ShloMosaic.Lib.Pipeline.Value

noncomputable section

namespace Cert.LibTake

open Idealize.ShloMosaic Idealize.ShloMosaic.ValueIdx

variable {α : Type}

/-- The dimension numbers of `x[idx]` for a vector `x` of `N` entries and a column of `E` start indices. -/
abbrev vecTake (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Entry `e` of the gather is the vector at start index `idx[e, 0]`, read signed and clamped into `[0, N − 1]`. -/
theorem vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecTake N E wf) x idx y
      = x (ix1 ⟨min (idx (ix2 (y 0) (⟨0, Nat.one_pos⟩ : Fin 1))).toInt.toNat (N - 1), by omega⟩) := by
  unfold Host.gather
  congr 1
  funext a
  obtain rfl : a = 0 := Subsingleton.elim _ _
  refine Fin.ext ?_
  show (vecTake N E wf).start y idx 0 + (vecTake N E wf).batchCoord y 0 + (vecTake N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake N E wf).startIndexMap from List.mem_singleton.mpr rfl)]
  have hsi : (vecTake N E wf).siIdx y ⟨List.idxOf (0 : Fin 1) (vecTake N E wf).startIndexMap,
      List.idxOf_lt_length_iff.2 (List.mem_singleton.mpr rfl)⟩ = ix2 (y 0) (⟨0, Nat.one_pos⟩ : Fin 1) := by
    funext b; refine Fin.ext ?_
    match b with
    | ⟨0, _⟩ => rfl
    | ⟨1, _⟩ => rfl
  rw [hsi]
  rfl

/-- The dimension numbers of `x[idx]` for a matrix `x` of `N` rows of `C` entries and a column of `E` start indices:
    whole rows are taken. -/
abbrev rowTake (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- Entry `(e, c)` of the gather is the matrix at row `idx[e, 0]` (read signed and clamped into `[0, N − 1]`),
    column `c`. -/
theorem rowTake_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowTake N C E wf) x idx y
      = x (ix2 ⟨min (idx (ix2 (y 0) (⟨0, Nat.one_pos⟩ : Fin 1))).toInt.toNat (N - 1), by omega⟩ (y 1)) := by
  unfold Host.gather
  congr 1
  funext a
  refine Fin.ext ?_
  match a with
  | ⟨0, _⟩ =>
    show (rowTake N C E wf).start y idx (0 : Fin 2) + (rowTake N C E wf).batchCoord y (0 : Fin 2)
      + (rowTake N C E wf).offCoord y (0 : Fin 2) = min (idx (ix2 (y 0) (⟨0, Nat.one_pos⟩ : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N C E wf).startIndexMap from List.mem_singleton.mpr rfl)]
    have hsi : (rowTake N C E wf).siIdx y ⟨List.idxOf (0 : Fin 2) (rowTake N C E wf).startIndexMap,
        List.idxOf_lt_length_iff.2 (List.mem_singleton.mpr rfl)⟩ = ix2 (y 0) (⟨0, Nat.one_pos⟩ : Fin 1) := by
      funext b; refine Fin.ext ?_
      match b with
      | ⟨0, _⟩ => rfl
      | ⟨1, _⟩ => rfl
    rw [hsi]
    rfl
  | ⟨1, _⟩ =>
    show (rowTake N C E wf).start y idx (1 : Fin 2) + (rowTake N C E wf).batchCoord y (1 : Fin 2)
      + (rowTake N C E wf).offCoord y (1 : Fin 2) = (y 1).val
    have hs : (rowTake N C E wf).start y idx (1 : Fin 2) = 0 := by
      unfold GatherDims.start
      rw [dif_neg (show ¬ ((1 : Fin 2) ∈ ([0] : List (Fin 2))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((1 : Fin 2) ∈ ([0] : List (Fin 2))) from by decide), List.not_mem_nil⟩)]
    rfl

/-- A per-row vector carried to a column: entry `(e, u)` is the vector's entry `e`. -/
theorem bcastCol_apply {E : Nat} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) := by
  unfold broadcastInDim
  congr 1
  funext a
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-- A column carried across `C` columns: entry `(e, c)` is the column's entry `e`. -/
theorem bcastAcross_apply {E C : Nat} (h : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] h v (ix2 e c) = v (ix2 e (⟨0, Nat.one_pos⟩ : Fin 1)) := by
  unfold broadcastInDim
  congr 1
  funext a
  refine Fin.ext ?_
  match a with
  | ⟨0, _⟩ =>
    split
    · rename_i h1
      have hE : E = 1 := h1
      have := e.isLt
      show 0 = e.val
      omega
    · rfl
  | ⟨1, _⟩ =>
    split
    · rfl
    · rename_i h1
      exact absurd rfl h1

/-- A vector of `C` entries as one row: entry `(u, q)` is the vector's entry `q`. -/
theorem bcastRow_apply {C : Nat} (h : (⟨1, ![C]⟩ : Shape).BroadcastsInDim ⟨2, ![1, C]⟩ ![1])
    (v : (⟨1, ![C]⟩ : Shape).Idx → α) (u : Fin 1) (q : Fin C) :
    broadcastInDim ⟨2, ![1, C]⟩ ![1] h v (ix2 u q) = v (ix1 q) := by
  unfold broadcastInDim
  congr 1
  funext a
  obtain rfl : a = 0 := Subsingleton.elim _ _
  refine Fin.ext ?_
  split
  · rename_i h1
    have hC : C = 1 := h1
    have := q.isLt
    show 0 = q.val
    omega
  · rfl

/-- A row carried down `N` rows: entry `(r, q)` is the row's entry `q`. -/
theorem bcastDown_apply {N C : Nat} (h : (⟨2, ![1, C]⟩ : Shape).BroadcastsInDim ⟨2, ![N, C]⟩ ![0, 1])
    (v : (⟨2, ![1, C]⟩ : Shape).Idx → α) (r : Fin N) (q : Fin C) :
    broadcastInDim ⟨2, ![N, C]⟩ ![0, 1] h v (ix2 r q) = v (ix2 (⟨0, Nat.one_pos⟩ : Fin 1) q) := by
  unfold broadcastInDim
  congr 1
  funext a
  refine Fin.ext ?_
  match a with
  | ⟨0, _⟩ =>
    split
    · rfl
    · rename_i h1
      exact absurd rfl h1
  | ⟨1, _⟩ =>
    split
    · rename_i h1
      have hC : C = 1 := h1
      have := q.isLt
      show 0 = q.val
      omega
    · rfl

/-- A vector of `N` entries recast as a column: entry `(r, u)` is the vector's entry `r`. -/
theorem castCol_apply {N : Nat} (h : (⟨1, ![N]⟩ : Shape).ShapeCasts ⟨2, ![N, 1]⟩)
    (v : (⟨1, ![N]⟩ : Shape).Idx → α) (r : Fin N) (u : Fin 1) :
    shapeCast ⟨2, ![N, 1]⟩ v h (ix2 r u) = v (ix1 r) := by
  refine shapeCast_apply v h (ix2 r u) (ix1 r) ?_
  rw [Shape.rowMajor_val_two, Shape.rowMajor_val_one]
  show r.val = r.val * 1 + u.val
  have := u.isLt
  omega

/-- A vector of `C` entries recast as a row: entry `(u, q)` is the vector's entry `q`. -/
theorem castRow_apply {C : Nat} (h : (⟨1, ![C]⟩ : Shape).ShapeCasts ⟨2, ![1, C]⟩)
    (v : (⟨1, ![C]⟩ : Shape).Idx → α) (u : Fin 1) (q : Fin C) :
    shapeCast ⟨2, ![1, C]⟩ v h (ix2 u q) = v (ix1 q) := by
  refine shapeCast_apply v h (ix2 u q) (ix1 q) ?_
  rw [Shape.rowMajor_val_two, Shape.rowMajor_val_one]
  show q.val = u.val * C + q.val
  have := u.isLt
  have hu : u.val = 0 := by omega
  rw [hu]; omega

end Cert.LibTake

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibJoinedAxis.lean ====
/-
  Matrix products over a joined axis, at the ideal values.  When the columns of the left factor are two or three pieces
  laid side by side, [x | y]·W or [x | y | z]·W, the product is the sum of the pieces' products with the matching blocks
  of consecutive rows of W: a finite sum over a joined index range is the sum of the sums over its pieces, which on the
  extended reals uses only that addition is commutative and associative (no finiteness).  With it: a block of
  consecutive rows of a matrix as a function of the index and as what a unit-stride host slice cuts out, a vector recast
  as a one-row matrix, and that a row of a product depends on that row of the left factor only.
-/
import proofs.«105270_j8598524526745_2_alg».proof.Proof.LibMatmul
import Idealize.ShloMosaic.Lib.Pipeline.Value

noncomputable section

open scoped BigOperators

namespace Cert.LibJoinedAxis

open Idealize.ShloMosaic Idealize.ShloMosaic.ValueIdx Cert.LibMatmul

/-- Rows `off, …, off + K' - 1` of a matrix with `K` rows. -/
def rowsAt {K B : Nat} (off K' : Nat) (h : off + K' ≤ K) (w : (⟨2, ![K, B]⟩ : Shape).Idx → EReal) :
    (⟨2, ![K', B]⟩ : Shape).Idx → EReal :=
  fun i => w (ix2 ⟨off + (i 0).val, by have := idx2_lt0 i; omega⟩ (i 1))

theorem rowsAt_apply {K B : Nat} (off K' : Nat) (h : off + K' ≤ K) (w : (⟨2, ![K, B]⟩ : Shape).Idx → EReal)
    (k : Fin K') (q : Fin B) : rowsAt off K' h w (ix2 k q) = w (ix2 ⟨off + k.val, by have := k.isLt; omega⟩ q) := rfl

/-- Rows `off, …, off + K' - 1` of a matrix, all columns, are what a unit-stride slice at offset (off, 0) cuts out. -/
theorem slice_rows {K B K' : Nat} (off : Nat) (w : (⟨2, ![K, B]⟩ : Shape).Idx → EReal)
    (h : (⟨2, ![K, B]⟩ : Shape).Slices ![off, 0] ⟨2, ![K', B]⟩) (hle : off + K' ≤ K) :
    extractStridedSlice ⟨2, ![K', B]⟩ ![off, 0] w h = rowsAt off K' hle w := by
  funext i
  obtain ⟨k, q, rfl⟩ : ∃ (k : Fin K') (q : Fin B), i = ix2 k q := ⟨i 0, i 1, eq_ix2 i⟩
  rw [rowsAt_apply]
  refine extractStridedSlice_apply ![off, 0] w h (ix2 k q) (ix2 ⟨off + k.val, by have := k.isLt; omega⟩ q) (fun a => ?_)
  match a with
  | ⟨0, _⟩ => rfl
  | ⟨1, _⟩ => show q.val = 0 + q.val; omega

/-- A vector recast as a one-row matrix reads the vector at the column. -/
theorem reshape_row {B : Nat} (v : (⟨1, ![B]⟩ : Shape).Idx → EReal)
    (h : (⟨1, ![B]⟩ : Shape).ShapeCasts ⟨2, ![1, B]⟩) :
    shapeCast ⟨2, ![1, B]⟩ v h = fun i => v (ix1 (i 1)) := by
  funext i
  refine shapeCast_apply v h i (ix1 (i 1)) ?_
  rewrite [Shape.rowMajor_val_one, Shape.rowMajor_val_two]
  have h0 : (i 0).val < 1 := idx2_lt0 i
  have h00 : (i 0).val = 0 := by omega
  show (i 1).val = (i 0).val * B + (i 1).val
  rw [h00]; omega

/-- A row of a matrix product depends on that row of the left factor only. -/
theorem MM_row {A A' K B : Nat} (x : (⟨2, ![A, K]⟩ : Shape).Idx → EReal) (x' : (⟨2, ![A', K]⟩ : Shape).Idx → EReal)
    (w : (⟨2, ![K, B]⟩ : Shape).Idx → EReal) (p : Fin A) (p' : Fin A') (q : Fin B)
    (hx : ∀ k : Fin K, x (ix2 p k) = x' (ix2 p' k)) : MM x w (ix2 p q) = MM x' w (ix2 p' q) := by
  rw [MM_apply, MM_apply]
  exact Finset.sum_congr rfl fun k _ => by rw [hx k]

/-! ## A sum over a joined index range is the sum of the sums over its pieces -/

theorem sum_two {M : Type} [AddCommMonoid M] (a b : Nat) (f : Fin (a + b) → M) :
    ∑ k : Fin (a + b), f k
      = ∑ k : Fin a, f ⟨0 + k.val, by have := k.isLt; omega⟩ + ∑ k : Fin b, f ⟨a + k.val, by have := k.isLt; omega⟩ := by
  rw [Fin.sum_univ_add]
  refine congrArg₂ (· + ·) ?_ ?_ <;> refine Finset.sum_congr rfl fun k _ => congrArg f (Fin.ext ?_)
  · show k.val = 0 + k.val; omega
  · rfl

theorem sum_three {M : Type} [AddCommMonoid M] (a b c : Nat) (f : Fin (a + b + c) → M) :
    ∑ k : Fin (a + b + c), f k
      = (∑ k : Fin a, f ⟨0 + k.val, by have := k.isLt; omega⟩ + ∑ k : Fin b, f ⟨a + k.val, by have := k.isLt; omega⟩)
        + ∑ k : Fin c, f ⟨a + b + k.val, by have := k.isLt; omega⟩ := by
  rw [Fin.sum_univ_add, Fin.sum_univ_add]
  refine congrArg₂ (· + ·) (congrArg₂ (· + ·) ?_ ?_) ?_ <;> refine Finset.sum_congr rfl fun k _ => congrArg f (Fin.ext ?_)
  · show k.val = 0 + k.val; omega
  · rfl
  · rfl

/-! ## The product of a matrix whose columns are pieces laid side by side -/

/-- [x | y]·W = x·(the first `a` rows of W) + y·(the next `b` rows), at row `p` and column `q`; the joined matrix enters
    only through its row `p` read at a column of each piece. -/
theorem MM_join2 {E a b B : Nat} (cat : (⟨2, ![E, a + b]⟩ : Shape).Idx → EReal) (x : (⟨2, ![E, a]⟩ : Shape).Idx → EReal)
    (y : (⟨2, ![E, b]⟩ : Shape).Idx → EReal) (w : (⟨2, ![a + b, B]⟩ : Shape).Idx → EReal) (p : Fin E) (q : Fin B)
    (h0 : ∀ k : Fin a, cat (ix2 p ⟨0 + k.val, by have := k.isLt; omega⟩) = x (ix2 p k))
    (h1 : ∀ k : Fin b, cat (ix2 p ⟨a + k.val, by have := k.isLt; omega⟩) = y (ix2 p k)) :
    MM cat w (ix2 p q)
      = MM x (rowsAt 0 a (by omega) w) (ix2 p q) + MM y (rowsAt a b (by omega) w) (ix2 p q) := by
  rw [MM_apply, MM_apply, MM_apply]
  refine (sum_two a b (fun k : Fin (a + b) => cat (ix2 p k) * w (ix2 k q))).trans ?_
  refine congrArg₂ (· + ·) ?_ ?_
  · exact Finset.sum_congr rfl fun k _ => by rw [rowsAt_apply]; exact congrArg (· * _) (h0 k)
  · exact Finset.sum_congr rfl fun k _ => by rw [rowsAt_apply]; exact congrArg (· * _) (h1 k)

/-- [x | y | z]·W = x·(the first `a` rows of W) + y·(the next `b` rows) + z·(the last `c` rows), the three products added
    left to right. -/
theorem MM_join3 {E a b c B : Nat} (cat : (⟨2, ![E, a + b + c]⟩ : Shape).Idx → EReal) (x : (⟨2, ![E, a]⟩ : Shape).Idx → EReal)
    (y : (⟨2, ![E, b]⟩ : Shape).Idx → EReal) (z : (⟨2, ![E, c]⟩ : Shape).Idx → EReal)
    (w : (⟨2, ![a + b + c, B]⟩ : Shape).Idx → EReal) (p : Fin E) (q : Fin B)
    (h0 : ∀ k : Fin a, cat (ix2 p ⟨0 + k.val, by have := k.isLt; omega⟩) = x (ix2 p k))
    (h1 : ∀ k : Fin b, cat (ix2 p ⟨a + k.val, by have := k.isLt; omega⟩) = y (ix2 p k))
    (h2 : ∀ k : Fin c, cat (ix2 p ⟨a + b + k.val, by have := k.isLt; omega⟩) = z (ix2 p k)) :
    MM cat w (ix2 p q)
      = (MM x (rowsAt 0 a (by omega) w) (ix2 p q) + MM y (rowsAt a b (by omega) w) (ix2 p q))
        + MM z (rowsAt (a + b) c (by omega) w) (ix2 p q) := by
  rw [MM_apply, MM_apply, MM_apply, MM_apply]
  refine (sum_three a b c (fun k : Fin (a + b + c) => cat (ix2 p k) * w (ix2 k q))).trans ?_
  refine congrArg₂ (· + ·) (congrArg₂ (· + ·) ?_ ?_) ?_
  · exact Finset.sum_congr rfl fun k _ => by rw [rowsAt_apply]; exact congrArg (· * _) (h0 k)
  · exact Finset.sum_congr rfl fun k _ => by rw [rowsAt_apply]; exact congrArg (· * _) (h1 k)
  · exact Finset.sum_congr rfl fun k _ => by rw [rowsAt_apply]; exact congrArg (· * _) (h2 k)

end Cert.LibJoinedAxis

end
-- ==== Proof.Fold.lean ====
/-
  The idealized kernel program's buffers, boundary by boundary. The program is nine segments: five stretches of
  host operations with four regions between them. `Wk` is the contents of every buffer at boundary `k`. A buffer
  that a segment does not write keeps its contents across it; a buffer a stretch writes holds that operation's
  value of its operands' contents at the stretch's entry; a region's output array holds what its grid points wrote.
  Walking these facts from the launch memory gives each array the regions read, and finally the result, as the
  model's function of the argument arrays.
-/
import proofs.«105270_j8598524526745_2_alg».proof.Proof.Gen.KernelIdeal.Frame
import proofs.«105270_j8598524526745_2_alg».proof.Proof.Model
import proofs.«105270_j8598524526745_2_alg».proof.Proof.View
import proofs.«105270_j8598524526745_2_alg».proof.Proof.LibTake
import proofs.«105270_j8598524526745_2_alg».proof.Proof.LibRowScatter
import proofs.«105270_j8598524526745_2_alg».proof.Proof.LibJoinedAxis

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

/-! ## The index columns, as functions of the edge list -/

/-- Row `r` of the edge list as a vector of index words. -/
def edgeRow0 (x2 : IVec S2x1250000 32) : IVec S1250000 32 :=
  shapeCast _ (extractStridedSlice S1x1250000 ![0, 0] x2 slices_S2x1250000_S1x1250000_0_0) shapeCasts_S1x1250000_S1250000
def edgeRow1 (x2 : IVec S2x1250000 32) : IVec S1250000 32 :=
  shapeCast _ (extractStridedSlice S1x1250000 ![1, 0] x2 slices_S2x1250000_S1x1250000_1_0) shapeCasts_S1x1250000_S1250000

/-- A negative index word counts from the end: `n` is added to it. -/
def wrapNeg (n : BitVec 32) (v : IVec S1250000 32) : IVec S1250000 32 :=
  select (cmpi .slt v (broadcastInDim S1250000 ![] bcast_S_S1250000 (constantI S_ 32 0#32)))
    (addi v (broadcastInDim S1250000 ![] bcast_S_S1250000 (constantI S_ 32 n))) v

/-- A vector of index words as a column. -/
def asCol (v : IVec S1250000 32) : IVec S1250000x1 32 := broadcastInDim S1250000x1 ![0] bcast_S1250000_S1250000x1_0 v

/-- The constraint each edge's message lands on, the variable it lands on, and the rows the two gathers read. -/
def conLand (x2 : IVec S2x1250000 32) : IVec S1250000x1 32 := asCol (edgeRow0 x2)
def varLand (x2 : IVec S2x1250000 32) : IVec S1250000x1 32 := asCol (edgeRow1 x2)
def varRead (x2 : IVec S2x1250000 32) : IVec S1250000x1 32 := asCol (wrapNeg 100000#32 (edgeRow1 x2))
def conRead (x2 : IVec S2x1250000 32) : IVec S1250000x1 32 := asCol (wrapNeg 50000#32 (edgeRow0 x2))

variable (m : (ℓ : Loc nD τ sig) → Buf (Elt Ideal) ℓ) (ρ : Dev nD → PrngReg) (c : Dev nD)

/-! ## Buffers kept across segments that do not write them -/

theorem keep_arg0_0_1 : W1 m ρ c (Proc.devRef .tc main_arg0) = W0 m ρ c (Proc.devRef .tc main_arg0) :=
  (by show StableHlo.after hostOps0 (W0 m ρ c) (Proc.devRef .tc main_arg0) = _; after_results : W1 m ρ c (Proc.devRef .tc main_arg0) = W0 m ρ c (Proc.devRef .tc main_arg0))

theorem keep_arg4_0_1 : W1 m ρ c (Proc.devRef .tc main_arg4) = W0 m ρ c (Proc.devRef .tc main_arg4) :=
  (by show StableHlo.after hostOps0 (W0 m ρ c) (Proc.devRef .tc main_arg4) = _; after_results : W1 m ρ c (Proc.devRef .tc main_arg4) = W0 m ρ c (Proc.devRef .tc main_arg4))

theorem keep_arg1_0_3 : W3 m ρ c (Proc.devRef .tc main_arg1) = W0 m ρ c (Proc.devRef .tc main_arg1) :=
  ((by show StableHlo.after hostOps1 (W2 m ρ c) (Proc.devRef .tc main_arg1) = _; after_results : W3 m ρ c (Proc.devRef .tc main_arg1) = W2 m ρ c (Proc.devRef .tc main_arg1))).trans (((W2_of_ne m ρ c main_arg1 (by decide) : W2 m ρ c (Proc.devRef .tc main_arg1) = W1 m ρ c (Proc.devRef .tc main_arg1))).trans ((by show StableHlo.after hostOps0 (W0 m ρ c) (Proc.devRef .tc main_arg1) = _; after_results : W1 m ρ c (Proc.devRef .tc main_arg1) = W0 m ρ c (Proc.devRef .tc main_arg1))))

theorem keep_arg6_0_3 : W3 m ρ c (Proc.devRef .tc main_arg6) = W0 m ρ c (Proc.devRef .tc main_arg6) :=
  ((by show StableHlo.after hostOps1 (W2 m ρ c) (Proc.devRef .tc main_arg6) = _; after_results : W3 m ρ c (Proc.devRef .tc main_arg6) = W2 m ρ c (Proc.devRef .tc main_arg6))).trans (((W2_of_ne m ρ c main_arg6 (by decide) : W2 m ρ c (Proc.devRef .tc main_arg6) = W1 m ρ c (Proc.devRef .tc main_arg6))).trans ((by show StableHlo.after hostOps0 (W0 m ρ c) (Proc.devRef .tc main_arg6) = _; after_results : W1 m ρ c (Proc.devRef .tc main_arg6) = W0 m ρ c (Proc.devRef .tc main_arg6))))

theorem keep_arg7_0_2 : W2 m ρ c (Proc.devRef .tc main_arg7) = W0 m ρ c (Proc.devRef .tc main_arg7) :=
  ((W2_of_ne m ρ c main_arg7 (by decide) : W2 m ρ c (Proc.devRef .tc main_arg7) = W1 m ρ c (Proc.devRef .tc main_arg7))).trans ((by show StableHlo.after hostOps0 (W0 m ρ c) (Proc.devRef .tc main_arg7) = _; after_results : W1 m ρ c (Proc.devRef .tc main_arg7) = W0 m ρ c (Proc.devRef .tc main_arg7)))

theorem keep_arg9_0_4 : W4 m ρ c (Proc.devRef .tc main_arg9) = W0 m ρ c (Proc.devRef .tc main_arg9) :=
  ((W4_of_ne m ρ c main_arg9 (by decide) : W4 m ρ c (Proc.devRef .tc main_arg9) = W3 m ρ c (Proc.devRef .tc main_arg9))).trans (((by show StableHlo.after hostOps1 (W2 m ρ c) (Proc.devRef .tc main_arg9) = _; after_results : W3 m ρ c (Proc.devRef .tc main_arg9) = W2 m ρ c (Proc.devRef .tc main_arg9))).trans (((W2_of_ne m ρ c main_arg9 (by decide) : W2 m ρ c (Proc.devRef .tc main_arg9) = W1 m ρ c (Proc.devRef .tc main_arg9))).trans ((by show StableHlo.after hostOps0 (W0 m ρ c) (Proc.devRef .tc main_arg9) = _; after_results : W1 m ρ c (Proc.devRef .tc main_arg9) = W0 m ρ c (Proc.devRef .tc main_arg9)))))

theorem keep_arg11_0_4 : W4 m ρ c (Proc.devRef .tc main_arg11) = W0 m ρ c (Proc.devRef .tc main_arg11) :=
  ((W4_of_ne m ρ c main_arg11 (by decide) : W4 m ρ c (Proc.devRef .tc main_arg11) = W3 m ρ c (Proc.devRef .tc main_arg11))).trans (((by show StableHlo.after hostOps1 (W2 m ρ c) (Proc.devRef .tc main_arg11) = _; after_results : W3 m ρ c (Proc.devRef .tc main_arg11) = W2 m ρ c (Proc.devRef .tc main_arg11))).trans (((W2_of_ne m ρ c main_arg11 (by decide) : W2 m ρ c (Proc.devRef .tc main_arg11) = W1 m ρ c (Proc.devRef .tc main_arg11))).trans ((by show StableHlo.after hostOps0 (W0 m ρ c) (Proc.devRef .tc main_arg11) = _; after_results : W1 m ρ c (Proc.devRef .tc main_arg11) = W0 m ρ c (Proc.devRef .tc main_arg11)))))

theorem keep_arg8_0_4 : W4 m ρ c (Proc.devRef .tc main_arg8) = W0 m ρ c (Proc.devRef .tc main_arg8) :=
  ((W4_of_ne m ρ c main_arg8 (by decide) : W4 m ρ c (Proc.devRef .tc main_arg8) = W3 m ρ c (Proc.devRef .tc main_arg8))).trans (((by show StableHlo.after hostOps1 (W2 m ρ c) (Proc.devRef .tc main_arg8) = _; after_results : W3 m ρ c (Proc.devRef .tc main_arg8) = W2 m ρ c (Proc.devRef .tc main_arg8))).trans (((W2_of_ne m ρ c main_arg8 (by decide) : W2 m ρ c (Proc.devRef .tc main_arg8) = W1 m ρ c (Proc.devRef .tc main_arg8))).trans ((by show StableHlo.after hostOps0 (W0 m ρ c) (Proc.devRef .tc main_arg8) = _; after_results : W1 m ρ c (Proc.devRef .tc main_arg8) = W0 m ρ c (Proc.devRef .tc main_arg8)))))

theorem keep_arg3_0_4 : W4 m ρ c (Proc.devRef .tc main_arg3) = W0 m ρ c (Proc.devRef .tc main_arg3) :=
  ((W4_of_ne m ρ c main_arg3 (by decide) : W4 m ρ c (Proc.devRef .tc main_arg3) = W3 m ρ c (Proc.devRef .tc main_arg3))).trans (((by show StableHlo.after hostOps1 (W2 m ρ c) (Proc.devRef .tc main_arg3) = _; after_results : W3 m ρ c (Proc.devRef .tc main_arg3) = W2 m ρ c (Proc.devRef .tc main_arg3))).trans (((W2_of_ne m ρ c main_arg3 (by decide) : W2 m ρ c (Proc.devRef .tc main_arg3) = W1 m ρ c (Proc.devRef .tc main_arg3))).trans ((by show StableHlo.after hostOps0 (W0 m ρ c) (Proc.devRef .tc main_arg3) = _; after_results : W1 m ρ c (Proc.devRef .tc main_arg3) = W0 m ρ c (Proc.devRef .tc main_arg3)))))

theorem keep_arg10_0_4 : W4 m ρ c (Proc.devRef .tc main_arg10) = W0 m ρ c (Proc.devRef .tc main_arg10) :=
  ((W4_of_ne m ρ c main_arg10 (by decide) : W4 m ρ c (Proc.devRef .tc main_arg10) = W3 m ρ c (Proc.devRef .tc main_arg10))).trans (((by show StableHlo.after hostOps1 (W2 m ρ c) (Proc.devRef .tc main_arg10) = _; after_results : W3 m ρ c (Proc.devRef .tc main_arg10) = W2 m ρ c (Proc.devRef .tc main_arg10))).trans (((W2_of_ne m ρ c main_arg10 (by decide) : W2 m ρ c (Proc.devRef .tc main_arg10) = W1 m ρ c (Proc.devRef .tc main_arg10))).trans ((by show StableHlo.after hostOps0 (W0 m ρ c) (Proc.devRef .tc main_arg10) = _; after_results : W1 m ρ c (Proc.devRef .tc main_arg10) = W0 m ρ c (Proc.devRef .tc main_arg10)))))

theorem keep_v1_1_4 : W4 m ρ c (Proc.devRef .tc main_v1) = W1 m ρ c (Proc.devRef .tc main_v1) :=
  ((W4_of_ne m ρ c main_v1 (by decide) : W4 m ρ c (Proc.devRef .tc main_v1) = W3 m ρ c (Proc.devRef .tc main_v1))).trans (((by show StableHlo.after hostOps1 (W2 m ρ c) (Proc.devRef .tc main_v1) = _; after_results : W3 m ρ c (Proc.devRef .tc main_v1) = W2 m ρ c (Proc.devRef .tc main_v1))).trans ((W2_of_ne m ρ c main_v1 (by decide) : W2 m ρ c (Proc.devRef .tc main_v1) = W1 m ρ c (Proc.devRef .tc main_v1))))

theorem keep_v3_1_4 : W4 m ρ c (Proc.devRef .tc main_v3) = W1 m ρ c (Proc.devRef .tc main_v3) :=
  ((W4_of_ne m ρ c main_v3 (by decide) : W4 m ρ c (Proc.devRef .tc main_v3) = W3 m ρ c (Proc.devRef .tc main_v3))).trans (((by show StableHlo.after hostOps1 (W2 m ρ c) (Proc.devRef .tc main_v3) = _; after_results : W3 m ρ c (Proc.devRef .tc main_v3) = W2 m ρ c (Proc.devRef .tc main_v3))).trans ((W2_of_ne m ρ c main_v3 (by decide) : W2 m ρ c (Proc.devRef .tc main_v3) = W1 m ρ c (Proc.devRef .tc main_v3))))

theorem keep_v5_2_4 : W4 m ρ c (Proc.devRef .tc main_v5) = W2 m ρ c (Proc.devRef .tc main_v5) :=
  ((W4_of_ne m ρ c main_v5 (by decide) : W4 m ρ c (Proc.devRef .tc main_v5) = W3 m ρ c (Proc.devRef .tc main_v5))).trans ((by show StableHlo.after hostOps1 (W2 m ρ c) (Proc.devRef .tc main_v5) = _; after_results : W3 m ρ c (Proc.devRef .tc main_v5) = W2 m ρ c (Proc.devRef .tc main_v5)))

theorem keep_v7_4_5 : W5 m ρ c (Proc.devRef .tc main_v7) = W4 m ρ c (Proc.devRef .tc main_v7) :=
  (by show StableHlo.after hostOps2 (W4 m ρ c) (Proc.devRef .tc main_v7) = _; after_results : W5 m ρ c (Proc.devRef .tc main_v7) = W4 m ρ c (Proc.devRef .tc main_v7))

theorem keep_v1_1_6 : W6 m ρ c (Proc.devRef .tc main_v1) = W1 m ρ c (Proc.devRef .tc main_v1) :=
  ((W6_of_ne m ρ c main_v1 (by decide) : W6 m ρ c (Proc.devRef .tc main_v1) = W5 m ρ c (Proc.devRef .tc main_v1))).trans (((by show StableHlo.after hostOps2 (W4 m ρ c) (Proc.devRef .tc main_v1) = _; after_results : W5 m ρ c (Proc.devRef .tc main_v1) = W4 m ρ c (Proc.devRef .tc main_v1))).trans (((W4_of_ne m ρ c main_v1 (by decide) : W4 m ρ c (Proc.devRef .tc main_v1) = W3 m ρ c (Proc.devRef .tc main_v1))).trans (((by show StableHlo.after hostOps1 (W2 m ρ c) (Proc.devRef .tc main_v1) = _; after_results : W3 m ρ c (Proc.devRef .tc main_v1) = W2 m ρ c (Proc.devRef .tc main_v1))).trans ((W2_of_ne m ρ c main_v1 (by decide) : W2 m ρ c (Proc.devRef .tc main_v1) = W1 m ρ c (Proc.devRef .tc main_v1))))))

theorem keep_v3_1_6 : W6 m ρ c (Proc.devRef .tc main_v3) = W1 m ρ c (Proc.devRef .tc main_v3) :=
  ((W6_of_ne m ρ c main_v3 (by decide) : W6 m ρ c (Proc.devRef .tc main_v3) = W5 m ρ c (Proc.devRef .tc main_v3))).trans (((by show StableHlo.after hostOps2 (W4 m ρ c) (Proc.devRef .tc main_v3) = _; after_results : W5 m ρ c (Proc.devRef .tc main_v3) = W4 m ρ c (Proc.devRef .tc main_v3))).trans (((W4_of_ne m ρ c main_v3 (by decide) : W4 m ρ c (Proc.devRef .tc main_v3) = W3 m ρ c (Proc.devRef .tc main_v3))).trans (((by show StableHlo.after hostOps1 (W2 m ρ c) (Proc.devRef .tc main_v3) = _; after_results : W3 m ρ c (Proc.devRef .tc main_v3) = W2 m ρ c (Proc.devRef .tc main_v3))).trans ((W2_of_ne m ρ c main_v3 (by decide) : W2 m ρ c (Proc.devRef .tc main_v3) = W1 m ρ c (Proc.devRef .tc main_v3))))))

theorem keep_arg3_0_6 : W6 m ρ c (Proc.devRef .tc main_arg3) = W0 m ρ c (Proc.devRef .tc main_arg3) :=
  ((W6_of_ne m ρ c main_arg3 (by decide) : W6 m ρ c (Proc.devRef .tc main_arg3) = W5 m ρ c (Proc.devRef .tc main_arg3))).trans (((by show StableHlo.after hostOps2 (W4 m ρ c) (Proc.devRef .tc main_arg3) = _; after_results : W5 m ρ c (Proc.devRef .tc main_arg3) = W4 m ρ c (Proc.devRef .tc main_arg3))).trans (((W4_of_ne m ρ c main_arg3 (by decide) : W4 m ρ c (Proc.devRef .tc main_arg3) = W3 m ρ c (Proc.devRef .tc main_arg3))).trans (((by show StableHlo.after hostOps1 (W2 m ρ c) (Proc.devRef .tc main_arg3) = _; after_results : W3 m ρ c (Proc.devRef .tc main_arg3) = W2 m ρ c (Proc.devRef .tc main_arg3))).trans (((W2_of_ne m ρ c main_arg3 (by decide) : W2 m ρ c (Proc.devRef .tc main_arg3) = W1 m ρ c (Proc.devRef .tc main_arg3))).trans ((by show StableHlo.after hostOps0 (W0 m ρ c) (Proc.devRef .tc main_arg3) = _; after_results : W1 m ρ c (Proc.devRef .tc main_arg3) = W0 m ρ c (Proc.devRef .tc main_arg3)))))))

theorem keep_arg12_0_6 : W6 m ρ c (Proc.devRef .tc main_arg12) = W0 m ρ c (Proc.devRef .tc main_arg12) :=
  ((W6_of_ne m ρ c main_arg12 (by decide) : W6 m ρ c (Proc.devRef .tc main_arg12) = W5 m ρ c (Proc.devRef .tc main_arg12))).trans (((by show StableHlo.after hostOps2 (W4 m ρ c) (Proc.devRef .tc main_arg12) = _; after_results : W5 m ρ c (Proc.devRef .tc main_arg12) = W4 m ρ c (Proc.devRef .tc main_arg12))).trans (((W4_of_ne m ρ c main_arg12 (by decide) : W4 m ρ c (Proc.devRef .tc main_arg12) = W3 m ρ c (Proc.devRef .tc main_arg12))).trans (((by show StableHlo.after hostOps1 (W2 m ρ c) (Proc.devRef .tc main_arg12) = _; after_results : W3 m ρ c (Proc.devRef .tc main_arg12) = W2 m ρ c (Proc.devRef .tc main_arg12))).trans (((W2_of_ne m ρ c main_arg12 (by decide) : W2 m ρ c (Proc.devRef .tc main_arg12) = W1 m ρ c (Proc.devRef .tc main_arg12))).trans ((by show StableHlo.after hostOps0 (W0 m ρ c) (Proc.devRef .tc main_arg12) = _; after_results : W1 m ρ c (Proc.devRef .tc main_arg12) = W0 m ρ c (Proc.devRef .tc main_arg12)))))))

theorem keep_arg14_0_6 : W6 m ρ c (Proc.devRef .tc main_arg14) = W0 m ρ c (Proc.devRef .tc main_arg14) :=
  ((W6_of_ne m ρ c main_arg14 (by decide) : W6 m ρ c (Proc.devRef .tc main_arg14) = W5 m ρ c (Proc.devRef .tc main_arg14))).trans (((by show StableHlo.after hostOps2 (W4 m ρ c) (Proc.devRef .tc main_arg14) = _; after_results : W5 m ρ c (Proc.devRef .tc main_arg14) = W4 m ρ c (Proc.devRef .tc main_arg14))).trans (((W4_of_ne m ρ c main_arg14 (by decide) : W4 m ρ c (Proc.devRef .tc main_arg14) = W3 m ρ c (Proc.devRef .tc main_arg14))).trans (((by show StableHlo.after hostOps1 (W2 m ρ c) (Proc.devRef .tc main_arg14) = _; after_results : W3 m ρ c (Proc.devRef .tc main_arg14) = W2 m ρ c (Proc.devRef .tc main_arg14))).trans (((W2_of_ne m ρ c main_arg14 (by decide) : W2 m ρ c (Proc.devRef .tc main_arg14) = W1 m ρ c (Proc.devRef .tc main_arg14))).trans ((by show StableHlo.after hostOps0 (W0 m ρ c) (Proc.devRef .tc main_arg14) = _; after_results : W1 m ρ c (Proc.devRef .tc main_arg14) = W0 m ρ c (Proc.devRef .tc main_arg14)))))))

theorem keep_arg16_0_6 : W6 m ρ c (Proc.devRef .tc main_arg16) = W0 m ρ c (Proc.devRef .tc main_arg16) :=
  ((W6_of_ne m ρ c main_arg16 (by decide) : W6 m ρ c (Proc.devRef .tc main_arg16) = W5 m ρ c (Proc.devRef .tc main_arg16))).trans (((by show StableHlo.after hostOps2 (W4 m ρ c) (Proc.devRef .tc main_arg16) = _; after_results : W5 m ρ c (Proc.devRef .tc main_arg16) = W4 m ρ c (Proc.devRef .tc main_arg16))).trans (((W4_of_ne m ρ c main_arg16 (by decide) : W4 m ρ c (Proc.devRef .tc main_arg16) = W3 m ρ c (Proc.devRef .tc main_arg16))).trans (((by show StableHlo.after hostOps1 (W2 m ρ c) (Proc.devRef .tc main_arg16) = _; after_results : W3 m ρ c (Proc.devRef .tc main_arg16) = W2 m ρ c (Proc.devRef .tc main_arg16))).trans (((W2_of_ne m ρ c main_arg16 (by decide) : W2 m ρ c (Proc.devRef .tc main_arg16) = W1 m ρ c (Proc.devRef .tc main_arg16))).trans ((by show StableHlo.after hostOps0 (W0 m ρ c) (Proc.devRef .tc main_arg16) = _; after_results : W1 m ρ c (Proc.devRef .tc main_arg16) = W0 m ρ c (Proc.devRef .tc main_arg16)))))))

theorem keep_v5_2_7 : W7 m ρ c (Proc.devRef .tc main_v5) = W2 m ρ c (Proc.devRef .tc main_v5) :=
  ((by show StableHlo.after hostOps3 (W6 m ρ c) (Proc.devRef .tc main_v5) = _; after_results : W7 m ρ c (Proc.devRef .tc main_v5) = W6 m ρ c (Proc.devRef .tc main_v5))).trans (((W6_of_ne m ρ c main_v5 (by decide) : W6 m ρ c (Proc.devRef .tc main_v5) = W5 m ρ c (Proc.devRef .tc main_v5))).trans (((by show StableHlo.after hostOps2 (W4 m ρ c) (Proc.devRef .tc main_v5) = _; after_results : W5 m ρ c (Proc.devRef .tc main_v5) = W4 m ρ c (Proc.devRef .tc main_v5))).trans (((W4_of_ne m ρ c main_v5 (by decide) : W4 m ρ c (Proc.devRef .tc main_v5) = W3 m ρ c (Proc.devRef .tc main_v5))).trans ((by show StableHlo.after hostOps1 (W2 m ρ c) (Proc.devRef .tc main_v5) = _; after_results : W3 m ρ c (Proc.devRef .tc main_v5) = W2 m ρ c (Proc.devRef .tc main_v5))))))

theorem keep_v10_5_7 : W7 m ρ c (Proc.devRef .tc main_v10) = W5 m ρ c (Proc.devRef .tc main_v10) :=
  ((by show StableHlo.after hostOps3 (W6 m ρ c) (Proc.devRef .tc main_v10) = _; after_results : W7 m ρ c (Proc.devRef .tc main_v10) = W6 m ρ c (Proc.devRef .tc main_v10))).trans ((W6_of_ne m ρ c main_v10 (by decide) : W6 m ρ c (Proc.devRef .tc main_v10) = W5 m ρ c (Proc.devRef .tc main_v10)))

theorem keep_v17_5_7 : W7 m ρ c (Proc.devRef .tc main_v17) = W5 m ρ c (Proc.devRef .tc main_v17) :=
  ((by show StableHlo.after hostOps3 (W6 m ρ c) (Proc.devRef .tc main_v17) = _; after_results : W7 m ρ c (Proc.devRef .tc main_v17) = W6 m ρ c (Proc.devRef .tc main_v17))).trans ((W6_of_ne m ρ c main_v17 (by decide) : W6 m ρ c (Proc.devRef .tc main_v17) = W5 m ρ c (Proc.devRef .tc main_v17)))

theorem keep_arg13_0_7 : W7 m ρ c (Proc.devRef .tc main_arg13) = W0 m ρ c (Proc.devRef .tc main_arg13) :=
  ((by show StableHlo.after hostOps3 (W6 m ρ c) (Proc.devRef .tc main_arg13) = _; after_results : W7 m ρ c (Proc.devRef .tc main_arg13) = W6 m ρ c (Proc.devRef .tc main_arg13))).trans (((W6_of_ne m ρ c main_arg13 (by decide) : W6 m ρ c (Proc.devRef .tc main_arg13) = W5 m ρ c (Proc.devRef .tc main_arg13))).trans (((by show StableHlo.after hostOps2 (W4 m ρ c) (Proc.devRef .tc main_arg13) = _; after_results : W5 m ρ c (Proc.devRef .tc main_arg13) = W4 m ρ c (Proc.devRef .tc main_arg13))).trans (((W4_of_ne m ρ c main_arg13 (by decide) : W4 m ρ c (Proc.devRef .tc main_arg13) = W3 m ρ c (Proc.devRef .tc main_arg13))).trans (((by show StableHlo.after hostOps1 (W2 m ρ c) (Proc.devRef .tc main_arg13) = _; after_results : W3 m ρ c (Proc.devRef .tc main_arg13) = W2 m ρ c (Proc.devRef .tc main_arg13))).trans (((W2_of_ne m ρ c main_arg13 (by decide) : W2 m ρ c (Proc.devRef .tc main_arg13) = W1 m ρ c (Proc.devRef .tc main_arg13))).trans ((by show StableHlo.after hostOps0 (W0 m ρ c) (Proc.devRef .tc main_arg13) = _; after_results : W1 m ρ c (Proc.devRef .tc main_arg13) = W0 m ρ c (Proc.devRef .tc main_arg13))))))))

theorem keep_arg15_0_7 : W7 m ρ c (Proc.devRef .tc main_arg15) = W0 m ρ c (Proc.devRef .tc main_arg15) :=
  ((by show StableHlo.after hostOps3 (W6 m ρ c) (Proc.devRef .tc main_arg15) = _; after_results : W7 m ρ c (Proc.devRef .tc main_arg15) = W6 m ρ c (Proc.devRef .tc main_arg15))).trans (((W6_of_ne m ρ c main_arg15 (by decide) : W6 m ρ c (Proc.devRef .tc main_arg15) = W5 m ρ c (Proc.devRef .tc main_arg15))).trans (((by show StableHlo.after hostOps2 (W4 m ρ c) (Proc.devRef .tc main_arg15) = _; after_results : W5 m ρ c (Proc.devRef .tc main_arg15) = W4 m ρ c (Proc.devRef .tc main_arg15))).trans (((W4_of_ne m ρ c main_arg15 (by decide) : W4 m ρ c (Proc.devRef .tc main_arg15) = W3 m ρ c (Proc.devRef .tc main_arg15))).trans (((by show StableHlo.after hostOps1 (W2 m ρ c) (Proc.devRef .tc main_arg15) = _; after_results : W3 m ρ c (Proc.devRef .tc main_arg15) = W2 m ρ c (Proc.devRef .tc main_arg15))).trans (((W2_of_ne m ρ c main_arg15 (by decide) : W2 m ρ c (Proc.devRef .tc main_arg15) = W1 m ρ c (Proc.devRef .tc main_arg15))).trans ((by show StableHlo.after hostOps0 (W0 m ρ c) (Proc.devRef .tc main_arg15) = _; after_results : W1 m ρ c (Proc.devRef .tc main_arg15) = W0 m ρ c (Proc.devRef .tc main_arg15))))))))

/-! ## What the stretches of host operations write -/

theorem w1_v1 : (W1 m ρ c (Proc.devRef .tc main_v1) : IVec S1250000 32) = edgeRow0 (m ((c : Thread nD τ).loc main_arg2) : IVec S2x1250000 32) := by
  show StableHlo.after hostOps0 (W0 m ρ c) (Proc.devRef .tc main_v1) = _
  after_results
  rfl
theorem w1_v3 : (W1 m ρ c (Proc.devRef .tc main_v3) : IVec S1250000 32) = edgeRow1 (m ((c : Thread nD τ).loc main_arg2) : IVec S2x1250000 32) := by
  show StableHlo.after hostOps0 (W0 m ρ c) (Proc.devRef .tc main_v3) = _
  after_results
  rfl
theorem w1_v4 : (W1 m ρ c (Proc.devRef .tc main_v4) : FVec Ideal S1x64 .f32) = (shapeCast S1x64 (m ((c : Thread nD τ).loc main_arg5) : FVec Ideal S64 .f32) shapeCasts_S64_S1x64 : FVec Ideal S1x64 .f32) := by
  show StableHlo.after hostOps0 (W0 m ρ c) (Proc.devRef .tc main_v4) = _
  after_results
  rfl
theorem w3_v6 : (W3 m ρ c (Proc.devRef .tc main_v6) : FVec Ideal S1x64 .f32) = (shapeCast S1x64 (W2 m ρ c (Proc.devRef .tc main_arg7) : FVec Ideal S64 .f32) shapeCasts_S64_S1x64 : FVec Ideal S1x64 .f32) := by
  show StableHlo.after hostOps1 (W2 m ρ c) (Proc.devRef .tc main_v6) = _
  after_results
  rfl
theorem w5_v8 : (W5 m ρ c (Proc.devRef .tc main_v8) : FVec Ideal S64x64 .f32) = (extractStridedSlice S64x64 ![0, 0] (W4 m ρ c (Proc.devRef .tc main_arg9) : FVec Ideal S128x64 .f32) slices_S128x64_S64x64_0_0 : FVec Ideal S64x64 .f32) := by
  show StableHlo.after hostOps2 (W4 m ρ c) (Proc.devRef .tc main_v8) = _
  after_results
theorem w5_v10 : (W5 m ρ c (Proc.devRef .tc main_v10) : FVec Ideal S64x64 .f32) = (extractStridedSlice S64x64 ![0, 0] (W4 m ρ c (Proc.devRef .tc main_arg11) : FVec Ideal S128x64 .f32) slices_S128x64_S64x64_0_0 : FVec Ideal S64x64 .f32) := by
  show StableHlo.after hostOps2 (W4 m ρ c) (Proc.devRef .tc main_v10) = _
  after_results
theorem w5_v14 : (W5 m ρ c (Proc.devRef .tc main_v14) : FVec Ideal S64x64 .f32) = (mulf (extractStridedSlice S64x64 ![64, 0] (W4 m ρ c (Proc.devRef .tc main_arg9) : FVec Ideal S128x64 .f32) slices_S128x64_S64x64_64_0) (broadcastInDim S64x64 ![0, 1] bcast_S64x1_S64x64_0_1 (broadcastInDim S64x1 ![0] bcast_S64_S64x1_0 (W4 m ρ c (Proc.devRef .tc main_arg8) : FVec Ideal S64 .f32))) : FVec Ideal S64x64 .f32) := by
  show StableHlo.after hostOps2 (W4 m ρ c) (Proc.devRef .tc main_v14) = _
  after_results
theorem w5_v17 : (W5 m ρ c (Proc.devRef .tc main_v17) : FVec Ideal S64x64 .f32) = (mulf (extractStridedSlice S64x64 ![64, 0] (W4 m ρ c (Proc.devRef .tc main_arg11) : FVec Ideal S128x64 .f32) slices_S128x64_S64x64_64_0) (broadcastInDim S64x64 ![0, 1] bcast_S64x1_S64x64_0_1 (broadcastInDim S64x1 ![0] bcast_S64_S64x1_0 (W4 m ρ c (Proc.devRef .tc main_arg8) : FVec Ideal S64 .f32))) : FVec Ideal S64x64 .f32) := by
  show StableHlo.after hostOps2 (W4 m ρ c) (Proc.devRef .tc main_v17) = _
  after_results
theorem w5_v31 : (W5 m ρ c (Proc.devRef .tc main_v31) : FVec Ideal S1x64 .f32) = (shapeCast S1x64 (W4 m ρ c (Proc.devRef .tc main_arg10) : FVec Ideal S64 .f32) shapeCasts_S64_S1x64 : FVec Ideal S1x64 .f32) := by
  show StableHlo.after hostOps2 (W4 m ρ c) (Proc.devRef .tc main_v31) = _
  after_results
  rfl
set_option maxHeartbeats 4000000 in
theorem w5_v30 : (W5 m ρ c (Proc.devRef .tc main_v30) : FVec Ideal S50000x64 .f32) = (Host.scatterAdd scatter_S50000x64_S1250000x1_S1250000x64_1_0_0_1
      (broadcastInDim S50000x64 ![] bcast_S_S50000x64 (constant S_ .f32 0x00000000#32))
      (asCol (W4 m ρ c (Proc.devRef .tc main_v1) : IVec S1250000 32))
      (mulf (Host.gather gather_S100000x64_S1250000x1_S1250000x64_1_0_n_n_0_1_164 (W4 m ρ c (Proc.devRef .tc main_v5) : FVec Ideal S100000x64 .f32) (asCol (wrapNeg 100000#32 (W4 m ρ c (Proc.devRef .tc main_v3) : IVec S1250000 32))))
        (broadcastInDim S1250000x64 ![0, 1] bcast_S1250000x1_S1250000x64_0_1 (broadcastInDim S1250000x1 ![0] bcast_S1250000_S1250000x1_0 (W4 m ρ c (Proc.devRef .tc main_arg3) : FVec Ideal S1250000 .f32)))) : FVec Ideal S50000x64 .f32) := by
  unfold asCol wrapNeg
  show StableHlo.after hostOps2 (W4 m ρ c) (Proc.devRef .tc main_v30) = _
  after_results_simp
set_option maxHeartbeats 4000000 in
theorem w7_v45 : (W7 m ρ c (Proc.devRef .tc main_v45) : FVec Ideal S100000x64 .f32) = (Host.scatterAdd scatter_S100000x64_S1250000x1_S1250000x64_1_0_0_1
      (broadcastInDim S100000x64 ![] bcast_S_S100000x64 (constant S_ .f32 0x00000000#32))
      (asCol (W6 m ρ c (Proc.devRef .tc main_v3) : IVec S1250000 32))
      (mulf (Host.gather gather_S50000x64_S1250000x1_S1250000x64_1_0_n_n_0_1_164 (W6 m ρ c (Proc.devRef .tc main_v32) : FVec Ideal S50000x64 .f32) (asCol (wrapNeg 50000#32 (W6 m ρ c (Proc.devRef .tc main_v1) : IVec S1250000 32))))
        (broadcastInDim S1250000x64 ![0, 1] bcast_S1250000x1_S1250000x64_0_1 (broadcastInDim S1250000x1 ![0] bcast_S1250000_S1250000x1_0 (W6 m ρ c (Proc.devRef .tc main_arg3) : FVec Ideal S1250000 .f32)))) : FVec Ideal S100000x64 .f32) := by
  unfold asCol wrapNeg
  show StableHlo.after hostOps3 (W6 m ρ c) (Proc.devRef .tc main_v45) = _
  after_results_simp
theorem w7_v46 : (W7 m ρ c (Proc.devRef .tc main_v46) : FVec Ideal S1x64 .f32) = (shapeCast S1x64 (W6 m ρ c (Proc.devRef .tc main_arg12) : FVec Ideal S64 .f32) shapeCasts_S64_S1x64 : FVec Ideal S1x64 .f32) := by
  show StableHlo.after hostOps3 (W6 m ρ c) (Proc.devRef .tc main_v46) = _
  after_results
  rfl
theorem w7_v47 : (W7 m ρ c (Proc.devRef .tc main_v47) : FVec Ideal S1x64 .f32) = (shapeCast S1x64 (W6 m ρ c (Proc.devRef .tc main_arg14) : FVec Ideal S64 .f32) shapeCasts_S64_S1x64 : FVec Ideal S1x64 .f32) := by
  show StableHlo.after hostOps3 (W6 m ρ c) (Proc.devRef .tc main_v47) = _
  after_results
  rfl
theorem w7_v48 : (W7 m ρ c (Proc.devRef .tc main_v48) : FVec Ideal S1x1 .f32) = (shapeCast S1x1 (W6 m ρ c (Proc.devRef .tc main_arg16) : FVec Ideal S1 .f32) shapeCasts_S1_S1x1 : FVec Ideal S1x1 .f32) := by
  show StableHlo.after hostOps3 (W6 m ρ c) (Proc.devRef .tc main_v48) = _
  after_results
  rfl
theorem w9_v50 : (W9 m ρ c (Proc.devRef .tc main_v50) : FVec Ideal S100000 .f32) = (shapeCast S100000 (W8 m ρ c (Proc.devRef .tc main_v49) : FVec Ideal S100000x1 .f32) shapeCasts_S100000x1_S100000 : FVec Ideal S100000 .f32) := by
  show StableHlo.after hostOps4 (W8 m ρ c) (Proc.devRef .tc main_v50) = _
  after_results
  rfl

end Cert.KernelIdeal.Fold

end
-- ==== Proof.Regions01.lean ====
/-
  Two dense layers of the kernel program, each read off its pipeline as a function of the arrays it finds.

  Each layer computes Y = relu(X·W + b) over row blocks of 10000 rows: a grid point takes one row block of X, the
  whole of W and the bias row b, and writes the matching row block of Y.  At the ideal values the narrowing of the
  operands before the product is the identity and the product into the zero accumulator is the plain sum over the
  contracted axis, so every entry of Y is max (Σ_k X(p, k) · W(k, q) + b(q)) 0.  The row blocks tile Y, so after
  the last grid point the whole output array is that function of the whole input arrays, whatever the arrays hold
  when the layer is entered.
-/
import proofs.«105270_j8598524526745_2_alg».proof.Proof.Gen.KernelIdeal.Frame
import proofs.«105270_j8598524526745_2_alg».proof.Proof.Model
import proofs.«105270_j8598524526745_2_alg».proof.Proof.View
import proofs.«105270_j8598524526745_2_alg».proof.Proof.LibMatmul
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen

theorem zeros : (![0, 0] : Fin 2 → Nat) = fun _ => 0 := funext fun a => by fin_cases a <;> rfl

/-! ## The body's arithmetic at an index -/

/-- The bias row spread down the rows, read at (p, q), is the bias at column q. -/
theorem bias_apply (x2 : Vec Ideal S1x64 .f32) (p : Fin 10000) (q : Fin 64) :
    (broadcastTo S10000x64 (shapeCast S1x64 x2 shapeCasts_S1x64_S1x64) broadcasts_S1x64_S10000x64 : S10000x64.Idx → EReal) (ix2 p q)
      = x2 (ix2 (⟨0, Nat.one_pos⟩ : Fin 1) q) := by
  rw [shapeCast_self]
  refine broadcastTo_apply x2 broadcasts_S1x64_S10000x64 (ix2 p q) (ix2 (⟨0, Nat.one_pos⟩ : Fin 1) q) (fun a => ?_)
  match a with
  | ⟨0, _⟩ => rfl
  | ⟨1, _⟩ => rfl

/-- The body's arithmetic at (p, q): relu of row p of the first block against column q of the second, plus the bias. -/
theorem payload_apply (x0 : Vec Ideal S10000x19 .f32) (x1 : Vec Ideal S19x64 .f32) (x2 : Vec Ideal S1x64 .f32)
    (p : Fin 10000) (q : Fin 64) :
    (k0_pay1 (F := Ideal) x0 x1 x2 : S10000x64.Idx → EReal) (ix2 p q)
      = max ((∑ k : Fin 19, x0 (ix2 p k) * x1 (ix2 k q)) + x2 (ix2 (⟨0, Nat.one_pos⟩ : Fin 1) q)) 0 := by
  have hmm : (matmul dot_S10000x19_S19x64_S10000x64_1_0_0_1_n_n none
        (truncf .bf16 x0 bitsLt_bf16_f32 : FVec Ideal S10000x19 .bf16) (truncf .bf16 x1 bitsLt_bf16_f32 : FVec Ideal S19x64 .bf16)
        (constant S10000x64 .f32 0x00000000#32) : FVec Ideal S10000x64 .f32)
      = Cert.LibMatmul.MM (x0 : S10000x19.Idx → EReal) (x1 : S19x64.Idx → EReal) :=
    Cert.LibMatmul.matmul_zero_eq dot_S10000x19_S19x64_S10000x64_1_0_0_1_n_n rfl rfl rfl rfl rfl rfl none _ _
  unfold k0_pay1
  show max ((matmul dot_S10000x19_S19x64_S10000x64_1_0_0_1_n_n none
        (truncf .bf16 x0 bitsLt_bf16_f32 : FVec Ideal S10000x19 .bf16) (truncf .bf16 x1 bitsLt_bf16_f32 : FVec Ideal S19x64 .bf16)
        (constant S10000x64 .f32 0x00000000#32) : FVec Ideal S10000x64 .f32) (ix2 p q)
      + (broadcastTo S10000x64 (shapeCast S1x64 x2 shapeCasts_S1x64_S1x64) broadcasts_S1x64_S10000x64 : S10000x64.Idx → EReal) (ix2 p q))
      (Ideal.ofBits .f32 0x00000000#32) = _
  rw [hmm, bias_apply, Cert.LibMatmul.MM_apply, Ideal.ofBits_zero_f32]

/-! ## The whole output array as one function of the input arrays -/

/-- relu(x·w + b) over whole arrays, index by index. -/
abbrev G (a0 : S100000x19.Idx → EReal) (a1 : S19x64.Idx → EReal) (a2 : S1x64.Idx → EReal) : S100000x64.Idx → EReal :=
  fun i => max ((∑ k : Fin 19, a0 (ix2 (i 0) k) * a1 (ix2 k (i 1))) + a2 (ix2 (⟨0, Nat.one_pos⟩ : Fin 1) (i 1))) 0

/-- G at an index whose coordinates are named. -/
theorem G_apply (a0 : S100000x19.Idx → EReal) (a1 : S19x64.Idx → EReal) (a2 : S1x64.Idx → EReal) (i : S100000x64.Idx)
    (r : Fin 100000) (q : Fin 64) (h0 : i 0 = r) (h1 : i 1 = q) :
    G a0 a1 a2 i = max ((∑ k : Fin 19, a0 (ix2 r k) * a1 (ix2 k q)) + a2 (ix2 (⟨0, Nat.one_pos⟩ : Fin 1) q)) 0 := by
  subst h0 h1; rfl

/-- The index maps over the grid: point t works on row block t of the first input and of the output; the other two
    windows are whole arrays. -/
theorem idx_facts : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

variable (V : (c : Dev nD) → (b : Ref sig .tc) → Buf (Elt Ideal) ((c : Thread nD τ).loc b))

/-- The first input's block at point t is rows 10000·t … 10000·t + 9999 of its array. -/
theorem rows_apply (c : Dev nD) (t : Fin cfg0.N) (p : Fin 10000) (k : Fin 19) (r : Fin 100000)
    (hr : r.val = t.val * 10000 + p.val) :
    (iblk0 V c 0 t : S10000x19.Idx → EReal) (ix2 p k) = (V c main_arg0 : S100000x19.Idx → EReal) (ix2 r k) := by
  obtain ⟨-, -, e0, e1, -⟩ := idx_facts t
  unfold iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 19 + 1 * k.val = k.val; omega

/-- The second input's block is its whole array at every point. -/
theorem weights_apply (c : Dev nD) (t : Fin cfg0.N) (k : Fin 19) (q : Fin 64) :
    (iblk0 V c 1 t : S19x64.Idx → EReal) (ix2 k q) = (V c main_arg4 : S19x64.Idx → EReal) (ix2 k q) := by
  obtain ⟨-, -, -, -, e0, e1, -⟩ := idx_facts t
  unfold iblk0
  rw [View.read_apply]
  show V c main_arg4 (((cfg0.win 1).blk t).view.emb (ix2 k q)) = V c main_arg4 (ix2 k q)
  refine congrArg (V c main_arg4) (funext fun a => Fin.ext ?_)
  match a with
  | ⟨0, _⟩ => show win0_1.index t (0 : Fin 2) * 19 + 1 * k.val = k.val; omega
  | ⟨1, _⟩ => show win0_1.index t (1 : Fin 2) * 64 + 1 * q.val = q.val; omega

/-- The bias window's block is its whole array at every point. -/
theorem biasrow_apply (c : Dev nD) (t : Fin cfg0.N) (z : Fin 1) (q : Fin 64) :
    (iblk0 V c 2 t : S1x64.Idx → EReal) (ix2 z q) = (V c main_v4 : S1x64.Idx → EReal) (ix2 z q) := by
  obtain ⟨-, -, -, -, -, -, e0, e1⟩ := idx_facts t
  unfold iblk0
  rw [View.read_apply]
  show V c main_v4 (((cfg0.win 2).blk t).view.emb (ix2 z q)) = V c main_v4 (ix2 z q)
  refine congrArg (V c main_v4) (funext fun a => Fin.ext ?_)
  match a with
  | ⟨0, _⟩ => show win0_2.index t (0 : Fin 2) * 1 + 1 * z.val = z.val; omega
  | ⟨1, _⟩ => show win0_2.index t (1 : Fin 2) * 64 + 1 * q.val = q.val; omega

/-- What point t writes back is block t of G of the input arrays. -/
theorem flushed_eq (c : Dev nD) (t : Fin cfg0.N) :
    (dat0 (F := Ideal) V c).flushed 3 t
      = ((cfg0.win 3).blk t).view.read (Elt Ideal) (G (V c main_arg0) (V c main_arg4) (V c main_v4)) := by
  show (cfg0.win 3).cut (grid0.coords t) ((dat0 (F := Ideal) V c).after 3 t) = _
  rw [after0_3]
  unfold out0_3
  rw [View.canon_unit_zero zeros]
  simp only [View.ld_unit_zero (S := S10000x19) zeros, View.ld_unit_zero (S := S19x64) zeros, View.ld_unit_zero (S := S1x64) zeros]
  obtain ⟨e0, e1, -⟩ := idx_facts t
  funext j
  obtain ⟨p, q, rfl⟩ : ∃ (p : Fin 10000) (q : Fin 64), j = ix2 p q := ⟨j 0, j 1, eq_ix2 j⟩
  have hN : grid0.N = 10 := N_0
  have ht : t.val < grid0.N := t.isLt
  rw [hN] at ht
  have h0 : (((cfg0.win 3).blk t).view.emb (ix2 p q)) 0 = (⟨t.val * 10000 + p.val, by have := p.isLt; omega⟩ : Fin 100000) :=
    Fin.ext (by show win0_3.index t (0 : Fin 2) * 10000 + 1 * p.val = t.val * 10000 + p.val; omega)
  have h1 : (((cfg0.win 3).blk t).view.emb (ix2 p q)) 1 = q :=
    Fin.ext (by show win0_3.index t (1 : Fin 2) * 64 + 1 * q.val = q.val; omega)
  show (k0_pay1 (F := Ideal) (iblk0 V c 0 t) (iblk0 V c 1 t) (iblk0 V c 2 t) : S10000x64.Idx → EReal) (ix2 p q)
    = G (V c main_arg0) (V c main_arg4) (V c main_v4) (((cfg0.win 3).blk t).view.emb (ix2 p q))
  refine ((payload_apply (iblk0 V c 0 t) (iblk0 V c 1 t) (iblk0 V c 2 t) p q).trans ?_).trans
    (G_apply (V c main_arg0) (V c main_arg4) (V c main_v4) _ _ q h0 h1).symm
  exact congrArg (fun z => max z 0) (congrArg₂ (· + ·)
    (Finset.sum_congr rfl fun k _ => congrArg₂ (· * ·) (rows_apply V c t p k _ rfl) (weights_apply V c t k q))
    (biasrow_apply V c t _ q))

/-- An index of the output array is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v5).slice (win0_3.rect t)).set ↔ _
  rw [View.set_slice_whole, Rect.mem_set_unit]
  exact Iff.rfl

/-- Every index of the output array is in the block of the point its row falls in. -/
theorem cover (i : S100000x64.Idx) :
    ∃ t : Fin cfg0.N, (cfg0.win 3).flush t = true ∧ i ∈ ((cfg0.win 3).blk t).view.set := by
  have hN : grid0.N = 10 := N_0
  have hi0 : (i 0).val < 100000 := (i 0).isLt
  have hi1 : (i 1).val < 64 := (i 1).isLt
  have hlt : (i 0).val / 10000 < grid0.N := by rw [hN]; omega
  obtain ⟨e0, e1, -⟩ := idx_facts ⟨(i 0).val / 10000, hlt⟩
  refine ⟨⟨(i 0).val / 10000, hlt⟩, flush0_3 _, ?_⟩
  rw [mem_blk]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, hlt⟩ (1 : Fin 2) * 64 ≤ (i 1).val
      ∧ (i 1).val < win0_3.index ⟨(i 0).val / 10000, hlt⟩ (1 : Fin 2) * 64 + 64
    rw [e1]; omega

/-- The output array after all grid points is G of the input arrays. -/
theorem final (c : Dev nD) :
    (dat0 (F := Ideal) V c).arrAt 3 cfg0.N = G (V c main_arg0) (V c main_arg4) (V c main_v4) :=
  (dat0 (F := Ideal) V c).arrAt_eq_of_cover 3 (G (V c main_arg0) (V c main_arg4) (V c main_v4))
    (fun t _ => flushed_eq V c t) cover

end Cert.KernelIdeal.Region0

open Idealize.ShloMosaic Idealize.ShloMosaic.ValueIdx Idealize.SL.Sem Cert.KernelIdeal Cert.KernelIdeal.Gen in
/-- Region 0's output array, index by index: the dense layer relu(X·W + b) of its three input arrays. -/
theorem Cert.KernelIdeal.Region0.value
    (V : (c : Dev nD) → (b : Ref sig .tc) → Buf (Elt Ideal) ((c : Thread nD τ).loc b)) (c : Dev nD) (p : Fin 100000) (q : Fin 64) :
    ((dat0 (F := Ideal) V c).arrAt 3 cfg0.N : S100000x64.Idx → EReal) (ix2 p q)
      = Cert.Model.dense (Cert.View.cur2 (V c main_arg0 : S100000x19.Idx → EReal)) (Cert.View.cur2 (V c main_arg4 : S19x64.Idx → EReal))
          (fun j : Fin 64 => (V c main_v4 : S1x64.Idx → EReal) (ix2 (⟨0, Nat.one_pos⟩ : Fin 1) j)) p q := by
  rw [Cert.KernelIdeal.Region0.final V c]
  rfl

namespace Cert.KernelIdeal.Region1

open Cert.KernelIdeal Cert.KernelIdeal.Gen

theorem zeros : (![0, 0] : Fin 2 → Nat) = fun _ => 0 := funext fun a => by fin_cases a <;> rfl

/-! ## The body's arithmetic at an index -/

/-- The bias row spread down the rows, read at (p, q), is the bias at column q. -/
theorem bias_apply (x2 : Vec Ideal S1x64 .f32) (p : Fin 10000) (q : Fin 64) :
    (broadcastTo S10000x64 (shapeCast S1x64 x2 shapeCasts_S1x64_S1x64) broadcasts_S1x64_S10000x64 : S10000x64.Idx → EReal) (ix2 p q)
      = x2 (ix2 (⟨0, Nat.one_pos⟩ : Fin 1) q) := by
  rw [shapeCast_self]
  refine broadcastTo_apply x2 broadcasts_S1x64_S10000x64 (ix2 p q) (ix2 (⟨0, Nat.one_pos⟩ : Fin 1) q) (fun a => ?_)
  match a with
  | ⟨0, _⟩ => rfl
  | ⟨1, _⟩ => rfl

/-- The body's arithmetic at (p, q): relu of row p of the first block against column q of the second, plus the bias. -/
theorem payload_apply (x0 : Vec Ideal S10000x5 .f32) (x1 : Vec Ideal S5x64 .f32) (x2 : Vec Ideal S1x64 .f32)
    (p : Fin 10000) (q : Fin 64) :
    (k1_pay1 (F := Ideal) x0 x1 x2 : S10000x64.Idx → EReal) (ix2 p q)
      = max ((∑ k : Fin 5, x0 (ix2 p k) * x1 (ix2 k q)) + x2 (ix2 (⟨0, Nat.one_pos⟩ : Fin 1) q)) 0 := by
  have hmm : (matmul dot_S10000x5_S5x64_S10000x64_1_0_0_1_n_n none
        (truncf .bf16 x0 bitsLt_bf16_f32 : FVec Ideal S10000x5 .bf16) (truncf .bf16 x1 bitsLt_bf16_f32 : FVec Ideal S5x64 .bf16)
        (constant S10000x64 .f32 0x00000000#32) : FVec Ideal S10000x64 .f32)
      = Cert.LibMatmul.MM (x0 : S10000x5.Idx → EReal) (x1 : S5x64.Idx → EReal) :=
    Cert.LibMatmul.matmul_zero_eq dot_S10000x5_S5x64_S10000x64_1_0_0_1_n_n rfl rfl rfl rfl rfl rfl none _ _
  unfold k1_pay1
  show max ((matmul dot_S10000x5_S5x64_S10000x64_1_0_0_1_n_n none
        (truncf .bf16 x0 bitsLt_bf16_f32 : FVec Ideal S10000x5 .bf16) (truncf .bf16 x1 bitsLt_bf16_f32 : FVec Ideal S5x64 .bf16)
        (constant S10000x64 .f32 0x00000000#32) : FVec Ideal S10000x64 .f32) (ix2 p q)
      + (broadcastTo S10000x64 (shapeCast S1x64 x2 shapeCasts_S1x64_S1x64) broadcasts_S1x64_S10000x64 : S10000x64.Idx → EReal) (ix2 p q))
      (Ideal.ofBits .f32 0x00000000#32) = _
  rw [hmm, bias_apply, Cert.LibMatmul.MM_apply, Ideal.ofBits_zero_f32]

/-! ## The whole output array as one function of the input arrays -/

/-- relu(x·w + b) over whole arrays, index by index. -/
abbrev G (a0 : S50000x5.Idx → EReal) (a1 : S5x64.Idx → EReal) (a2 : S1x64.Idx → EReal) : S50000x64.Idx → EReal :=
  fun i => max ((∑ k : Fin 5, a0 (ix2 (i 0) k) * a1 (ix2 k (i 1))) + a2 (ix2 (⟨0, Nat.one_pos⟩ : Fin 1) (i 1))) 0

/-- G at an index whose coordinates are named. -/
theorem G_apply (a0 : S50000x5.Idx → EReal) (a1 : S5x64.Idx → EReal) (a2 : S1x64.Idx → EReal) (i : S50000x64.Idx)
    (r : Fin 50000) (q : Fin 64) (h0 : i 0 = r) (h1 : i 1 = q) :
    G a0 a1 a2 i = max ((∑ k : Fin 5, a0 (ix2 r k) * a1 (ix2 k q)) + a2 (ix2 (⟨0, Nat.one_pos⟩ : Fin 1) q)) 0 := by
  subst h0 h1; rfl

/-- The index maps over the grid: point t works on row block t of the first input and of the output; the other two
    windows are whole arrays. -/
theorem idx_facts : ∀ t : Fin cfg1.N,
    win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

variable (V : (c : Dev nD) → (b : Ref sig .tc) → Buf (Elt Ideal) ((c : Thread nD τ).loc b))

/-- The first input's block at point t is rows 10000·t … 10000·t + 9999 of its array. -/
theorem rows_apply (c : Dev nD) (t : Fin cfg1.N) (p : Fin 10000) (k : Fin 5) (r : Fin 50000)
    (hr : r.val = t.val * 10000 + p.val) :
    (iblk1 V c 0 t : S10000x5.Idx → EReal) (ix2 p k) = (V c main_arg1 : S50000x5.Idx → EReal) (ix2 r k) := by
  obtain ⟨-, -, e0, e1, -⟩ := idx_facts t
  unfold iblk1
  rw [View.read_apply]
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 10000 + 1 * p.val = r.val; omega
  | ⟨1, _⟩ => show win1_0.index t (1 : Fin 2) * 5 + 1 * k.val = k.val; omega

/-- The second input's block is its whole array at every point. -/
theorem weights_apply (c : Dev nD) (t : Fin cfg1.N) (k : Fin 5) (q : Fin 64) :
    (iblk1 V c 1 t : S5x64.Idx → EReal) (ix2 k q) = (V c main_arg6 : S5x64.Idx → EReal) (ix2 k q) := by
  obtain ⟨-, -, -, -, e0, e1, -⟩ := idx_facts t
  unfold iblk1
  rw [View.read_apply]
  show V c main_arg6 (((cfg1.win 1).blk t).view.emb (ix2 k q)) = V c main_arg6 (ix2 k q)
  refine congrArg (V c main_arg6) (funext fun a => Fin.ext ?_)
  match a with
  | ⟨0, _⟩ => show win1_1.index t (0 : Fin 2) * 5 + 1 * k.val = k.val; omega
  | ⟨1, _⟩ => show win1_1.index t (1 : Fin 2) * 64 + 1 * q.val = q.val; omega

/-- The bias window's block is its whole array at every point. -/
theorem biasrow_apply (c : Dev nD) (t : Fin cfg1.N) (z : Fin 1) (q : Fin 64) :
    (iblk1 V c 2 t : S1x64.Idx → EReal) (ix2 z q) = (V c main_v6 : S1x64.Idx → EReal) (ix2 z q) := by
  obtain ⟨-, -, -, -, -, -, e0, e1⟩ := idx_facts t
  unfold iblk1
  rw [View.read_apply]
  show V c main_v6 (((cfg1.win 2).blk t).view.emb (ix2 z q)) = V c main_v6 (ix2 z q)
  refine congrArg (V c main_v6) (funext fun a => Fin.ext ?_)
  match a with
  | ⟨0, _⟩ => show win1_2.index t (0 : Fin 2) * 1 + 1 * z.val = z.val; omega
  | ⟨1, _⟩ => show win1_2.index t (1 : Fin 2) * 64 + 1 * q.val = q.val; omega

/-- What point t writes back is block t of G of the input arrays. -/
theorem flushed_eq (c : Dev nD) (t : Fin cfg1.N) :
    (dat1 (F := Ideal) V c).flushed 3 t
      = ((cfg1.win 3).blk t).view.read (Elt Ideal) (G (V c main_arg1) (V c main_arg6) (V c main_v6)) := by
  show (cfg1.win 3).cut (grid1.coords t) ((dat1 (F := Ideal) V c).after 3 t) = _
  rw [after1_3]
  unfold out1_3
  rw [View.canon_unit_zero zeros]
  simp only [View.ld_unit_zero (S := S10000x5) zeros, View.ld_unit_zero (S := S5x64) zeros, View.ld_unit_zero (S := S1x64) zeros]
  obtain ⟨e0, e1, -⟩ := idx_facts t
  funext j
  obtain ⟨p, q, rfl⟩ : ∃ (p : Fin 10000) (q : Fin 64), j = ix2 p q := ⟨j 0, j 1, eq_ix2 j⟩
  have hN : grid1.N = 5 := N_1
  have ht : t.val < grid1.N := t.isLt
  rw [hN] at ht
  have h0 : (((cfg1.win 3).blk t).view.emb (ix2 p q)) 0 = (⟨t.val * 10000 + p.val, by have := p.isLt; omega⟩ : Fin 50000) :=
    Fin.ext (by show win1_3.index t (0 : Fin 2) * 10000 + 1 * p.val = t.val * 10000 + p.val; omega)
  have h1 : (((cfg1.win 3).blk t).view.emb (ix2 p q)) 1 = q :=
    Fin.ext (by show win1_3.index t (1 : Fin 2) * 64 + 1 * q.val = q.val; omega)
  show (k1_pay1 (F := Ideal) (iblk1 V c 0 t) (iblk1 V c 1 t) (iblk1 V c 2 t) : S10000x64.Idx → EReal) (ix2 p q)
    = G (V c main_arg1) (V c main_arg6) (V c main_v6) (((cfg1.win 3).blk t).view.emb (ix2 p q))
  refine ((payload_apply (iblk1 V c 0 t) (iblk1 V c 1 t) (iblk1 V c 2 t) p q).trans ?_).trans
    (G_apply (V c main_arg1) (V c main_arg6) (V c main_v6) _ _ q h0 h1).symm
  exact congrArg (fun z => max z 0) (congrArg₂ (· + ·)
    (Finset.sum_congr rfl fun k _ => congrArg₂ (· * ·) (rows_apply V c t p k _ rfl) (weights_apply V c t k q))
    (biasrow_apply V c t _ q))

/-- An index of the output array is in point t's block iff each coordinate is in the block's range on its axis. -/
theorem mem_blk (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v7).slice (win1_3.rect t)).set ↔ _
  rw [View.set_slice_whole, Rect.mem_set_unit]
  exact Iff.rfl

/-- Every index of the output array is in the block of the point its row falls in. -/
theorem cover (i : S50000x64.Idx) :
    ∃ t : Fin cfg1.N, (cfg1.win 3).flush t = true ∧ i ∈ ((cfg1.win 3).blk t).view.set := by
  have hN : grid1.N = 5 := N_1
  have hi0 : (i 0).val < 50000 := (i 0).isLt
  have hi1 : (i 1).val < 64 := (i 1).isLt
  have hlt : (i 0).val / 10000 < grid1.N := by rw [hN]; omega
  obtain ⟨e0, e1, -⟩ := idx_facts ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, hlt⟩ (1 : Fin 2) * 64 ≤ (i 1).val
      ∧ (i 1).val < win1_3.index ⟨(i 0).val / 10000, hlt⟩ (1 : Fin 2) * 64 + 64
    rw [e1]; omega

/-- The output array after all grid points is G of the input arrays. -/
theorem final (c : Dev nD) :
    (dat1 (F := Ideal) V c).arrAt 3 cfg1.N = G (V c main_arg1) (V c main_arg6) (V c main_v6) :=
  (dat1 (F := Ideal) V c).arrAt_eq_of_cover 3 (G (V c main_arg1) (V c main_arg6) (V c main_v6))
    (fun t _ => flushed_eq V c t) cover

end Cert.KernelIdeal.Region1

open Idealize.ShloMosaic Idealize.ShloMosaic.ValueIdx Idealize.SL.Sem Cert.KernelIdeal Cert.KernelIdeal.Gen in
/-- Region 1's output array, index by index: the dense layer relu(X·W + b) of its three input arrays. -/
theorem Cert.KernelIdeal.Region1.value
    (V : (c : Dev nD) → (b : Ref sig .tc) → Buf (Elt Ideal) ((c : Thread nD τ).loc b)) (c : Dev nD) (p : Fin 50000) (q : Fin 64) :
    ((dat1 (F := Ideal) V c).arrAt 3 cfg1.N : S50000x64.Idx → EReal) (ix2 p q)
      = Cert.Model.dense (Cert.View.cur2 (V c main_arg1 : S50000x5.Idx → EReal)) (Cert.View.cur2 (V c main_arg6 : S5x64.Idx → EReal))
          (fun j : Fin 64 => (V c main_v6 : S1x64.Idx → EReal) (ix2 (⟨0, Nat.one_pos⟩ : Fin 1) j)) p q := by
  rw [Cert.KernelIdeal.Region1.final V c]
  rfl

end
-- ==== Proof.Region2.lean ====
/-
  The value of the third pallas_call region (Y = relu(A·Wa + B·Wb + bias), rows in blocks of 5000).

  For arbitrary contents of the buffers when the region is entered: the body's arithmetic read at an index of its
  block (the two matrix products, added, the bias row broadcast down the rows and added, the maximum with zero);
  each input window's block at a grid point as the rows or the whole of its array; what a grid point writes back
  as the block of ONE whole-array function; the blocks' cover of the array (row r lies in block r / 5000); hence
  the output array after all ten grid points, index by index, as the dense two-operand layer of the model.
-/
import proofs.«105270_j8598524526745_2_alg».proof.Proof.Gen.KernelIdeal.Frame
import proofs.«105270_j8598524526745_2_alg».proof.Proof.Model
import proofs.«105270_j8598524526745_2_alg».proof.Proof.View
import proofs.«105270_j8598524526745_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Idealize.ShloMosaic Idealize.ShloMosaic.ValueIdx Idealize.ShloMosaic.TcCoe Idealize.SL.Sem Cert.KernelIdeal Cert.KernelIdeal.Gen
open Idealize.ShloMosaic.Pipeline (Dat)
open scoped BigOperators

/-- The product of a block of rows with a square matrix, as the contraction the body performs, is the plain
    matrix product. -/
theorem matmul_eq (x : FVec Ideal S5000x64 .bf16) (w : FVec Ideal S64x64 .bf16) :
    FloatOps.matmul dot_S5000x64_S64x64_S5000x64_1_0_0_1_n_n none x w (constant S5000x64 .f32 0x00000000#32)
      = Cert.LibMatmul.MM x w :=
  Cert.LibMatmul.matmul_zero_eq dot_S5000x64_S64x64_S5000x64_1_0_0_1_n_n rfl rfl rfl rfl rfl rfl none x w

/-- The body's arithmetic at an index of its block: the two products added, the bias row added, clamped below at
    zero. -/
theorem payload_apply (x0 x1 : Vec Ideal S5000x64 .f32) (x2 x3 : Vec Ideal S64x64 .f32) (x4 : Vec Ideal S1x64 .f32)
    (p : Fin 5000) (q : Fin 64) :
    (k2_pay1 (F := Ideal) x0 x1 x2 x3 x4 : S5000x64.Idx → EReal) (ix2 p q)
      = max (((∑ k : Fin 64, (x0 : S5000x64.Idx → EReal) (ix2 p k) * (x2 : S64x64.Idx → EReal) (ix2 k q))
              + (∑ k : Fin 64, (x1 : S5000x64.Idx → EReal) (ix2 p k) * (x3 : S64x64.Idx → EReal) (ix2 k q)))
              + (x4 : S1x64.Idx → EReal) (ix2 (⟨0, Nat.one_pos⟩ : Fin 1) q)) 0 := by
  unfold k2_pay1
  simp only [shapeCast_self, matmul]
  rw [maximumf_apply, addf_apply, addf_apply, broadcast_apply, matmul_eq, matmul_eq, Cert.LibMatmul.MM_apply,
    Cert.LibMatmul.MM_apply, broadcastTo_1b_ab_apply]
  show max (_ + _ + _) (Ideal.ofBits .f32 0x00000000#32) = _
  rw [Ideal.ofBits_zero_f32]
  rfl

/-- The same at any index of the block, through its two coordinates. -/
theorem payload_at (x0 x1 : Vec Ideal S5000x64 .f32) (x2 x3 : Vec Ideal S64x64 .f32) (x4 : Vec Ideal S1x64 .f32)
    (j : S5000x64.Idx) :
    (k2_pay1 (F := Ideal) x0 x1 x2 x3 x4 : S5000x64.Idx → EReal) j
      = max (((∑ k : Fin 64, (x0 : S5000x64.Idx → EReal) (ix2 (j 0) k) * (x2 : S64x64.Idx → EReal) (ix2 k (j 1)))
              + (∑ k : Fin 64, (x1 : S5000x64.Idx → EReal) (ix2 (j 0) k) * (x3 : S64x64.Idx → EReal) (ix2 k (j 1))))
              + (x4 : S1x64.Idx → EReal) (ix2 (⟨0, Nat.one_pos⟩ : Fin 1) (j 1))) 0 := by
  obtain ⟨p, q, rfl⟩ : ∃ (p : Fin 5000) (q : Fin 64), j = ix2 p q := ⟨j 0, j 1, eq_ix2 j⟩
  exact payload_apply x0 x1 x2 x3 x4 p q

section Blocks
variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the two row-blocked inputs and the output sit at row block t, column
    block 0; the two matrices and the bias row are whole. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The first input's block at point t is rows 5000 t … 5000 t + 4999 of its array. -/
theorem rowsA_apply (c : Dev nD) (t : Fin cfg2.N) (x : S5000x64.Idx) (i : S50000x64.Idx)
    (h0 : (i 0).val = t.val * 5000 + (x 0).val) (h1 : (i 1).val = (x 1).val) :
    (iblk2 (F := Ideal) V c 0 t : Vec Ideal S5000x64 .f32) x = (V c main_v7 : S50000x64.Idx → EReal) i := by
  obtain ⟨a0, a1, -⟩ := index_facts t
  unfold iblk2
  rw [View.read_apply]
  show V c main_v7 _ = V c main_v7 _
  refine congrArg (V c main_v7) ?_
  funext a
  apply Fin.ext
  match a with
  | ⟨0, _⟩ => show win2_0.index t (0 : Fin 2) * 5000 + 1 * (x 0).val = (i 0).val; omega
  | ⟨1, _⟩ => show win2_0.index t (1 : Fin 2) * 64 + 1 * (x 1).val = (i 1).val; omega

/-- The second input's block at point t is the same rows of its array. -/
theorem rowsB_apply (c : Dev nD) (t : Fin cfg2.N) (x : S5000x64.Idx) (i : S50000x64.Idx)
    (h0 : (i 0).val = t.val * 5000 + (x 0).val) (h1 : (i 1).val = (x 1).val) :
    (iblk2 (F := Ideal) V c 1 t : Vec Ideal S5000x64 .f32) x = (V c main_v30 : S50000x64.Idx → EReal) i := by
  obtain ⟨-, -, a0, a1, -⟩ := index_facts t
  unfold iblk2
  rw [View.read_apply]
  show V c main_v30 _ = V c main_v30 _
  refine congrArg (V c main_v30) ?_
  funext a
  apply Fin.ext
  match a with
  | ⟨0, _⟩ => show win2_1.index t (0 : Fin 2) * 5000 + 1 * (x 0).val = (i 0).val; omega
  | ⟨1, _⟩ => show win2_1.index t (1 : Fin 2) * 64 + 1 * (x 1).val = (i 1).val; omega

/-- The first matrix's block at every point is the whole matrix. -/
theorem matA_apply (c : Dev nD) (t : Fin cfg2.N) (x i : S64x64.Idx)
    (h0 : (i 0).val = (x 0).val) (h1 : (i 1).val = (x 1).val) :
    (iblk2 (F := Ideal) V c 2 t : Vec Ideal S64x64 .f32) x = (V c main_v8 : S64x64.Idx → EReal) i := by
  obtain ⟨-, -, -, -, a0, a1, -⟩ := index_facts t
  unfold iblk2
  rw [View.read_apply]
  show V c main_v8 _ = V c main_v8 _
  refine congrArg (V c main_v8) ?_
  funext a
  apply Fin.ext
  match a with
  | ⟨0, _⟩ => show win2_2.index t (0 : Fin 2) * 64 + 1 * (x 0).val = (i 0).val; omega
  | ⟨1, _⟩ => show win2_2.index t (1 : Fin 2) * 64 + 1 * (x 1).val = (i 1).val; omega

/-- The second matrix's block at every point is the whole matrix. -/
theorem matB_apply (c : Dev nD) (t : Fin cfg2.N) (x i : S64x64.Idx)
    (h0 : (i 0).val = (x 0).val) (h1 : (i 1).val = (x 1).val) :
    (iblk2 (F := Ideal) V c 3 t : Vec Ideal S64x64 .f32) x = (V c main_v14 : S64x64.Idx → EReal) i := by
  obtain ⟨-, -, -, -, -, -, a0, a1, -⟩ := index_facts t
  unfold iblk2
  rw [View.read_apply]
  show V c main_v14 _ = V c main_v14 _
  refine congrArg (V c main_v14) ?_
  funext a
  apply Fin.ext
  match a with
  | ⟨0, _⟩ => show win2_3.index t (0 : Fin 2) * 64 + 1 * (x 0).val = (i 0).val; omega
  | ⟨1, _⟩ => show win2_3.index t (1 : Fin 2) * 64 + 1 * (x 1).val = (i 1).val; omega

/-- The bias row's block at every point is the whole row. -/
theorem bias_apply (c : Dev nD) (t : Fin cfg2.N) (x i : S1x64.Idx)
    (h0 : (i 0).val = (x 0).val) (h1 : (i 1).val = (x 1).val) :
    (iblk2 (F := Ideal) V c 4 t : Vec Ideal S1x64 .f32) x = (V c main_v31 : S1x64.Idx → EReal) i := by
  obtain ⟨-, -, -, -, -, -, -, -, a0, a1, -⟩ := index_facts t
  unfold iblk2
  rw [View.read_apply]
  show V c main_v31 _ = V c main_v31 _
  refine congrArg (V c main_v31) ?_
  funext a
  apply Fin.ext
  match a with
  | ⟨0, _⟩ => show win2_4.index t (0 : Fin 2) * 1 + 1 * (x 0).val = (i 0).val; omega
  | ⟨1, _⟩ => show win2_4.index t (1 : Fin 2) * 64 + 1 * (x 1).val = (i 1).val; omega

/-- The whole output array as one function of the five input arrays: relu(a·wa + b·wb + bias), index by index. -/
def whole (a b : S50000x64.Idx → EReal) (wa wb : S64x64.Idx → EReal) (bias : S1x64.Idx → EReal) :
    S50000x64.Idx → EReal :=
  fun i => Cert.Model.dense2 (Cert.View.cur2 a) (Cert.View.cur2 b) (Cert.View.cur2 wa) (Cert.View.cur2 wb)
    (fun j : Fin 64 => bias (ix2 (⟨0, Nat.one_pos⟩ : Fin 1) j)) (i 0) (i 1)

/-- What point t writes back is block t of the whole-array function of the arrays as the region finds them. -/
theorem writeback_eq (c : Dev nD) (t : Fin cfg2.N) :
    (dat2 (F := Ideal) V c).flushed 5 t
      = ((cfg2.win 5).blk t).view.read (Elt Ideal)
          (whole (V c main_v7) (V c main_v30) (V c main_v8) (V c main_v14) (V c main_v31)) := by
  show (cfg2.win 5).cut (grid2.coords t) ((dat2 (F := Ideal) V c).after 5 t) = _
  rw [after2_5]
  unfold out2_5
  rw [View.canon_unit_zero zeros]
  simp only [View.ld_unit_zero (S := S5000x64) zeros, View.ld_unit_zero (S := S64x64) zeros, View.ld_unit_zero (S := S1x64) zeros]

  funext j
  have hj0 : (j 0).val < 5000 := (j 0).isLt
  have hj1 : (j 1).val < 64 := (j 1).isLt
  obtain ⟨-, -, -, -, -, -, -, -, -, -, o0, o1⟩ := index_facts t
  have r0 : ((((cfg2.win 5).blk t).view.emb j) 0).val = t.val * 5000 + (j 0).val := by
    show win2_5.index t (0 : Fin 2) * 5000 + 1 * (j 0).val = _
    omega
  have r1 : ((((cfg2.win 5).blk t).view.emb j) 1).val = (j 1).val := by
    show win2_5.index t (1 : Fin 2) * 64 + 1 * (j 1).val = _
    omega
  refine (payload_at (iblk2 V c 0 t) (iblk2 V c 1 t) (iblk2 V c 2 t) (iblk2 V c 3 t) (iblk2 V c 4 t)
    ((win2 5).xinj (grid2.coords t) j)).trans ?_
  refine congrArg₂ max (congrArg₂ (· + ·) (congrArg₂ (· + ·) (Finset.sum_congr rfl fun k _ => ?_)
    (Finset.sum_congr rfl fun k _ => ?_)) ?_) rfl
  · exact congrArg₂ (· * ·) (rowsA_apply V c t _ _ r0 rfl) (matA_apply V c t _ _ rfl r1)
  · exact congrArg₂ (· * ·) (rowsB_apply V c t _ _ r0 rfl) (matB_apply V c t _ _ rfl r1)
  · exact bias_apply V c t _ _ rfl r1

/-- An index of the array is in point t's block iff each coordinate is in the block's range on its axis. -/
theorem mem_block (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v32).slice (win2_5.rect t)).set ↔ _
  rw [View.set_slice_whole, Rect.mem_set_unit]
  exact Iff.rfl

/-- Every row of the array is in the block of the point numbered by its row divided by 5000. -/
theorem covered (i : S50000x64.Idx) :
    ∃ t : Fin cfg2.N, (cfg2.win 5).flush t = true ∧ i ∈ ((cfg2.win 5).blk t).view.set := by
  have hN : grid2.N = 10 := N_2
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by show (i 0).val / 5000 < grid2.N; omega⟩, rfl⟩
  obtain ⟨-, -, -, -, -, -, -, -, -, -, o0, o1⟩ := index_facts t
  refine ⟨t, flush2_5 t, ?_⟩
  rw [mem_block]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- The output array after all the grid points is the whole-array function of the arrays as the region finds them. -/
theorem final (c : Dev nD) :
    (dat2 (F := Ideal) V c).arrAt 5 cfg2.N
      = whole (V c main_v7) (V c main_v30) (V c main_v8) (V c main_v14) (V c main_v31) :=
  (dat2 (F := Ideal) V c).arrAt_eq_of_cover 5
    (whole (V c main_v7) (V c main_v30) (V c main_v8) (V c main_v14) (V c main_v31))
    (fun t _ => writeback_eq V c t) covered

end Blocks

end Cert.KernelIdeal.Region2

open Idealize.ShloMosaic Idealize.ShloMosaic.ValueIdx Idealize.ShloMosaic.TcCoe Idealize.SL.Sem Cert.KernelIdeal Cert.KernelIdeal.Gen in
/-- The region's output array, index by index: relu(a·wa + b·wb + bias) of the five arrays as the region finds
    them. -/
theorem Cert.KernelIdeal.Region2.value
    (V : (c : Dev nD) → (b : Ref sig .tc) → Buf (Elt Ideal) ((c : Thread nD τ).loc b)) (c : Dev nD) (p : Fin 50000) (q : Fin 64) :
    ((dat2 (F := Ideal) V c).arrAt 5 cfg2.N : S50000x64.Idx → EReal) (ix2 p q)
      = Cert.Model.dense2 (Cert.View.cur2 (V c main_v7 : S50000x64.Idx → EReal)) (Cert.View.cur2 (V c main_v30 : S50000x64.Idx → EReal))
          (Cert.View.cur2 (V c main_v8 : S64x64.Idx → EReal)) (Cert.View.cur2 (V c main_v14 : S64x64.Idx → EReal))
          (fun j : Fin 64 => (V c main_v31 : S1x64.Idx → EReal) (ix2 (⟨0, Nat.one_pos⟩ : Fin 1) j)) p q :=
  congrFun (Cert.KernelIdeal.Region2.final V c) (ix2 p q)

end
-- ==== Proof.Region3.lean ====
/-
  The value of the score region of the idealized kernel program. The region walks the 100000 variables in 25 blocks of
  4000 rows. At each block it reads the block's rows of the variables' own embeddings and of the sums they received,
  and the whole of five weight arrays and two bias rows, and stores one column of 4000 scores:

    u = max (x·Wx + y·Wy + b) 0,   h = max (u·W1 + b1) 0,   score = h·w2 + b2.

  A row's score reads only that row of the two embedding matrices, so the score of row p' of block t is the score of
  row 4000 t + p' of the whole arrays. The blocks are disjoint ranges of rows that fill the output array, so after all
  the grid points the output array holds, at row p, the score of variable p.
-/
import proofs.«105270_j8598524526745_2_alg».proof.Proof.Gen.KernelIdeal.Frame
import proofs.«105270_j8598524526745_2_alg».proof.Proof.Model
import proofs.«105270_j8598524526745_2_alg».proof.Proof.View
import proofs.«105270_j8598524526745_2_alg».proof.Proof.LibMatmul
import Idealize.ShloMosaic.Lib.Pipeline.Value
import Idealize.ShloMosaic.Lib.ValueIdx
import Idealize.ShloMosaic.PureOps.Ideal.Laws

noncomputable section

open scoped BigOperators

namespace Cert.KernelIdeal.Region3

open Idealize.ShloMosaic Idealize.ShloMosaic.ValueIdx Idealize.ShloMosaic.TcCoe Idealize.SL.Sem
open Idealize.ShloMosaic.Pipeline (Dat)
open Cert.KernelIdeal Cert.KernelIdeal.Gen
open Cert.LibMatmul (MM MM_apply matmul_zero_eq)
open Cert.View (cur2 cur2_apply)

/-- The first coordinate of the one-row and one-column shapes. -/
abbrev z1 : Fin 1 := ⟨0, Nat.one_pos⟩

/-- The scores of a block of rows: the update layer, the hidden layer and the head, as functions of the block's
    two embedding matrices and the weights. -/
def scores {A : Nat} (x y : (⟨2, ![A, 64]⟩ : Shape).Idx → EReal) (wx wy : S64x64.Idx → EReal) (b : S1x64.Idx → EReal)
    (w1 : S64x64.Idx → EReal) (b1 : S1x64.Idx → EReal) (w2 : S64x1.Idx → EReal) (b2 : S1x1.Idx → EReal) : Fin A → EReal :=
  Cert.Model.head
    (Cert.Model.dense
      (Cert.Model.dense2 (cur2 x) (cur2 y) (cur2 wx) (cur2 wy) (fun j : Fin 64 => b (ix2 z1 j)))
      (cur2 w1) (fun j : Fin 64 => b1 (ix2 z1 j)))
    (cur2 w2) (fun j : Fin 1 => b2 (ix2 z1 j))

/-- A product of a block of 4000 rows with a 64 by 64 matrix into the zero accumulator, at an index. -/
theorem mm64_apply {φ₁ φ₂ : FTy} (x : FVec Ideal S4000x64 φ₁) (w : FVec Ideal S64x64 φ₂) (p : Fin 4000) (q : Fin 64) :
    matmul dot_S4000x64_S64x64_S4000x64_1_0_0_1_n_n none x w (constant S4000x64 .f32 0x00000000#32) (ix2 p q)
      = ∑ k : Fin 64, x (ix2 p k) * w (ix2 k q) :=
  (congrFun (matmul_zero_eq dot_S4000x64_S64x64_S4000x64_1_0_0_1_n_n rfl rfl rfl rfl rfl rfl none x w) (ix2 p q)).trans
    (MM_apply x w p q)

/-- A product of a block of 4000 rows with a 64 by 1 matrix into the zero accumulator, at an index. -/
theorem mm1_apply {φ₁ φ₂ : FTy} (x : FVec Ideal S4000x64 φ₁) (w : FVec Ideal S64x1 φ₂) (p : Fin 4000) (q : Fin 1) :
    matmul dot_S4000x64_S64x1_S4000x1_1_0_0_1_n_n none x w (constant S4000x1 .f32 0x00000000#32) (ix2 p q)
      = ∑ k : Fin 64, x (ix2 p k) * w (ix2 k q) :=
  (congrFun (matmul_zero_eq dot_S4000x64_S64x1_S4000x1_1_0_0_1_n_n rfl rfl rfl rfl rfl rfl none x w) (ix2 p q)).trans
    (MM_apply x w p q)

/-- A bias row broadcast down the block's rows, at an index. -/
theorem biasRow_apply (b : S1x64.Idx → EReal) (h : S1x64.Broadcasts S4000x64) (p : Fin 4000) (q : Fin 64) :
    broadcastTo S4000x64 b h (ix2 p q) = b (ix2 z1 q) :=
  broadcastTo_apply b h (ix2 p q) (ix2 z1 q) fun a => by
    match a with
    | ⟨0, _⟩ => rfl
    | ⟨1, _⟩ => rfl

/-- The head's bias broadcast down the block's rows, at an index. -/
theorem biasOne_apply (b : S1x1.Idx → EReal) (h : S1x1.Broadcasts S4000x1) (p : Fin 4000) (q : Fin 1) :
    broadcastTo S4000x1 b h (ix2 p q) = b (ix2 z1 z1) :=
  broadcastTo_apply b h (ix2 p q) (ix2 z1 z1) fun a => by
    match a with
    | ⟨0, _⟩ => rfl
    | ⟨1, _⟩ => rfl

/-- The zero word read at the ideal values. -/
theorem zero_word : (FloatOps.ofBits (F := Ideal) .f32 0x00000000#32 : EReal) = 0 := Ideal.ofBits_zero_f32

/-- THE BODY'S STORED VALUE AT A ROW: the scores of the block's row. -/
theorem payload_apply (x0 x1 : Vec Ideal S4000x64 .f32) (x2 x3 : Vec Ideal S64x64 .f32) (x4 : Vec Ideal S1x64 .f32)
    (x5 : Vec Ideal S64x64 .f32) (x6 : Vec Ideal S1x64 .f32) (x7 : Vec Ideal S64x1 .f32) (x8 : Vec Ideal S1x1 .f32)
    (p : Fin 4000) :
    k3_pay1 (F := Ideal) (k3_pay2 x0 x1 x2 x3 x4 x5 x6 x7) (k3_pay3 x8) (ix2 p z1)
      = scores (A := 4000) x0 x1 x2 x3 x4 x5 x6 x7 x8 p := by
  unfold k3_pay1 k3_pay2 k3_pay3
  simp only [shapeCast_self, addf_apply, maximumf_apply, broadcast_apply, mm64_apply, mm1_apply, biasRow_apply, biasOne_apply,
    truncf_apply, zero_word]
  rfl

/-! ## The scores of a row read only that row -/

/-- The scores at a row depend only on that row of the two embedding matrices. -/
theorem scores_congr {A A' : Nat} (x y : (⟨2, ![A, 64]⟩ : Shape).Idx → EReal) (x' y' : (⟨2, ![A', 64]⟩ : Shape).Idx → EReal)
    (wx wy : S64x64.Idx → EReal) (b : S1x64.Idx → EReal) (w1 : S64x64.Idx → EReal) (b1 : S1x64.Idx → EReal)
    (w2 : S64x1.Idx → EReal) (b2 : S1x1.Idx → EReal) (p : Fin A) (p' : Fin A')
    (hx : ∀ k : Fin 64, x (ix2 p k) = x' (ix2 p' k)) (hy : ∀ k : Fin 64, y (ix2 p k) = y' (ix2 p' k)) :
    scores x y wx wy b w1 b1 w2 b2 p = scores x' y' wx wy b w1 b1 w2 b2 p' := by
  unfold scores Cert.Model.head Cert.Model.dense Cert.Model.dense2
  simp only [cur2_apply, hx, hy]

/-! ## The index maps, decided over the grid -/

theorem hz : (![0, 0] : Fin 2 → Nat) = fun _ => 0 := funext fun a => by fin_cases a <;> rfl

/-- The two embedding windows and the output move one block of rows per grid point; every weight window stays at its
    whole array. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

section Blocks

variable (V : (c : Dev nD) → (b : Ref sig .tc) → Buf (Elt Ideal) ((c : Thread nD τ).loc b))

/-! ## The windows' blocks read off their arrays -/

/-- Block `t` of the variables' own embeddings is rows 4000 t, … of the array. -/
theorem own_rows (c : Dev nD) (t : Fin cfg3.N) (p : Fin 4000) (k : Fin 64) (r : Fin 100000) (hr : r.val = t.val * 4000 + p.val) :
    (iblk3 (F := Ideal) V c 0 t : S4000x64.Idx → EReal) (ix2 p k) = (V c main_v5 : S100000x64.Idx → EReal) (ix2 r k) := by
  obtain ⟨e0, e1, -⟩ := idx_facts t
  show (V c main_v5 : S100000x64.Idx → EReal) (((cfg3.win 0).blk t).view.emb (ix2 p k)) = _
  refine congrArg (V c main_v5 : S100000x64.Idx → EReal) (funext fun a => Fin.ext ?_)
  match a with
  | ⟨0, _⟩ => show win3_0.index t (0 : Fin 2) * 4000 + 1 * p.val = r.val; omega
  | ⟨1, _⟩ => show win3_0.index t (1 : Fin 2) * 64 + 1 * k.val = k.val; omega

/-- Block `t` of the sums the variables received is rows 4000 t, … of the array. -/
theorem received_rows (c : Dev nD) (t : Fin cfg3.N) (p : Fin 4000) (k : Fin 64) (r : Fin 100000) (hr : r.val = t.val * 4000 + p.val) :
    (iblk3 (F := Ideal) V c 1 t : S4000x64.Idx → EReal) (ix2 p k) = (V c main_v45 : S100000x64.Idx → EReal) (ix2 r k) := by
  obtain ⟨-, -, e0, e1, -⟩ := idx_facts t
  show (V c main_v45 : S100000x64.Idx → EReal) (((cfg3.win 1).blk t).view.emb (ix2 p k)) = _
  refine congrArg (V c main_v45 : S100000x64.Idx → EReal) (funext fun a => Fin.ext ?_)
  match a with
  | ⟨0, _⟩ => show win3_1.index t (0 : Fin 2) * 4000 + 1 * p.val = r.val; omega
  | ⟨1, _⟩ => show win3_1.index t (1 : Fin 2) * 64 + 1 * k.val = k.val; omega

/-- The update's matrix for the own embeddings is staged whole at every point. -/
theorem ownWeight_whole (c : Dev nD) (t : Fin cfg3.N) : (iblk3 (F := Ideal) V c 2 t : S64x64.Idx → EReal) = (V c main_v10 : S64x64.Idx → EReal) := by
  obtain ⟨-, -, -, -, e20, e21, e30, e31, e40, e41, e50, e51, e60, e61, e70, e71, e80, e81, -⟩ := idx_facts t
  funext y
  show (V c main_v10 : S64x64.Idx → EReal) (((cfg3.win 2).blk t).view.emb y) = _
  refine congrArg (V c main_v10 : S64x64.Idx → EReal) (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

/-- The update's matrix for the received sums is staged whole at every point. -/
theorem receivedWeight_whole (c : Dev nD) (t : Fin cfg3.N) : (iblk3 (F := Ideal) V c 3 t : S64x64.Idx → EReal) = (V c main_v17 : S64x64.Idx → EReal) := by
  obtain ⟨-, -, -, -, e20, e21, e30, e31, e40, e41, e50, e51, e60, e61, e70, e71, e80, e81, -⟩ := idx_facts t
  funext y
  show (V c main_v17 : S64x64.Idx → EReal) (((cfg3.win 3).blk t).view.emb y) = _
  refine congrArg (V c main_v17 : S64x64.Idx → EReal) (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- The update's bias row is staged whole at every point. -/
theorem updateBias_whole (c : Dev nD) (t : Fin cfg3.N) : (iblk3 (F := Ideal) V c 4 t : S1x64.Idx → EReal) = (V c main_v46 : S1x64.Idx → EReal) := by
  obtain ⟨-, -, -, -, e20, e21, e30, e31, e40, e41, e50, e51, e60, e61, e70, e71, e80, e81, -⟩ := idx_facts t
  funext y
  show (V c main_v46 : S1x64.Idx → EReal) (((cfg3.win 4).blk t).view.emb y) = _
  refine congrArg (V c main_v46 : S1x64.Idx → EReal) (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- The hidden layer's matrix is staged whole at every point. -/
theorem hiddenWeight_whole (c : Dev nD) (t : Fin cfg3.N) : (iblk3 (F := Ideal) V c 5 t : S64x64.Idx → EReal) = (V c main_arg13 : S64x64.Idx → EReal) := by
  obtain ⟨-, -, -, -, e20, e21, e30, e31, e40, e41, e50, e51, e60, e61, e70, e71, e80, e81, -⟩ := idx_facts t
  funext y
  show (V c main_arg13 : S64x64.Idx → EReal) (((cfg3.win 5).blk t).view.emb y) = _
  refine congrArg (V c main_arg13 : S64x64.Idx → EReal) (funext fun a => Fin.ext ?_)
  match a with
  | ⟨0, _⟩ => show win3_5.index t (0 : Fin 2) * 64 + 1 * (y 0).val = (y 0).val; omega
  | ⟨1, _⟩ => show win3_5.index t (1 : Fin 2) * 64 + 1 * (y 1).val = (y 1).val; omega

/-- The hidden layer's bias row is staged whole at every point. -/
theorem hiddenBias_whole (c : Dev nD) (t : Fin cfg3.N) : (iblk3 (F := Ideal) V c 6 t : S1x64.Idx → EReal) = (V c main_v47 : S1x64.Idx → EReal) := by
  obtain ⟨-, -, -, -, e20, e21, e30, e31, e40, e41, e50, e51, e60, e61, e70, e71, e80, e81, -⟩ := idx_facts t
  funext y
  show (V c main_v47 : S1x64.Idx → EReal) (((cfg3.win 6).blk t).view.emb y) = _
  refine congrArg (V c main_v47 : S1x64.Idx → EReal) (funext fun a => Fin.ext ?_)
  match a with
  | ⟨0, _⟩ => show win3_6.index t (0 : Fin 2) * 1 + 1 * (y 0).val = (y 0).val; omega
  | ⟨1, _⟩ => show win3_6.index t (1 : Fin 2) * 64 + 1 * (y 1).val = (y 1).val; omega

/-- The head's column is staged whole at every point. -/
theorem headWeight_whole (c : Dev nD) (t : Fin cfg3.N) : (iblk3 (F := Ideal) V c 7 t : S64x1.Idx → EReal) = (V c main_arg15 : S64x1.Idx → EReal) := by
  obtain ⟨-, -, -, -, e20, e21, e30, e31, e40, e41, e50, e51, e60, e61, e70, e71, e80, e81, -⟩ := idx_facts t
  funext y
  show (V c main_arg15 : S64x1.Idx → EReal) (((cfg3.win 7).blk t).view.emb y) = _
  refine congrArg (V c main_arg15 : S64x1.Idx → EReal) (funext fun a => Fin.ext ?_)
  match a with
  | ⟨0, _⟩ => show win3_7.index t (0 : Fin 2) * 64 + 1 * (y 0).val = (y 0).val; omega
  | ⟨1, _⟩ => show win3_7.index t (1 : Fin 2) * 1 + 1 * (y 1).val = (y 1).val; omega

/-- The head's bias is staged whole at every point. -/
theorem headBias_whole (c : Dev nD) (t : Fin cfg3.N) : (iblk3 (F := Ideal) V c 8 t : S1x1.Idx → EReal) = (V c main_v48 : S1x1.Idx → EReal) := by
  obtain ⟨-, -, -, -, e20, e21, e30, e31, e40, e41, e50, e51, e60, e61, e70, e71, e80, e81, -⟩ := idx_facts t
  funext y
  show (V c main_v48 : S1x1.Idx → EReal) (((cfg3.win 8).blk t).view.emb y) = _
  refine congrArg (V c main_v48 : S1x1.Idx → EReal) (funext fun a => Fin.ext ?_)
  match a with
  | ⟨0, _⟩ => show win3_8.index t (0 : Fin 2) * 1 + 1 * (y 0).val = (y 0).val; omega
  | ⟨1, _⟩ => show win3_8.index t (1 : Fin 2) * 1 + 1 * (y 1).val = (y 1).val; omega

/-! ## The output array -/

/-- The scores of all the variables, laid out as the output array's one column. -/
def result (c : Dev nD) : S100000x1.Idx → EReal := fun i =>
  scores (A := 100000) (V c main_v5 : S100000x64.Idx → EReal) (V c main_v45 : S100000x64.Idx → EReal)
    (V c main_v10 : S64x64.Idx → EReal) (V c main_v17 : S64x64.Idx → EReal) (V c main_v46 : S1x64.Idx → EReal)
    (V c main_arg13 : S64x64.Idx → EReal) (V c main_v47 : S1x64.Idx → EReal) (V c main_arg15 : S64x1.Idx → EReal)
    (V c main_v48 : S1x1.Idx → EReal) (i 0)

/-- The stored block, index by index, once each of its rows' scores is known to be the array's entry under it. -/
theorem block_apply (x0 x1 : Vec Ideal S4000x64 .f32) (x2 x3 : Vec Ideal S64x64 .f32) (x4 : Vec Ideal S1x64 .f32)
    (x5 : Vec Ideal S64x64 .f32) (x6 : Vec Ideal S1x64 .f32) (x7 : Vec Ideal S64x1 .f32) (x8 : Vec Ideal S1x1 .f32)
    (G : S100000x1.Idx → EReal) (e : S4000x1.Idx → S100000x1.Idx)
    (h : ∀ p : Fin 4000, scores (A := 4000) x0 x1 x2 x3 x4 x5 x6 x7 x8 p = G (e (ix2 p z1))) (j : S4000x1.Idx) :
    k3_pay1 (F := Ideal) (k3_pay2 x0 x1 x2 x3 x4 x5 x6 x7) (k3_pay3 x8) j = G (e j) := by
  obtain ⟨p, q, rfl⟩ : ∃ (p : Fin 4000) (q : Fin 1), j = ix2 p q := ⟨j 0, j 1, eq_ix2 j⟩
  obtain rfl : q = z1 := Subsingleton.elim _ _
  exact (payload_apply x0 x1 x2 x3 x4 x5 x6 x7 x8 p).trans (h p)

/-- WHAT POINT `t` WRITES BACK is block `t` of the scores. -/
theorem flushed_eq (c : Dev nD) (t : Fin cfg3.N) :
    (dat3 (F := Ideal) V c).flushed 9 t = ((cfg3.win 9).blk t).view.read (Elt Ideal) (result V c) := by
  show (cfg3.win 9).cut (grid3.coords t) ((dat3 (F := Ideal) V c).after 9 t) = _
  rw [after3_9]
  unfold out3_9
  rw [View.canon_unit_zero hz]
  simp only [View.ld_unit_zero (S := S4000x64) hz, View.ld_unit_zero (S := S64x64) hz, View.ld_unit_zero (S := S1x64) hz,
    View.ld_unit_zero (S := S64x1) hz, View.ld_unit_zero (S := S1x1) hz]
  funext j
  refine block_apply (iblk3 V c 0 t) (iblk3 V c 1 t) (iblk3 V c 2 t) (iblk3 V c 3 t) (iblk3 V c 4 t) (iblk3 V c 5 t)
    (iblk3 V c 6 t) (iblk3 V c 7 t) (iblk3 V c 8 t) (result V c) ((cfg3.win 9).blk t).view.emb (fun p => ?_) j
  rw [ownWeight_whole, receivedWeight_whole, updateBias_whole, hiddenWeight_whole, hiddenBias_whole, headWeight_whole,
    headBias_whole]
  have hN : grid3.N = 25 := N_3
  have ht : t.val < grid3.N := t.isLt
  obtain ⟨r, hr⟩ : ∃ r : Fin 100000, r.val = t.val * 4000 + p.val := ⟨⟨t.val * 4000 + p.val, by have := p.isLt; omega⟩, rfl⟩
  have e9 := (idx_facts t).2.2.2.2.2.2.2.2.2.2.2.2.2.2.2.2.2.2
  have he : ((cfg3.win 9).blk t).view.emb (ix2 p z1) = (ix2 r z1 : S100000x1.Idx) := by
    funext a
    apply Fin.ext
    match a with
    | ⟨0, _⟩ => show win3_9.index t (0 : Fin 2) * 4000 + 1 * p.val = r.val; omega
    | ⟨1, _⟩ => show win3_9.index t (1 : Fin 2) * 1 + 1 * 0 = 0; omega
  refine (?_ : _ = result V c (ix2 r z1)).trans (congrArg (result V c) he.symm)
  exact scores_congr _ _ _ _ _ _ _ _ _ _ _ p r (fun k => own_rows V c t p k r hr) (fun k => received_rows V c t p k r hr)

/-! ## The blocks cover the array -/

/-- An index of the array is in point `t`'s block iff each coordinate is in the block's range on its axis. -/
theorem mem_blk (t : Fin cfg3.N) (i : S100000x1.Idx) :
    i ∈ ((cfg3.win 9).blk t).view.set ↔ ∀ a : Fin 2, win3_9.index t a * S4000x1.size a ≤ (i a).val ∧ (i a).val < win3_9.index t a * S4000x1.size a + S4000x1.size a := by
  show i ∈ ((View.whole main_v49).slice (win3_9.rect t)).set ↔ _
  rw [View.set_slice_whole, Rect.mem_set_unit]
  exact Iff.rfl

/-- Row `r` of the array is in the block of point `r / 4000`. -/
theorem cover (i : S100000x1.Idx) :
    ∃ t : Fin cfg3.N, (cfg3.win 9).flush t = true ∧ i ∈ ((cfg3.win 9).blk t).view.set := by
  have hN : grid3.N = 25 := N_3
  have hi0 : (i 0).val < 100000 := (i 0).isLt
  have hi1 : (i 1).val < 1 := (i 1).isLt
  obtain ⟨t, ht⟩ : ∃ t : Fin cfg3.N, t.val = (i 0).val / 4000 := ⟨⟨(i 0).val / 4000, by show _ < grid3.N; omega⟩, rfl⟩
  have e9 := (idx_facts t).2.2.2.2.2.2.2.2.2.2.2.2.2.2.2.2.2.2
  refine ⟨t, flush3_9 t, ?_⟩
  rw [mem_blk]
  intro a
  match a with
  | ⟨0, _⟩ => show win3_9.index t (0 : Fin 2) * 4000 ≤ (i 0).val ∧ (i 0).val < win3_9.index t (0 : Fin 2) * 4000 + 4000; omega
  | ⟨1, _⟩ => show win3_9.index t (1 : Fin 2) * 1 ≤ (i 1).val ∧ (i 1).val < win3_9.index t (1 : Fin 2) * 1 + 1; omega

/-- THE OUTPUT ARRAY after all the grid points is the scores of all the variables. -/
theorem array_eq (c : Dev nD) : (dat3 (F := Ideal) V c).arrAt 9 cfg3.N = result V c :=
  (dat3 (F := Ideal) V c).arrAt_eq_of_cover 9 (result V c) (fun t _ => flushed_eq V c t) cover

end Blocks

end Cert.KernelIdeal.Region3

open Idealize.ShloMosaic Idealize.ShloMosaic.ValueIdx Idealize.ShloMosaic.TcCoe Idealize.SL.Sem Cert.KernelIdeal Cert.KernelIdeal.Gen in
/-- THE REGION'S VALUE: after all the grid points, entry `p` of the output array is the head's score of variable `p`,
    read through the hidden layer off the update of the variable's own embedding and the sum it received. -/
theorem Cert.KernelIdeal.Region3.value
    (V : (c : Dev nD) → (b : Ref sig .tc) → Buf (Elt Ideal) ((c : Thread nD τ).loc b)) (c : Dev nD) (p : Fin 100000) :
    ((dat3 (F := Ideal) V c).arrAt 9 cfg3.N : S100000x1.Idx → EReal) (ix2 p (⟨0, Nat.one_pos⟩ : Fin 1))
      = Cert.Model.head
          (Cert.Model.dense
            (Cert.Model.dense2 (Cert.View.cur2 (V c main_v5 : S100000x64.Idx → EReal)) (Cert.View.cur2 (V c main_v45 : S100000x64.Idx → EReal))
              (Cert.View.cur2 (V c main_v10 : S64x64.Idx → EReal)) (Cert.View.cur2 (V c main_v17 : S64x64.Idx → EReal))
              (fun j : Fin 64 => (V c main_v46 : S1x64.Idx → EReal) (ix2 (⟨0, Nat.one_pos⟩ : Fin 1) j)))
            (Cert.View.cur2 (V c main_arg13 : S64x64.Idx → EReal))
            (fun j : Fin 64 => (V c main_v47 : S1x64.Idx → EReal) (ix2 (⟨0, Nat.one_pos⟩ : Fin 1) j)))
          (Cert.View.cur2 (V c main_arg15 : S64x1.Idx → EReal))
          (fun j : Fin 1 => (V c main_v48 : S1x1.Idx → EReal) (ix2 (⟨0, Nat.one_pos⟩ : Fin 1) j)) p :=
  congrFun (Cert.KernelIdeal.Region3.array_eq V c) (ix2 p (⟨0, Nat.one_pos⟩ : Fin 1))

end
-- ==== Proof.FoldValue.lean ====
/-
  The idealized kernel program's result as the model's function of the argument arrays. Each array a region reads
  is identified, at an index, with a piece of the model: the embeddings a dense layer of the arguments, the received
  sums a segment sum of gathered rows scaled by the edge attribute, the update weights the upper half of the update
  matrix and its lower half with row k scaled by the edge weight of column k, the biases the bias vectors laid out
  as one row. Region by region these pieces compose to the model's scores.
-/
import proofs.«105270_j8598524526745_2_alg».proof.Proof.Fold
import proofs.«105270_j8598524526745_2_alg».proof.Proof.Regions01
import proofs.«105270_j8598524526745_2_alg».proof.Proof.Region2
import proofs.«105270_j8598524526745_2_alg».proof.Proof.Region3

set_option maxRecDepth 16384

noncomputable section

namespace Cert.KernelIdeal.FoldValue

open Cert.KernelIdeal Cert.KernelIdeal.Gen Cert.KernelIdeal.Fold Cert.View
open Idealize.ShloMosaic Idealize.ShloMosaic.TcCoe Idealize.ShloMosaic.ValueIdx Idealize.SL.Sem

/-! ## Layout operations and the gather and scatter-add, read at an index -/

/-- A bias vector reshaped to one row reads the vector at the column. -/
theorem row_bias (x : FVec Ideal S64 .f32) (j : Fin 64) :
    (shapeCast S1x64 x shapeCasts_S64_S1x64 : FVec Ideal S1x64 .f32) (ix2 (⟨0, Nat.one_pos⟩ : Fin 1) j) = cur1 x j :=
  Cert.LibTake.castRow_apply shapeCasts_S64_S1x64 x ⟨0, Nat.one_pos⟩ j

theorem one_bias (x : FVec Ideal S1 .f32) (j : Fin 1) :
    (shapeCast S1x1 x shapeCasts_S1_S1x1 : FVec Ideal S1x1 .f32) (ix2 (⟨0, Nat.one_pos⟩ : Fin 1) j) = cur1 x j :=
  Cert.LibTake.castRow_apply shapeCasts_S1_S1x1 x ⟨0, Nat.one_pos⟩ j

/-- The upper 64 rows of an update matrix. -/
theorem top_rows (w : FVec Ideal S128x64 .f32) (k n : Fin 64) :
    (extractStridedSlice S64x64 ![0, 0] w slices_S128x64_S64x64_0_0 : FVec Ideal S64x64 .f32) (ix2 k n) = Cert.Model.top (cur2 w) k n := by
  rw [Cert.LibJoinedAxis.slice_rows 0 w slices_S128x64_S64x64_0_0 (by omega), Cert.LibJoinedAxis.rowsAt_apply]
  exact congrArg (fun r => w (ix2 r n)) (Fin.ext (Nat.zero_add _))

/-- The lower 64 rows of an update matrix, row k scaled by entry k of the edge weight. -/
theorem bot_rows_scaled (w : FVec Ideal S128x64 .f32) (e : FVec Ideal S64 .f32) (k n : Fin 64) :
    (mulf (extractStridedSlice S64x64 ![64, 0] w slices_S128x64_S64x64_64_0)
      (broadcastInDim S64x64 ![0, 1] bcast_S64x1_S64x64_0_1 (broadcastInDim S64x1 ![0] bcast_S64_S64x1_0 e)) : FVec Ideal S64x64 .f32) (ix2 k n)
      = Cert.Model.scaled (cur1 e) (cur2 w) k n := by
  show (extractStridedSlice S64x64 ![64, 0] w slices_S128x64_S64x64_64_0 : FVec Ideal S64x64 .f32) (ix2 k n)
      * (broadcastInDim S64x64 ![0, 1] bcast_S64x1_S64x64_0_1 (broadcastInDim S64x1 ![0] bcast_S64_S64x1_0 e) : FVec Ideal S64x64 .f32) (ix2 k n) = _
  rw [Cert.LibJoinedAxis.slice_rows 64 w slices_S128x64_S64x64_64_0 (by omega), Cert.LibJoinedAxis.rowsAt_apply,
    Cert.LibTake.bcastAcross_apply, Cert.LibTake.bcastCol_apply]
  rfl

/-- The edge attribute carried to every column of an edge's row. -/
theorem edge_attr (a : FVec Ideal S1250000 .f32) (e : Fin 1250000) (q : Fin 64) :
    (broadcastInDim S1250000x64 ![0, 1] bcast_S1250000x1_S1250000x64_0_1 (broadcastInDim S1250000x1 ![0] bcast_S1250000_S1250000x1_0 a) : FVec Ideal S1250000x64 .f32) (ix2 e q)
      = cur1 a e := by
  rw [Cert.LibTake.bcastAcross_apply, Cert.LibTake.bcastCol_apply]
  rfl

/-- A gathered row is the row the edge's index word names. -/
theorem take_var (x : FVec Ideal S100000x64 .f32) (J : IVec S1250000x1 32) (e : Fin 1250000) (q : Fin 64) :
    Host.gather gather_S100000x64_S1250000x1_S1250000x64_1_0_n_n_0_1_164 x J (ix2 e q) = x (ix2 (rowOf 100000 (by decide) J e) q) :=
  Cert.LibTake.rowTake_apply (by decide) gather_S100000x64_S1250000x1_S1250000x64_1_0_n_n_0_1_164_wf x J (ix2 e q)

theorem take_con (x : FVec Ideal S50000x64 .f32) (J : IVec S1250000x1 32) (e : Fin 1250000) (q : Fin 64) :
    Host.gather gather_S50000x64_S1250000x1_S1250000x64_1_0_n_n_0_1_164 x J (ix2 e q) = x (ix2 (rowOf 50000 (by decide) J e) q) :=
  Cert.LibTake.rowTake_apply (by decide) gather_S50000x64_S1250000x1_S1250000x64_1_0_n_n_0_1_164_wf x J (ix2 e q)

/-- A scatter-add of rows into zeros is the segment sum of the update rows, for any extents. -/
theorem seg_rows {N C E : Nat} (wf : ScatterDims.WF (⟨2, ![N, C]⟩ : Shape) ⟨2, ![E, 1]⟩ ⟨2, ![E, C]⟩ [1] [0] [0] 1)
    (hb : (⟨0, ![]⟩ : Shape).BroadcastsInDim ⟨2, ![N, C]⟩ ![])
    (I : IVec ⟨2, ![E, 1]⟩ 32) (u : FVec Ideal ⟨2, ![E, C]⟩ .f32) (j : Fin N) (q : Fin C) :
    (Host.scatterAdd (Cert.LibRowScatter.rowScatter N C E wf)
      (broadcastInDim ⟨2, ![N, C]⟩ ![] hb (constant (F := Ideal) ⟨0, ![]⟩ .f32 0x00000000#32)) I u : FVec Ideal ⟨2, ![N, C]⟩ .f32) (ix2 j q)
      = Cert.Model.segsum (landOf N I) (cur2 u) j q := by
  unfold Cert.Model.segsum Cert.View.landOf Cert.View.cur2 Host.scatterAdd
  refine (Cert.LibRowScatter.rowScatter_apply wf _ I u j q).trans ?_
  refine congrArg (· + _) ?_
  show Ideal.ofBits .f32 0x00000000#32 = 0
  exact Ideal.ofBits_zero_f32

theorem seg_con (I : IVec S1250000x1 32) (u : FVec Ideal S1250000x64 .f32) (j : Fin 50000) (q : Fin 64) :
    (Host.scatterAdd scatter_S50000x64_S1250000x1_S1250000x64_1_0_0_1
      (broadcastInDim S50000x64 ![] bcast_S_S50000x64 (constant S_ .f32 0x00000000#32)) I u : FVec Ideal S50000x64 .f32) (ix2 j q)
      = Cert.Model.segsum (landOf 50000 I) (cur2 u) j q :=
  seg_rows scatter_S50000x64_S1250000x1_S1250000x64_1_0_0_1_wf bcast_S_S50000x64 I u j q

theorem seg_var (I : IVec S1250000x1 32) (u : FVec Ideal S1250000x64 .f32) (j : Fin 100000) (q : Fin 64) :
    (Host.scatterAdd scatter_S100000x64_S1250000x1_S1250000x64_1_0_0_1
      (broadcastInDim S100000x64 ![] bcast_S_S100000x64 (constant S_ .f32 0x00000000#32)) I u : FVec Ideal S100000x64 .f32) (ix2 j q)
      = Cert.Model.segsum (landOf 100000 I) (cur2 u) j q :=
  seg_rows scatter_S100000x64_S1250000x1_S1250000x64_1_0_0_1_wf bcast_S_S100000x64 I u j q

/-! ## The argument arrays as launched, and the edge maps -/

variable (m : (ℓ : Loc nD τ sig) → Buf (Elt Ideal) ℓ) (ρ : Dev nD → PrngReg) (c : Dev nD)

abbrev a0 : FVec Ideal S100000x19 .f32 := m ((c : Thread nD τ).loc main_arg0)
abbrev a1 : FVec Ideal S50000x5 .f32 := m ((c : Thread nD τ).loc main_arg1)
abbrev a2 : IVec S2x1250000 32 := m ((c : Thread nD τ).loc main_arg2)
abbrev a3 : FVec Ideal S1250000 .f32 := m ((c : Thread nD τ).loc main_arg3)
abbrev a4 : FVec Ideal S19x64 .f32 := m ((c : Thread nD τ).loc main_arg4)
abbrev a5 : FVec Ideal S64 .f32 := m ((c : Thread nD τ).loc main_arg5)
abbrev a6 : FVec Ideal S5x64 .f32 := m ((c : Thread nD τ).loc main_arg6)
abbrev a7 : FVec Ideal S64 .f32 := m ((c : Thread nD τ).loc main_arg7)
abbrev a8 : FVec Ideal S64 .f32 := m ((c : Thread nD τ).loc main_arg8)
abbrev a9 : FVec Ideal S128x64 .f32 := m ((c : Thread nD τ).loc main_arg9)
abbrev a10 : FVec Ideal S64 .f32 := m ((c : Thread nD τ).loc main_arg10)
abbrev a11 : FVec Ideal S128x64 .f32 := m ((c : Thread nD τ).loc main_arg11)
abbrev a12 : FVec Ideal S64 .f32 := m ((c : Thread nD τ).loc main_arg12)
abbrev a13 : FVec Ideal S64x64 .f32 := m ((c : Thread nD τ).loc main_arg13)
abbrev a14 : FVec Ideal S64 .f32 := m ((c : Thread nD τ).loc main_arg14)
abbrev a15 : FVec Ideal S64x1 .f32 := m ((c : Thread nD τ).loc main_arg15)
abbrev a16 : FVec Ideal S1 .f32 := m ((c : Thread nD τ).loc main_arg16)

/-- The variable row each edge reads, the constraint row each edge reads, and where each edge's message lands. -/
abbrev gv : Fin 1250000 → Fin 100000 := rowOf 100000 (by decide) (varRead (a2 m c))
abbrev gc : Fin 1250000 → Fin 50000 := rowOf 50000 (by decide) (conRead (a2 m c))
abbrev lc : Fin 1250000 → Option (Fin 50000) := landOf 50000 (conLand (a2 m c))
abbrev lv : Fin 1250000 → Option (Fin 100000) := landOf 100000 (varLand (a2 m c))

/-! ## Region by region -/

/-- The variable embeddings, as the first region leaves them. -/
theorem varEmb_at (p : Fin 100000) (q : Fin 64) :
    (W2 m ρ c (Proc.devRef .tc main_v5) : FVec Ideal S100000x64 .f32) (ix2 p q)
      = Cert.Model.varEmb (cur2 (a0 m c)) (cur2 (a4 m c)) (cur1 (a5 m c)) p q := by
  have hb : (fun j : Fin 64 => (V1 m ρ c main_v4 : S1x64.Idx → EReal) (ix2 (⟨0, Nat.one_pos⟩ : Fin 1) j)) = cur1 (a5 m c) :=
    funext fun j => (congrFun (w1_v4 m ρ c) _).trans (row_bias _ j)
  have h0 : cur2 (V1 m ρ c main_arg0 : S100000x19.Idx → EReal) = cur2 (a0 m c) := congrArg cur2 (keep_arg0_0_1 m ρ c)
  have h4 : cur2 (V1 m ρ c main_arg4 : S19x64.Idx → EReal) = cur2 (a4 m c) := congrArg cur2 (keep_arg4_0_1 m ρ c)
  refine (congrFun (W2_arr m ρ c 3) (ix2 p q)).trans ((Cert.KernelIdeal.Region0.value (V1 m ρ) c p q).trans ?_)
  rw [h0, h4, hb]
  rfl

/-- The constraint embeddings, as the second region leaves them. -/
theorem conEmb_at (p : Fin 50000) (q : Fin 64) :
    (W4 m ρ c (Proc.devRef .tc main_v7) : FVec Ideal S50000x64 .f32) (ix2 p q)
      = Cert.Model.conEmb (cur2 (a1 m c)) (cur2 (a6 m c)) (cur1 (a7 m c)) p q := by
  have hb : (fun j : Fin 64 => (V3 m ρ c main_v6 : S1x64.Idx → EReal) (ix2 (⟨0, Nat.one_pos⟩ : Fin 1) j)) = cur1 (a7 m c) :=
    funext fun j => (congrFun (w3_v6 m ρ c) _).trans
      ((congrArg (fun x : FVec Ideal S64 .f32 => (shapeCast S1x64 x shapeCasts_S64_S1x64 : FVec Ideal S1x64 .f32) (ix2 (⟨0, Nat.one_pos⟩ : Fin 1) j)) (keep_arg7_0_2 m ρ c)).trans (row_bias _ j))
  have h1 : cur2 (V3 m ρ c main_arg1 : S50000x5.Idx → EReal) = cur2 (a1 m c) := congrArg cur2 (keep_arg1_0_3 m ρ c)
  have h6 : cur2 (V3 m ρ c main_arg6 : S5x64.Idx → EReal) = cur2 (a6 m c) := congrArg cur2 (keep_arg6_0_3 m ρ c)
  refine (congrFun (W4_arr m ρ c 3) (ix2 p q)).trans ((Cert.KernelIdeal.Region1.value (V3 m ρ) c p q).trans ?_)
  rw [h1, h6, hb]
  rfl

/-- What each constraint receives: the gathered variable rows, scaled by the edge attribute, summed per constraint. -/
theorem conAgg_at (j : Fin 50000) (q : Fin 64) :
    (W5 m ρ c (Proc.devRef .tc main_v30) : FVec Ideal S50000x64 .f32) (ix2 j q)
      = Cert.Model.kConAgg (cur2 (a0 m c)) (gv m c) (lc m c) (cur1 (a3 m c)) (cur2 (a4 m c)) (cur1 (a5 m c)) j q := by
  refine (congrFun (w5_v30 m ρ c) (ix2 j q)).trans ?_
  rw [keep_v1_1_4 m ρ c, w1_v1 m ρ c, keep_v3_1_4 m ρ c, w1_v3 m ρ c, keep_arg3_0_4 m ρ c, keep_v5_2_4 m ρ c]
  refine (seg_con _ _ j q).trans ?_
  refine congrArg (fun u => Cert.Model.segsum (lc m c) u j q) (funext fun e => funext fun k => ?_)
  show (Host.gather gather_S100000x64_S1250000x1_S1250000x64_1_0_n_n_0_1_164 (W2 m ρ c (Proc.devRef .tc main_v5) : FVec Ideal S100000x64 .f32) (varRead (a2 m c)) : FVec Ideal S1250000x64 .f32) (ix2 e k)
      * (broadcastInDim S1250000x64 ![0, 1] bcast_S1250000x1_S1250000x64_0_1 (broadcastInDim S1250000x1 ![0] bcast_S1250000_S1250000x1_0 (a3 m c)) : FVec Ideal S1250000x64 .f32) (ix2 e k) = _
  rw [take_var, edge_attr, varEmb_at m ρ c]

/-- The updated constraint embeddings, as the third region leaves them. -/
theorem conEmb2_at (p : Fin 50000) (q : Fin 64) :
    (W6 m ρ c (Proc.devRef .tc main_v32) : FVec Ideal S50000x64 .f32) (ix2 p q)
      = Cert.Model.kConEmb2 (cur2 (a0 m c)) (cur2 (a1 m c)) (gv m c) (lc m c) (cur1 (a3 m c)) (cur2 (a4 m c)) (cur1 (a5 m c)) (cur2 (a6 m c)) (cur1 (a7 m c)) (cur1 (a8 m c)) (cur2 (a9 m c)) (cur1 (a10 m c)) p q := by
  have h7 : cur2 (V5 m ρ c main_v7 : S50000x64.Idx → EReal) = Cert.Model.conEmb (cur2 (a1 m c)) (cur2 (a6 m c)) (cur1 (a7 m c)) :=
    funext fun p => funext fun q => (congrFun (keep_v7_4_5 m ρ c) (ix2 p q)).trans (conEmb_at m ρ c p q)
  have h30 : cur2 (V5 m ρ c main_v30 : S50000x64.Idx → EReal) = Cert.Model.kConAgg (cur2 (a0 m c)) (gv m c) (lc m c) (cur1 (a3 m c)) (cur2 (a4 m c)) (cur1 (a5 m c)) :=
    funext fun p => funext fun q => conAgg_at m ρ c p q
  have h8 : cur2 (V5 m ρ c main_v8 : S64x64.Idx → EReal) = Cert.Model.top (cur2 (a9 m c)) :=
    funext fun k => funext fun n => (congrFun (w5_v8 m ρ c) (ix2 k n)).trans
      ((congrArg (fun x : FVec Ideal S128x64 .f32 => (extractStridedSlice S64x64 ![0, 0] x slices_S128x64_S64x64_0_0 : FVec Ideal S64x64 .f32) (ix2 k n)) (keep_arg9_0_4 m ρ c)).trans (top_rows _ k n))
  have h14 : cur2 (V5 m ρ c main_v14 : S64x64.Idx → EReal) = Cert.Model.scaled (cur1 (a8 m c)) (cur2 (a9 m c)) :=
    funext fun k => funext fun n => (congrFun (w5_v14 m ρ c) (ix2 k n)).trans (by
      rw [keep_arg9_0_4 m ρ c, keep_arg8_0_4 m ρ c]; exact bot_rows_scaled _ _ k n)
  have hb : (fun j : Fin 64 => (V5 m ρ c main_v31 : S1x64.Idx → EReal) (ix2 (⟨0, Nat.one_pos⟩ : Fin 1) j)) = cur1 (a10 m c) :=
    funext fun j => (congrFun (w5_v31 m ρ c) _).trans
      ((congrArg (fun x : FVec Ideal S64 .f32 => (shapeCast S1x64 x shapeCasts_S64_S1x64 : FVec Ideal S1x64 .f32) (ix2 (⟨0, Nat.one_pos⟩ : Fin 1) j)) (keep_arg10_0_4 m ρ c)).trans (row_bias _ j))
  refine (congrFun (W6_arr m ρ c 5) (ix2 p q)).trans ((Cert.KernelIdeal.Region2.value (V5 m ρ) c p q).trans ?_)
  rw [h7, h30, h8, h14, hb]
  rfl

/-- What each variable receives: the gathered constraint rows, scaled by the edge attribute, summed per variable. -/
theorem varAgg_at (j : Fin 100000) (q : Fin 64) :
    (W7 m ρ c (Proc.devRef .tc main_v45) : FVec Ideal S100000x64 .f32) (ix2 j q)
      = Cert.Model.kVarAgg (cur2 (a0 m c)) (cur2 (a1 m c)) (gv m c) (gc m c) (lc m c) (lv m c) (cur1 (a3 m c)) (cur2 (a4 m c)) (cur1 (a5 m c)) (cur2 (a6 m c)) (cur1 (a7 m c)) (cur1 (a8 m c)) (cur2 (a9 m c)) (cur1 (a10 m c)) j q := by
  refine (congrFun (w7_v45 m ρ c) (ix2 j q)).trans ?_
  rw [keep_v3_1_6 m ρ c, w1_v3 m ρ c, keep_v1_1_6 m ρ c, w1_v1 m ρ c, keep_arg3_0_6 m ρ c]
  refine (seg_var _ _ j q).trans ?_
  refine congrArg (fun u => Cert.Model.segsum (lv m c) u j q) (funext fun e => funext fun k => ?_)
  show (Host.gather gather_S50000x64_S1250000x1_S1250000x64_1_0_n_n_0_1_164 (W6 m ρ c (Proc.devRef .tc main_v32) : FVec Ideal S50000x64 .f32) (conRead (a2 m c)) : FVec Ideal S1250000x64 .f32) (ix2 e k)
      * (broadcastInDim S1250000x64 ![0, 1] bcast_S1250000x1_S1250000x64_0_1 (broadcastInDim S1250000x1 ![0] bcast_S1250000_S1250000x1_0 (a3 m c)) : FVec Ideal S1250000x64 .f32) (ix2 e k) = _
  rw [take_con, edge_attr, conEmb2_at m ρ c]

/-- A matrix of one column recast as a vector reads the column. -/
theorem uncolumn (x : FVec Ideal S100000x1 .f32) (p : Fin 100000) :
    (shapeCast S100000 x shapeCasts_S100000x1_S100000 : FVec Ideal S100000 .f32) (ix1 p) = x (ix2 p (⟨0, Nat.one_pos⟩ : Fin 1)) := by
  refine shapeCast_apply x shapeCasts_S100000x1_S100000 (ix1 p) (ix2 p (⟨0, Nat.one_pos⟩ : Fin 1)) ?_
  rw [Shape.rowMajor_val_two, Shape.rowMajor_val_one]
  show p.val * 1 + 0 = p.val
  omega

/-- The scores, as the fourth region and the final reshape leave them. -/
theorem scores_at (p : Fin 100000) :
    (W9 m ρ c (Proc.devRef .tc main_v50) : FVec Ideal S100000 .f32) (ix1 p)
      = Cert.Model.kOut (cur2 (a0 m c)) (cur2 (a1 m c)) (gv m c) (gc m c) (lc m c) (lv m c) (cur1 (a3 m c)) (cur2 (a4 m c)) (cur1 (a5 m c)) (cur2 (a6 m c)) (cur1 (a7 m c)) (cur1 (a8 m c)) (cur2 (a9 m c)) (cur1 (a10 m c)) (cur2 (a11 m c)) (cur1 (a12 m c)) (cur2 (a13 m c)) (cur1 (a14 m c)) (cur2 (a15 m c)) (cur1 (a16 m c)) p := by
  have h5 : cur2 (V7 m ρ c main_v5 : S100000x64.Idx → EReal) = Cert.Model.varEmb (cur2 (a0 m c)) (cur2 (a4 m c)) (cur1 (a5 m c)) :=
    funext fun p => funext fun q => (congrFun (keep_v5_2_7 m ρ c) (ix2 p q)).trans (varEmb_at m ρ c p q)
  have h45 : cur2 (V7 m ρ c main_v45 : S100000x64.Idx → EReal) = Cert.Model.kVarAgg (cur2 (a0 m c)) (cur2 (a1 m c)) (gv m c) (gc m c) (lc m c) (lv m c) (cur1 (a3 m c)) (cur2 (a4 m c)) (cur1 (a5 m c)) (cur2 (a6 m c)) (cur1 (a7 m c)) (cur1 (a8 m c)) (cur2 (a9 m c)) (cur1 (a10 m c)) :=
    funext fun p => funext fun q => varAgg_at m ρ c p q
  have h10 : cur2 (V7 m ρ c main_v10 : S64x64.Idx → EReal) = Cert.Model.top (cur2 (a11 m c)) :=
    funext fun k => funext fun n => (congrFun ((keep_v10_5_7 m ρ c).trans (w5_v10 m ρ c)) (ix2 k n)).trans
      ((congrArg (fun x : FVec Ideal S128x64 .f32 => (extractStridedSlice S64x64 ![0, 0] x slices_S128x64_S64x64_0_0 : FVec Ideal S64x64 .f32) (ix2 k n)) (keep_arg11_0_4 m ρ c)).trans (top_rows _ k n))
  have h17 : cur2 (V7 m ρ c main_v17 : S64x64.Idx → EReal) = Cert.Model.scaled (cur1 (a8 m c)) (cur2 (a11 m c)) :=
    funext fun k => funext fun n => (congrFun ((keep_v17_5_7 m ρ c).trans (w5_v17 m ρ c)) (ix2 k n)).trans (by
      rw [keep_arg11_0_4 m ρ c, keep_arg8_0_4 m ρ c]; exact bot_rows_scaled _ _ k n)
  have hb46 : (fun j : Fin 64 => (V7 m ρ c main_v46 : S1x64.Idx → EReal) (ix2 (⟨0, Nat.one_pos⟩ : Fin 1) j)) = cur1 (a12 m c) :=
    funext fun j => (congrFun (w7_v46 m ρ c) _).trans
      ((congrArg (fun x : FVec Ideal S64 .f32 => (shapeCast S1x64 x shapeCasts_S64_S1x64 : FVec Ideal S1x64 .f32) (ix2 (⟨0, Nat.one_pos⟩ : Fin 1) j)) (keep_arg12_0_6 m ρ c)).trans (row_bias _ j))
  have hb47 : (fun j : Fin 64 => (V7 m ρ c main_v47 : S1x64.Idx → EReal) (ix2 (⟨0, Nat.one_pos⟩ : Fin 1) j)) = cur1 (a14 m c) :=
    funext fun j => (congrFun (w7_v47 m ρ c) _).trans
      ((congrArg (fun x : FVec Ideal S64 .f32 => (shapeCast S1x64 x shapeCasts_S64_S1x64 : FVec Ideal S1x64 .f32) (ix2 (⟨0, Nat.one_pos⟩ : Fin 1) j)) (keep_arg14_0_6 m ρ c)).trans (row_bias _ j))
  have hb48 : (fun j : Fin 1 => (V7 m ρ c main_v48 : S1x1.Idx → EReal) (ix2 (⟨0, Nat.one_pos⟩ : Fin 1) j)) = cur1 (a16 m c) :=
    funext fun j => (congrFun (w7_v48 m ρ c) _).trans
      ((congrArg (fun x : FVec Ideal S1 .f32 => (shapeCast S1x1 x shapeCasts_S1_S1x1 : FVec Ideal S1x1 .f32) (ix2 (⟨0, Nat.one_pos⟩ : Fin 1) j)) (keep_arg16_0_6 m ρ c)).trans (one_bias _ j))
  have h13 : cur2 (V7 m ρ c main_arg13 : S64x64.Idx → EReal) = cur2 (a13 m c) := congrArg cur2 (keep_arg13_0_7 m ρ c)
  have h15 : cur2 (V7 m ρ c main_arg15 : S64x1.Idx → EReal) = cur2 (a15 m c) := congrArg cur2 (keep_arg15_0_7 m ρ c)
  refine (congrFun (w9_v50 m ρ c) (ix1 p)).trans ((uncolumn _ p).trans ?_)
  refine (congrFun (W8_arr m ρ c 9) (ix2 p (⟨0, Nat.one_pos⟩ : Fin 1))).trans ((Cert.KernelIdeal.Region3.value (V7 m ρ) c p).trans ?_)
  rw [h5, h45, h10, h17, hb46, h13, hb47, h15, hb48]
  rfl

end Cert.KernelIdeal.FoldValue

end
-- ==== Proof.RefValue.lean ====
/-
  The reference program's value. Its result at a variable is the score that the bipartite network computes when the
  per-column edge weight scales every message before the sum. Each operation of the program is read at an index and
  identified with the piece of the model it computes: the five dense layers, the two products of the edge attribute
  with the edge weight, the two row gathers, the two row scatter-adds, the two side-by-side joins and the score head.
-/
import proofs.«105270_j8598524526745_2_alg».proof.Proof.Gen.ReferenceIdeal.Read
import proofs.«105270_j8598524526745_2_alg».proof.Proof.Model
import proofs.«105270_j8598524526745_2_alg».proof.Proof.View
import proofs.«105270_j8598524526745_2_alg».proof.Proof.LibMatmul
import proofs.«105270_j8598524526745_2_alg».proof.Proof.LibTake
import proofs.«105270_j8598524526745_2_alg».proof.Proof.LibRowScatter
import Idealize.ShloMosaic.Lib.Pipeline.Value
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.Gen Cert.ReferenceIdeal.Read Cert.View

/-! ## Operations read at an index, for arbitrary extents -/

/-- The zero word carried to every position is zero. -/
theorem zeros_apply {t : Shape} (h0 : (⟨0, ![]⟩ : Shape).BroadcastsInDim t ![]) (j : t.Idx) :
    broadcastInDim t ![] h0 (constant (F := Ideal) ⟨0, ![]⟩ .f32 0x00000000#32) j = (0 : EReal) :=
  (broadcastInDim_apply _ h0 _ j (fun a => a.elim0) (fun a => a.elim0)).trans Ideal.ofBits_zero_f32

/-- A dense layer: the matrix product, plus the bias carried down the rows, floored at zero. -/
theorem dense_fn {A K B : Nat} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (h1 : (⟨1, ![B]⟩ : Shape).BroadcastsInDim ⟨2, ![1, B]⟩ ![1])
    (h2 : (⟨2, ![1, B]⟩ : Shape).BroadcastsInDim ⟨2, ![A, B]⟩ ![0, 1])
    (h0 : (⟨0, ![]⟩ : Shape).BroadcastsInDim ⟨2, ![A, B]⟩ ![])
    (x : FVec Ideal ⟨2, ![A, K]⟩ .f32) (w : FVec Ideal ⟨2, ![K, B]⟩ .f32) (b : FVec Ideal ⟨1, ![B]⟩ .f32) :
    cur2 (maximumf (addf (Host.dotGeneral d none x w)
        (broadcastInDim ⟨2, ![A, B]⟩ ![0, 1] h2 (broadcastInDim ⟨2, ![1, B]⟩ ![1] h1 b)))
      (broadcastInDim ⟨2, ![A, B]⟩ ![] h0 (constant (F := Ideal) ⟨0, ![]⟩ .f32 0x00000000#32)))
      = Cert.Model.dense (cur2 x) (cur2 w) (cur1 b) := by
  funext p q
  refine congrArg₂ max (congrArg₂ (· + ·) ?_ ?_) ?_
  · exact (congrFun (Cert.LibMatmul.dotGeneral_eq d hlb hln hlc hrb hrn hrc none .single x w) (ix2 p q)).trans
      (Cert.LibMatmul.MM_apply x w p q)
  · exact (Cert.LibTake.bcastDown_apply h2 _ p q).trans (Cert.LibTake.bcastRow_apply h1 b _ q)
  · exact zeros_apply h0 _

/-- A matrix of one column recast as a vector reads the matrix at the row. -/
theorem uncol_apply {N : Nat} (h : (⟨2, ![N, 1]⟩ : Shape).ShapeCasts ⟨1, ![N]⟩)
    (x : (⟨2, ![N, 1]⟩ : Shape).Idx → EReal) (v : Fin N) :
    shapeCast ⟨1, ![N]⟩ x h (ix1 v) = x (ix2 v (⟨0, Nat.one_pos⟩ : Fin 1)) := by
  refine shapeCast_apply x h (ix1 v) (ix2 v (⟨0, Nat.one_pos⟩ : Fin 1)) ?_
  rw [Shape.rowMajor_val_two, Shape.rowMajor_val_one]
  show v.val * 1 + 0 = v.val
  omega

/-- The score head: the product with the one column, plus the bias, recast as a vector. -/
theorem head_apply {A K : Nat} (d : DotDims ⟨2, ![A, K]⟩ ⟨2, ![K, 1]⟩ ⟨2, ![A, 1]⟩)
    (hlb : d.lhsBatch = []) (hln : d.lhsNonContracting = [0]) (hlc : d.lhsContracting = [1])
    (hrb : d.rhsBatch = []) (hrn : d.rhsNonContracting = [1]) (hrc : d.rhsContracting = [0])
    (h1 : (⟨1, ![1]⟩ : Shape).BroadcastsInDim ⟨2, ![1, 1]⟩ ![1])
    (h2 : (⟨2, ![1, 1]⟩ : Shape).BroadcastsInDim ⟨2, ![A, 1]⟩ ![0, 1])
    (hc : (⟨2, ![A, 1]⟩ : Shape).ShapeCasts ⟨1, ![A]⟩)
    (x : FVec Ideal ⟨2, ![A, K]⟩ .f32) (w : FVec Ideal ⟨2, ![K, 1]⟩ .f32) (b : FVec Ideal ⟨1, ![1]⟩ .f32) (v : Fin A) :
    shapeCast ⟨1, ![A]⟩ (addf (Host.dotGeneral d none x w)
        (broadcastInDim ⟨2, ![A, 1]⟩ ![0, 1] h2 (broadcastInDim ⟨2, ![1, 1]⟩ ![1] h1 b))) hc (ix1 v)
      = Cert.Model.head (cur2 x) (cur2 w) (cur1 b) v := by
  refine (uncol_apply hc _ v).trans ?_
  refine congrArg₂ (· + ·) ?_ ?_
  · exact (congrFun (Cert.LibMatmul.dotGeneral_eq d hlb hln hlc hrb hrn hrc none .single x w) (ix2 v _)).trans
      (Cert.LibMatmul.MM_apply x w v _)
  · exact (Cert.LibTake.bcastDown_apply h2 _ v _).trans (Cert.LibTake.bcastRow_apply h1 b _ _)

/-- Two matrices of 64 columns joined along the columns, read at a row and a column of the 128. -/
theorem cat_fn {A : Nat}
    (h : Shape.Concatenates [(⟨2, ![A, 64]⟩ : Shape), (⟨2, ![A, 64]⟩ : Shape)] (⟨2, ![A, 128]⟩ : Shape) 1)
    (x y : (⟨2, ![A, 64]⟩ : Shape).Idx → EReal) :
    cur2 (concatenate (⟨2, ![A, 128]⟩ : Shape) 1 [⟨(⟨2, ![A, 64]⟩ : Shape), x⟩, ⟨(⟨2, ![A, 64]⟩ : Shape), y⟩] h)
      = Cert.Model.cat (cur2 x) (cur2 y) := by
  funext p c
  unfold Cert.Model.cat
  by_cases hc : c.val < 64
  · rw [dif_pos hc]
    refine concatenate_pair_apply_left 1 x y h (ix2 p c) rfl (ix2 p ⟨c.val, hc⟩) (fun b => ?_)
    match b with
    | ⟨0, _⟩ => rfl
    | ⟨1, _⟩ => rfl
  · rw [dif_neg hc]
    refine concatenate_pair_apply_right 1 x y h (ix2 p c) rfl rfl
      (ix2 p ⟨c.val - 64, by have := c.isLt; omega⟩) (fun b hb => ?_) ?_
    · match b with
      | ⟨0, _⟩ => rfl
      | ⟨1, _⟩ => exact absurd rfl hb
    · show c.val - 64 + 64 = c.val
      omega

/-- A row scatter-add into the zero matrix: per receiving row, the sum of the update rows that land on it. -/
theorem scatter_fn {N C E : Nat} (wf : ScatterDims.WF ⟨2, ![N, C]⟩ ⟨2, ![E, 1]⟩ ⟨2, ![E, C]⟩ [1] [0] [0] 1)
    (h0 : (⟨0, ![]⟩ : Shape).BroadcastsInDim ⟨2, ![N, C]⟩ ![])
    (idx : IVec ⟨2, ![E, 1]⟩ 32) (upd : FVec Ideal ⟨2, ![E, C]⟩ .f32) (u : Fin E → Fin C → EReal)
    (hu : ∀ e k, upd (ix2 e k) = u e k) :
    cur2 (Host.scatterAdd (Cert.LibRowScatter.rowScatter N C E wf)
        (broadcastInDim ⟨2, ![N, C]⟩ ![] h0 (constant (F := Ideal) ⟨0, ![]⟩ .f32 0x00000000#32)) idx upd)
      = Cert.Model.segsum (landOf N idx) u := by
  funext j q
  refine (Cert.LibRowScatter.rowScatter_apply wf _ idx upd j q).trans ?_
  exact congrArg₂ (· + ·) (zeros_apply h0 _) (Finset.sum_congr rfl fun e _ => hu e q)

/-- A row gather: the operand's row the edge reads. -/
theorem take_at {N C E : Nat} (hN : 0 < N)
    (wf : GatherDims.WF ⟨2, ![N, C]⟩ ⟨2, ![E, 1]⟩ ⟨2, ![E, C]⟩ [1] [0] [] [0] [] 1 ![1, C])
    (x : FVec Ideal ⟨2, ![N, C]⟩ .f32) (idx : IVec ⟨2, ![E, 1]⟩ 32) (e : Fin E) (k : Fin C) :
    Host.gather (Cert.LibTake.rowTake N C E wf) x idx (ix2 e k) = cur2 x (rowOf N hN idx e) k :=
  Cert.LibTake.rowTake_apply hN wf x idx (ix2 e k)

/-! ## The program's operations, stage by stage -/

section Stages
variable (x0 : FVec Ideal S100000x19 .f32) (x1 : FVec Ideal S50000x5 .f32) (x2 : IVec S2x1250000 32)
  (x3 : FVec Ideal S1250000 .f32) (x4 : FVec Ideal S19x64 .f32) (x5 : FVec Ideal S64 .f32) (x6 : FVec Ideal S5x64 .f32)
  (x7 x8 : FVec Ideal S64 .f32) (x9 : FVec Ideal S128x64 .f32) (x10 : FVec Ideal S64 .f32)
  (x11 : FVec Ideal S128x64 .f32) (x12 : FVec Ideal S64 .f32) (x13 : FVec Ideal S64x64 .f32) (x14 : FVec Ideal S64 .f32)
  (x15 : FVec Ideal S64x1 .f32) (x16 : FVec Ideal S1 .f32)

/-- The row of the variables an edge reads. -/
abbrev gv : Fin 1250000 → Fin 100000 := rowOf 100000 (by decide) (val_main_v24 (F := Ideal) x2)
/-- The row of the constraints an edge reads. -/
abbrev gc : Fin 1250000 → Fin 50000 := rowOf 50000 (by decide) (val_main_v41 (F := Ideal) x2)
/-- The constraint an edge's message lands on. -/
abbrev lc : Fin 1250000 → Option (Fin 50000) := landOf 50000 (val_main_v28 (F := Ideal) x2)
/-- The variable an edge's message lands on. -/
abbrev lv : Fin 1250000 → Option (Fin 100000) := landOf 100000 (val_main_v45 (F := Ideal) x2)

/-- The variable embeddings. -/
theorem v8_fn : cur2 (val_main_v8 (F := Ideal) x0 x4 x5) = Cert.Model.varEmb (cur2 x0) (cur2 x4) (cur1 x5) :=
  dense_fn dot_S100000x19_S19x64_S100000x64_1_0_0_1_n_n rfl rfl rfl rfl rfl rfl _ _ _ x0 x4 x5

/-- The constraint embeddings. -/
theorem v13_fn : cur2 (val_main_v13 (F := Ideal) x1 x6 x7) = Cert.Model.conEmb (cur2 x1) (cur2 x6) (cur1 x7) :=
  dense_fn dot_S50000x5_S5x64_S50000x64_1_0_0_1_n_n rfl rfl rfl rfl rfl rfl _ _ _ x1 x6 x7

/-- The edge attribute times the edge weight of the column. -/
theorem v18_at (e : Fin 1250000) (k : Fin 64) :
    val_main_v18 (F := Ideal) x3 x8 (ix2 e k) = cur1 x3 e * cur1 x8 k := by
  refine congrArg₂ (· * ·) ?_ ?_
  · exact (Cert.LibTake.bcastAcross_apply bcast_S1250000x1_S1250000x64_0_1 _ e k).trans
      (Cert.LibTake.bcastCol_apply bcast_S1250000_S1250000x1_0 x3 e _)
  · exact (Cert.LibTake.bcastDown_apply bcast_S1x64_S1250000x64_0_1 _ e k).trans
      (Cert.LibTake.bcastRow_apply bcast_S64_S1x64_1 x8 _ k)

/-- The messages to the constraints: the embedding row the edge reads, scaled. -/
theorem v26_at (e : Fin 1250000) (k : Fin 64) :
    val_main_v26 (F := Ideal) x0 x2 x3 x4 x5 x8 (ix2 e k)
      = Cert.Model.varEmb (cur2 x0) (cur2 x4) (cur1 x5) (gv x2 e) k * (cur1 x3 e * cur1 x8 k) := by
  refine congrArg₂ (· * ·) ?_ (v18_at x3 x8 e k)
  refine (take_at (N := 100000) (C := 64) (E := 1250000) (by decide)
    gather_S100000x64_S1250000x1_S1250000x64_1_0_n_n_0_1_164_wf (val_main_v8 (F := Ideal) x0 x4 x5)
    (val_main_v24 (F := Ideal) x2) e k).trans ?_
  exact congrFun (congrFun (v8_fn x0 x4 x5) (gv x2 e)) k

/-- What each constraint receives. -/
theorem v29_fn :
    cur2 (val_main_v29 (F := Ideal) x0 x2 x3 x4 x5 x8)
      = Cert.Model.rConAgg (cur2 x0) (gv x2) (lc x2) (cur1 x3) (cur2 x4) (cur1 x5) (cur1 x8) :=
  scatter_fn (N := 50000) (C := 64) (E := 1250000) scatter_S50000x64_S1250000x1_S1250000x64_1_0_0_1_wf
    bcast_S_S50000x64 (val_main_v28 (F := Ideal) x2) (val_main_v26 (F := Ideal) x0 x2 x3 x4 x5 x8) _
    (v26_at x0 x2 x3 x4 x5 x8)

/-- Each constraint's embedding beside what it receives. -/
theorem v30_fn :
    cur2 (val_main_v30 (F := Ideal) x0 x1 x2 x3 x4 x5 x6 x7 x8)
      = Cert.Model.cat (Cert.Model.conEmb (cur2 x1) (cur2 x6) (cur1 x7))
          (Cert.Model.rConAgg (cur2 x0) (gv x2) (lc x2) (cur1 x3) (cur2 x4) (cur1 x5) (cur1 x8)) := by
  refine (cat_fn concatenates_S50000x64_S50000x64_S50000x128_d1 (val_main_v13 (F := Ideal) x1 x6 x7)
    (val_main_v29 (F := Ideal) x0 x2 x3 x4 x5 x8)).trans ?_
  rw [v13_fn, v29_fn]

/-- The constraints' updated embeddings. -/
theorem v35_fn :
    cur2 (val_main_v35 (F := Ideal) x0 x1 x2 x3 x4 x5 x6 x7 x8 x9 x10)
      = Cert.Model.rConEmb2 (cur2 x0) (cur2 x1) (gv x2) (lc x2) (cur1 x3) (cur2 x4) (cur1 x5) (cur2 x6) (cur1 x7) (cur1 x8) (cur2 x9) (cur1 x10) := by
  refine (dense_fn dot_S50000x128_S128x64_S50000x64_1_0_0_1_n_n rfl rfl rfl rfl rfl rfl _ _ _
    (val_main_v30 (F := Ideal) x0 x1 x2 x3 x4 x5 x6 x7 x8) x9 x10).trans ?_
  rw [v30_fn]
  rfl

/-- The messages to the variables: the updated embedding row the edge reads, scaled. -/
theorem v43_at (e : Fin 1250000) (k : Fin 64) :
    val_main_v43 (F := Ideal) x0 x1 x2 x3 x4 x5 x6 x7 x8 x9 x10 (ix2 e k)
      = Cert.Model.rConEmb2 (cur2 x0) (cur2 x1) (gv x2) (lc x2) (cur1 x3) (cur2 x4) (cur1 x5) (cur2 x6) (cur1 x7) (cur1 x8) (cur2 x9) (cur1 x10) (gc x2 e) k * (cur1 x3 e * cur1 x8 k) := by
  refine congrArg₂ (· * ·) ?_ (v18_at x3 x8 e k)
  refine (take_at (N := 50000) (C := 64) (E := 1250000) (by decide)
    gather_S50000x64_S1250000x1_S1250000x64_1_0_n_n_0_1_164_wf (val_main_v35 (F := Ideal) x0 x1 x2 x3 x4 x5 x6 x7 x8 x9 x10)
    (val_main_v41 (F := Ideal) x2) e k).trans ?_
  exact congrFun (congrFun (v35_fn x0 x1 x2 x3 x4 x5 x6 x7 x8 x9 x10) (gc x2 e)) k

/-- What each variable receives. -/
theorem v46_fn :
    cur2 (val_main_v46 (F := Ideal) x0 x1 x2 x3 x4 x5 x6 x7 x8 x9 x10)
      = Cert.Model.rVarAgg (cur2 x0) (cur2 x1) (gv x2) (gc x2) (lc x2) (lv x2) (cur1 x3) (cur2 x4) (cur1 x5) (cur2 x6) (cur1 x7) (cur1 x8) (cur2 x9) (cur1 x10) :=
  scatter_fn (N := 100000) (C := 64) (E := 1250000) scatter_S100000x64_S1250000x1_S1250000x64_1_0_0_1_wf
    bcast_S_S100000x64 (val_main_v45 (F := Ideal) x2) (val_main_v43 (F := Ideal) x0 x1 x2 x3 x4 x5 x6 x7 x8 x9 x10) _
    (v43_at x0 x1 x2 x3 x4 x5 x6 x7 x8 x9 x10)

/-- Each variable's embedding beside what it receives. -/
theorem v47_fn :
    cur2 (val_main_v47 (F := Ideal) x0 x1 x2 x3 x4 x5 x6 x7 x8 x9 x10)
      = Cert.Model.cat (Cert.Model.varEmb (cur2 x0) (cur2 x4) (cur1 x5))
          (Cert.Model.rVarAgg (cur2 x0) (cur2 x1) (gv x2) (gc x2) (lc x2) (lv x2) (cur1 x3) (cur2 x4) (cur1 x5) (cur2 x6) (cur1 x7) (cur1 x8) (cur2 x9) (cur1 x10)) := by
  refine (cat_fn concatenates_S100000x64_S100000x64_S100000x128_d1 (val_main_v8 (F := Ideal) x0 x4 x5)
    (val_main_v46 (F := Ideal) x0 x1 x2 x3 x4 x5 x6 x7 x8 x9 x10)).trans ?_
  rw [v8_fn, v46_fn]

/-- The variables' updated embeddings. -/
theorem v52_fn :
    cur2 (val_main_v52 (F := Ideal) x0 x1 x2 x3 x4 x5 x6 x7 x8 x9 x10 x11 x12)
      = Cert.Model.rVarEmb2 (cur2 x0) (cur2 x1) (gv x2) (gc x2) (lc x2) (lv x2) (cur1 x3) (cur2 x4) (cur1 x5) (cur2 x6) (cur1 x7) (cur1 x8) (cur2 x9) (cur1 x10) (cur2 x11) (cur1 x12) := by
  refine (dense_fn dot_S100000x128_S128x64_S100000x64_1_0_0_1_n_n rfl rfl rfl rfl rfl rfl _ _ _
    (val_main_v47 (F := Ideal) x0 x1 x2 x3 x4 x5 x6 x7 x8 x9 x10) x11 x12).trans ?_
  rw [v47_fn]
  rfl

/-- The head's hidden layer. -/
theorem v57_fn :
    cur2 (val_main_v57 (F := Ideal) x0 x1 x2 x3 x4 x5 x6 x7 x8 x9 x10 x11 x12 x13 x14)
      = Cert.Model.dense (Cert.Model.rVarEmb2 (cur2 x0) (cur2 x1) (gv x2) (gc x2) (lc x2) (lv x2) (cur1 x3) (cur2 x4) (cur1 x5) (cur2 x6) (cur1 x7) (cur1 x8) (cur2 x9) (cur1 x10) (cur2 x11) (cur1 x12)) (cur2 x13) (cur1 x14) := by
  refine (dense_fn dot_S100000x64_S64x64_S100000x64_1_0_0_1_n_n rfl rfl rfl rfl rfl rfl _ _ _
    (val_main_v52 (F := Ideal) x0 x1 x2 x3 x4 x5 x6 x7 x8 x9 x10 x11 x12) x13 x14).trans ?_
  rw [v52_fn]

end Stages

/-- The reference program's result at a variable is the model's score with the edge weights on the messages. -/
theorem value
    (x0 : FVec Ideal S100000x19 .f32) (x1 : FVec Ideal S50000x5 .f32) (x2 : IVec S2x1250000 32) (x3 : FVec Ideal S1250000 .f32)
    (x4 : FVec Ideal S19x64 .f32) (x5 : FVec Ideal S64 .f32) (x6 : FVec Ideal S5x64 .f32) (x7 x8 : FVec Ideal S64 .f32)
    (x9 : FVec Ideal S128x64 .f32) (x10 : FVec Ideal S64 .f32) (x11 : FVec Ideal S128x64 .f32) (x12 : FVec Ideal S64 .f32)
    (x13 : FVec Ideal S64x64 .f32) (x14 : FVec Ideal S64 .f32) (x15 : FVec Ideal S64x1 .f32) (x16 : FVec Ideal S1 .f32) (v : Fin 100000) :
    val_main_v62 (F := Ideal) x0 x1 x2 x3 x4 x5 x6 x7 x8 x9 x10 x11 x12 x13 x14 x15 x16 (ix1 v)
      = Cert.Model.rOut (cur2 x0) (cur2 x1)
          (rowOf 100000 (by decide) (val_main_v24 (F := Ideal) x2)) (rowOf 50000 (by decide) (val_main_v41 (F := Ideal) x2))
          (landOf 50000 (val_main_v28 (F := Ideal) x2)) (landOf 100000 (val_main_v45 (F := Ideal) x2))
          (cur1 x3) (cur2 x4) (cur1 x5) (cur2 x6) (cur1 x7) (cur1 x8) (cur2 x9) (cur1 x10) (cur2 x11) (cur1 x12)
          (cur2 x13) (cur1 x14) (cur2 x15) (cur1 x16) v := by
  refine (head_apply dot_S100000x64_S64x1_S100000x1_1_0_0_1_n_n rfl rfl rfl rfl rfl rfl bcast_S1_S1x1_1
    bcast_S1x1_S100000x1_0_1 shapeCasts_S100000x1_S100000
    (val_main_v57 (F := Ideal) x0 x1 x2 x3 x4 x5 x6 x7 x8 x9 x10 x11 x12 x13 x14) x15 x16 v).trans ?_
  rw [v57_fn]
  rfl

end Cert.RefValue

end
-- ==== Proof.LibReal.lean ====
/-
  General lemmas: arrays of extended reals all of whose entries are real numbers, and the operations that keep
  them so — sums, products, differences, finite sums, maxima, quotients by a nonzero real, and the inverse square
  root of a positive real.
-/
import Idealize.ShloMosaic.PureOps.Ideal

noncomputable section

namespace Cert.LibReal

open Idealize.ShloMosaic

/-- An extended real that is a real number. -/
def IsR (x : EReal) : Prop := ∃ r : ℝ, x = (r : EReal)

/-- Every entry of an array is a real number. -/
def AllR {ι : Type} (v : ι → EReal) : Prop := ∀ i, IsR (v i)

theorem isR_coe (r : ℝ) : IsR (r : EReal) := ⟨r, rfl⟩
theorem isR_zero : IsR (0 : EReal) := ⟨0, rfl⟩
theorem isR_one : IsR (1 : EReal) := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

theorem IsR.sum {ι : Type} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact (h i (Finset.mem_insert_self i s)).add (ih fun j hj => h j (Finset.mem_insert_of_mem hj))

/-- A quotient by a nonzero real. -/
theorem IsR.div {x : EReal} (hx : IsR x) {n : ℝ} (hn : n ≠ 0) : IsR (Ideal.div x (n : EReal)) := by
  obtain ⟨a, rfl⟩ := hx
  rw [Ideal.div_coe hn]
  exact (isR_coe a).mul (isR_coe _)

/-- The inverse square root of a positive real is a real. -/
theorem isR_rsqrt {r : ℝ} (hr : 0 < r) : IsR (Ideal.rsqrt (r : EReal)) := by
  rw [Ideal.rsqrt_coe, if_neg (not_lt.mpr hr.le), if_neg hr.ne']
  exact isR_coe _

/-- A sum of ones over a finite set is a nonnegative real. -/
theorem sum_ones {ι : Type} (s : Finset ι) : ∃ r : ℝ, 0 ≤ r ∧ (∑ _i ∈ s, ((1 : ℝ) : EReal)) = (r : EReal) := by
  classical
  induction s using Finset.induction_on with
  | empty => exact ⟨0, le_refl _, by simp⟩
  | insert i s hi ih =>
    obtain ⟨r, hr, e⟩ := ih
    refine ⟨1 + r, by linarith, ?_⟩
    rw [Finset.sum_insert hi, e, EReal.coe_add]

end Cert.LibReal

end
-- ==== Proof.Bridge.lean ====
/-
  The two forms of the network compute the same scores when the data are real numbers.

  Two facts carry the proof. A finite sum of real numbers times a real number is the sum of the products, so a
  per-column weight can be taken out of the sum a node receives. And a product with two matrices laid side by
  side is the sum of the two products with the upper and the lower half of the weight matrix.
-/
import proofs.«105270_j8598524526745_2_alg».proof.Proof.Model
import proofs.«105270_j8598524526745_2_alg».proof.Proof.LibReal
import Mathlib.Data.EReal.Operations
import Mathlib.Algebra.BigOperators.Fin

noncomputable section

open scoped BigOperators

namespace Cert.Bridge

open Cert.Model Cert.LibReal

/-- For real numbers, multiplication distributes over addition. -/
private theorem add_mul_of_real {x y w : EReal} (hx : IsR x) (hy : IsR y) (hw : IsR w) :
    (x + y) * w = x * w + y * w := by
  obtain ⟨a, rfl⟩ := hx; obtain ⟨b, rfl⟩ := hy; obtain ⟨c, rfl⟩ := hw
  rw [← EReal.coe_add, ← EReal.coe_mul, ← EReal.coe_mul, ← EReal.coe_mul, ← EReal.coe_add, add_mul]

/-- A real factor comes out of a finite sum of real numbers. -/
private theorem sum_mul_of_real {ι : Type} (s : Finset ι) (x : ι → EReal) (w : EReal)
    (hx : ∀ i ∈ s, IsR (x i)) (hw : IsR w) : (∑ i ∈ s, x i * w) = (∑ i ∈ s, x i) * w := by
  classical
  induction s using Finset.induction_on with
  | empty => simp
  | insert i s hi ih =>
    have hs : ∀ j ∈ s, IsR (x j) := fun j hj => hx j (Finset.mem_insert_of_mem hj)
    rw [Finset.sum_insert hi, Finset.sum_insert hi, ih hs,
      add_mul_of_real (hx i (Finset.mem_insert_self i s)) (IsR.sum s x hs) hw]

/-- A dense layer of real data is real. -/
private theorem isR_dense {A K B : Nat} {x : Fin A → Fin K → EReal} {w : Fin K → Fin B → EReal}
    {b : Fin B → EReal} (hx : ∀ p k, IsR (x p k)) (hw : ∀ k q, IsR (w k q)) (hb : ∀ q, IsR (b q))
    (p : Fin A) (q : Fin B) : IsR (dense x w b p q) :=
  ((IsR.sum _ _ fun k _ => (hx p k).mul (hw k q)).add (hb q)).max isR_zero

/-- A two-input dense layer of real data is real. -/
private theorem isR_dense2 {A K B : Nat} {x y : Fin A → Fin K → EReal} {wx wy : Fin K → Fin B → EReal}
    {b : Fin B → EReal} (hx : ∀ p k, IsR (x p k)) (hy : ∀ p k, IsR (y p k))
    (hwx : ∀ k q, IsR (wx k q)) (hwy : ∀ k q, IsR (wy k q)) (hb : ∀ q, IsR (b q))
    (p : Fin A) (q : Fin B) : IsR (dense2 x y wx wy b p q) :=
  (((IsR.sum _ _ fun k _ => (hx p k).mul (hwx k q)).add
    (IsR.sum _ _ fun k _ => (hy p k).mul (hwy k q))).add (hb q)).max isR_zero

/-- A per-row sum of real rows is real. -/
private theorem isR_segsum {N C E : Nat} (l : Fin E → Option (Fin N)) {u : Fin E → Fin C → EReal}
    (hu : ∀ e q, IsR (u e q)) (j : Fin N) (q : Fin C) : IsR (segsum l u j q) :=
  isR_zero.add (IsR.sum _ _ fun e _ => hu e q)

/-- The key law: the per-column weight on every message comes out of the sum a row receives. -/
private theorem agg_scale {N E : Nat} (l : Fin E → Option (Fin N)) (emb : Fin E → Fin 64 → EReal)
    (a : Fin E → EReal) (we : Fin 64 → EReal)
    (hemb : ∀ e k, IsR (emb e k)) (ha : ∀ e, IsR (a e)) (hwe : ∀ k, IsR (we k)) (j : Fin N) (k : Fin 64) :
    segsum l (fun e k => emb e k * (a e * we k)) j k = segsum l (fun e k => emb e k * a e) j k * we k := by
  simp only [segsum, zero_add]
  rw [← sum_mul_of_real _ _ _ (fun e _ => (hemb e k).mul (ha e)) (hwe k)]
  exact Finset.sum_congr rfl fun e _ => (mul_assoc _ _ _).symm

/-- The left block of two matrices laid side by side. -/
private theorem cat_castAdd {A : Nat} (x y : Fin A → Fin 64 → EReal) (p : Fin A) (k : Fin 64) :
    cat x y p (Fin.castAdd 64 k : Fin (64 + 64)) = x p k := by
  have h : (Fin.castAdd 64 k : Fin (64 + 64)).val < 64 := k.isLt
  show (if h : (Fin.castAdd 64 k : Fin (64 + 64)).val < 64 then x p ⟨_, h⟩ else _) = _
  rw [dif_pos h]
  rfl

/-- The right block of two matrices laid side by side. -/
private theorem cat_natAdd {A : Nat} (x y : Fin A → Fin 64 → EReal) (p : Fin A) (k : Fin 64) :
    cat x y p (Fin.natAdd 64 k : Fin (64 + 64)) = y p k := by
  have h : ¬ (Fin.natAdd 64 k : Fin (64 + 64)).val < 64 := by
    show ¬ 64 + k.val < 64
    omega
  show (if h : (Fin.natAdd 64 k : Fin (64 + 64)).val < 64 then x p ⟨_, h⟩ else _) = _
  rw [dif_neg h]
  refine congrArg (y p) (Fin.ext ?_)
  show 64 + k.val - 64 = k.val
  omega

/-- A product with two blocks side by side is the sum of the products with the two halves of the matrix. -/
private theorem sum_cat {A B : Nat} (x y : Fin A → Fin 64 → EReal) (W : Fin 128 → Fin B → EReal)
    (p : Fin A) (q : Fin B) :
    (∑ k : Fin 128, cat x y p k * W k q)
      = (∑ k : Fin 64, x p k * top W k q) + (∑ k : Fin 64, y p k * bot W k q) := by
  show (∑ k : Fin (64 + 64), cat x y p k * W k q) = _
  have e1 : ∀ k : Fin 64, cat x y p (Fin.castAdd 64 k : Fin (64 + 64)) * W (Fin.castAdd 64 k : Fin (64 + 64)) q
      = x p k * top W k q := fun k => by
    rw [cat_castAdd]
    rfl
  have e2 : ∀ k : Fin 64, cat x y p (Fin.natAdd 64 k : Fin (64 + 64)) * W (Fin.natAdd 64 k : Fin (64 + 64)) q
      = y p k * bot W k q := fun k => by
    rw [cat_natAdd]
    rfl
  rw [Fin.sum_univ_add, Finset.sum_congr rfl fun k _ => e1 k, Finset.sum_congr rfl fun k _ => e2 k]

/-- The joined update equals the two-product update with the weight moved onto the lower half of the matrix. -/
private theorem dense_cat_eq_dense2 {A : Nat} (own recvR recvK : Fin A → Fin 64 → EReal) (we : Fin 64 → EReal)
    (W : Fin 128 → Fin 64 → EReal) (b : Fin 64 → EReal) (h : ∀ p k, recvR p k = recvK p k * we k) :
    dense (cat own recvR) W b = dense2 own recvK (top W) (scaled we W) b := by
  funext p q
  show max ((∑ k : Fin 128, cat own recvR p k * W k q) + b q) 0
    = max (((∑ k : Fin 64, own p k * top W k q) + (∑ k : Fin 64, recvK p k * scaled we W k q)) + b q) 0
  rw [sum_cat]
  have e : (∑ k : Fin 64, recvR p k * bot W k q) = (∑ k : Fin 64, recvK p k * scaled we W k q) := by
    refine Finset.sum_congr rfl fun k _ => ?_
    rw [h p k]
    show recvK p k * we k * bot W k q = recvK p k * (bot W k q * we k)
    rw [mul_assoc, mul_comm (we k)]
  rw [e]

section
variable {NV NC E : Nat}
  (X : Fin NV → Fin 19 → EReal) (Y : Fin NC → Fin 5 → EReal)
  (gv : Fin E → Fin NV) (gc : Fin E → Fin NC) (lc : Fin E → Option (Fin NC)) (lv : Fin E → Option (Fin NV))
  (a : Fin E → EReal)
  (Wv : Fin 19 → Fin 64 → EReal) (bv : Fin 64 → EReal) (Wc : Fin 5 → Fin 64 → EReal) (bc : Fin 64 → EReal)
  (we : Fin 64 → EReal)
  (Wcu : Fin 128 → Fin 64 → EReal) (bcu : Fin 64 → EReal) (Wvu : Fin 128 → Fin 64 → EReal) (bvu : Fin 64 → EReal)

/-- The lower half of an update matrix with scaled rows is real. -/
private theorem isR_scaled {W : Fin 128 → Fin 64 → EReal} (hwe : ∀ k, IsR (we k)) (hW : ∀ k q, IsR (W k q))
    (k q : Fin 64) : IsR (scaled we W k q) :=
  (hW _ q).mul (hwe k)

/-- After the first round the constraints hold the same embeddings in both forms. -/
private theorem conEmb2_eq
    (hX : ∀ p k, IsR (X p k)) (ha : ∀ e, IsR (a e))
    (hWv : ∀ k q, IsR (Wv k q)) (hbv : ∀ q, IsR (bv q)) (hwe : ∀ k, IsR (we k)) :
    rConEmb2 X Y gv lc a Wv bv Wc bc we Wcu bcu = kConEmb2 X Y gv lc a Wv bv Wc bc we Wcu bcu :=
  dense_cat_eq_dense2 _ _ _ _ _ _ fun p k =>
    agg_scale lc (fun e k => varEmb X Wv bv (gv e) k) a we (fun e k => isR_dense hX hWv hbv (gv e) k) ha hwe p k

/-- The constraint embeddings after the first round are real. -/
private theorem isR_kConEmb2
    (hX : ∀ p k, IsR (X p k)) (hY : ∀ p k, IsR (Y p k)) (ha : ∀ e, IsR (a e))
    (hWv : ∀ k q, IsR (Wv k q)) (hbv : ∀ q, IsR (bv q)) (hWc : ∀ k q, IsR (Wc k q)) (hbc : ∀ q, IsR (bc q))
    (hwe : ∀ k, IsR (we k)) (hWcu : ∀ k q, IsR (Wcu k q)) (hbcu : ∀ q, IsR (bcu q)) (p : Fin NC) (k : Fin 64) :
    IsR (kConEmb2 X Y gv lc a Wv bv Wc bc we Wcu bcu p k) :=
  isR_dense2 (isR_dense hY hWc hbc)
    (isR_segsum lc fun e k => (isR_dense hX hWv hbv (gv e) k).mul (ha e))
    (fun k q => hWcu _ q) (isR_scaled we hwe hWcu) hbcu p k

/-- After the second round the variables hold the same embeddings in both forms. -/
private theorem varEmb2_eq
    (hX : ∀ p k, IsR (X p k)) (hY : ∀ p k, IsR (Y p k)) (ha : ∀ e, IsR (a e))
    (hWv : ∀ k q, IsR (Wv k q)) (hbv : ∀ q, IsR (bv q)) (hWc : ∀ k q, IsR (Wc k q)) (hbc : ∀ q, IsR (bc q))
    (hwe : ∀ k, IsR (we k)) (hWcu : ∀ k q, IsR (Wcu k q)) (hbcu : ∀ q, IsR (bcu q)) :
    rVarEmb2 X Y gv gc lc lv a Wv bv Wc bc we Wcu bcu Wvu bvu
      = kVarEmb2 X Y gv gc lc lv a Wv bv Wc bc we Wcu bcu Wvu bvu := by
  refine dense_cat_eq_dense2 _ _ _ _ _ _ fun p k => ?_
  show segsum lv (fun e k => rConEmb2 X Y gv lc a Wv bv Wc bc we Wcu bcu (gc e) k * (a e * we k)) p k
    = segsum lv (fun e k => kConEmb2 X Y gv lc a Wv bv Wc bc we Wcu bcu (gc e) k * a e) p k * we k
  rw [conEmb2_eq X Y gv lc a Wv bv Wc bc we Wcu bcu hX ha hWv hbv hwe]
  exact agg_scale lv (fun e k => kConEmb2 X Y gv lc a Wv bv Wc bc we Wcu bcu (gc e) k) a we
    (fun e k => isR_kConEmb2 X Y gv lc a Wv bv Wc bc we Wcu bcu hX hY ha hWv hbv hWc hbc hwe hWcu hbcu (gc e) k)
    ha hwe p k

end

end Cert.Bridge

open Cert.Model Cert.LibReal in
/-- With real data the two forms give the same scores. -/
theorem Cert.Bridge.kOut_eq_rOut {NV NC E : Nat}
    (X : Fin NV → Fin 19 → EReal) (Y : Fin NC → Fin 5 → EReal)
    (gv : Fin E → Fin NV) (gc : Fin E → Fin NC) (lc : Fin E → Option (Fin NC)) (lv : Fin E → Option (Fin NV))
    (a : Fin E → EReal)
    (Wv : Fin 19 → Fin 64 → EReal) (bv : Fin 64 → EReal) (Wc : Fin 5 → Fin 64 → EReal) (bc : Fin 64 → EReal)
    (we : Fin 64 → EReal)
    (Wcu : Fin 128 → Fin 64 → EReal) (bcu : Fin 64 → EReal) (Wvu : Fin 128 → Fin 64 → EReal) (bvu : Fin 64 → EReal)
    (Wp1 : Fin 64 → Fin 64 → EReal) (bp1 : Fin 64 → EReal) (Wp2 : Fin 64 → Fin 1 → EReal) (bp2 : Fin 1 → EReal)
    (hX : ∀ p k, IsR (X p k)) (hY : ∀ p k, IsR (Y p k)) (ha : ∀ e, IsR (a e))
    (hWv : ∀ k q, IsR (Wv k q)) (hbv : ∀ q, IsR (bv q)) (hWc : ∀ k q, IsR (Wc k q)) (hbc : ∀ q, IsR (bc q))
    (hwe : ∀ k, IsR (we k)) (hWcu : ∀ k q, IsR (Wcu k q)) (hbcu : ∀ q, IsR (bcu q))
    (hWvu : ∀ k q, IsR (Wvu k q)) (hbvu : ∀ q, IsR (bvu q)) :
    kOut X Y gv gc lc lv a Wv bv Wc bc we Wcu bcu Wvu bvu Wp1 bp1 Wp2 bp2
      = rOut X Y gv gc lc lv a Wv bv Wc bc we Wcu bcu Wvu bvu Wp1 bp1 Wp2 bp2 := by
  unfold Cert.Model.kOut Cert.Model.rOut
  rw [Cert.Bridge.varEmb2_eq X Y gv gc lc lv a Wv bv Wc bc we Wcu bcu Wvu bvu hX hY ha hWv hbv hWc hbc hwe hWcu hbcu]

end
-- ==== Proof.Finite.lean ====
/-
  Finiteness of the inputs. The precondition is a conjunction of sixteen tests, one per float argument: every entry
  of |x| is strictly below +∞, the tests joined by "and" over the entries and then over the arguments. Over the
  extended reals |x| = max x (-x) is +∞ exactly at x = ±∞, so a passed test says every entry of x is a real number.
-/
import proofs.«105270_j8598524526745_2_alg».proof.Pre_finite_inputs
import proofs.«105270_j8598524526745_2_alg».proof.Proof.LibReal
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Cert.LibReal

/-- An extended real whose absolute value `max x (-x)` lies strictly below `⊤` is a real number: at `⊥` and at `⊤`
    the maximum is `⊤`. -/
theorem isR_of_abs_lt_top (x : EReal) (h : max x (-x) < ⊤) : IsR x := by
  induction x using EReal.rec with
  | bot => simp at h
  | top => simp at h
  | coe r => exact ⟨r, rfl⟩

/-- The word `0x7F800000` denotes `+∞`. -/
theorem ofBits_inf : Ideal.ofBits .f32 0x7F800000#32 = (⊤ : EReal) := by
  simp [Ideal.ofBits, Ideal.ieee]

/-- One test read back: if the "and" over all entries of `|x| < +∞` is 1, every entry of `x` is a real number. The
    reduction runs over every axis, into a shape with a single index. -/
theorem real_of_test {S T : Shape} [Subsingleton T.Idx] {axes : List (Fin S.rank)} (x : FVec Ideal S .f32)
    (dims : Fin T.rank → Fin S.rank) (hb : T.BroadcastsInDim S dims) (hr : S.ReducesTo axes T) (hu : 0 < T.numel)
    (j : T.Idx)
    (e : Host.reduce IntOp.andi
          (cmpf .olt (Host.absf x) (broadcastInDim S dims hb (constant (F := Ideal) T .f32 0x7F800000#32)))
          (constantI T 1 1#1) hr hu j = 1#1) :
    ∀ i, IsR (x i) := by
  intro i
  have hi := Host.reduce_andi_all _ _ hr hu j e i
  have hi' : Ideal.cmp .olt (max (x i) (-(x i))) (Ideal.ofBits .f32 0x7F800000#32) = 1#1 := hi
  rw [ofBits_inf] at hi'
  refine isR_of_abs_lt_top (x i) ?_
  by_contra hn
  simp [Ideal.cmp, hn] at hi'

/-- The shape of rank 0 has a single index. -/
instance subsingleton_S_ : Subsingleton Cert.Pre_finite_inputs.S_.Idx := ⟨fun _ _ => funext fun d => d.elim0⟩

open Cert.Pre_finite_inputs in
/-- The precondition read back: every entry of every float argument is a real number. The integer argument `a2`
    is not tested. -/
theorem all_real [Cert.Pre_finite_inputs.Facts]
    (a0 : FVec Ideal S100000x19 .f32) (a1 : FVec Ideal S50000x5 .f32) (a2 : IVec S2x1250000 32)
    (a3 : FVec Ideal S1250000 .f32) (a4 : FVec Ideal S19x64 .f32) (a5 : FVec Ideal S64 .f32)
    (a6 : FVec Ideal S5x64 .f32) (a7 : FVec Ideal S64 .f32) (a8 : FVec Ideal S64 .f32)
    (a9 : FVec Ideal S128x64 .f32) (a10 : FVec Ideal S64 .f32) (a11 : FVec Ideal S128x64 .f32)
    (a12 : FVec Ideal S64 .f32) (a13 : FVec Ideal S64x64 .f32) (a14 : FVec Ideal S64 .f32)
    (a15 : FVec Ideal S64x1 .f32) (a16 : FVec Ideal S1 .f32)
    (h : Cert.Pre_finite_inputs.fn (F := Ideal) a0 a1 a2 a3 a4 a5 a6 a7 a8 a9 a10 a11 a12 a13 a14 a15 a16
          = fun _ => 1#1) :
    (∀ i, IsR (a0 i)) ∧ (∀ i, IsR (a1 i)) ∧ (∀ i, IsR (a3 i)) ∧ (∀ i, IsR (a4 i)) ∧ (∀ i, IsR (a5 i))
    ∧ (∀ i, IsR (a6 i)) ∧ (∀ i, IsR (a7 i)) ∧ (∀ i, IsR (a8 i)) ∧ (∀ i, IsR (a9 i)) ∧ (∀ i, IsR (a10 i))
    ∧ (∀ i, IsR (a11 i)) ∧ (∀ i, IsR (a12 i)) ∧ (∀ i, IsR (a13 i)) ∧ (∀ i, IsR (a14 i)) ∧ (∀ i, IsR (a15 i))
    ∧ (∀ i, IsR (a16 i)) := by
  have e := congrFun h ValueIdx.ix0
  simp only [fn, fn_part1, fn_part2, fn_part3, fn_part4, andi, IntOp.andi_eq_one] at e
  obtain ⟨⟨⟨⟨⟨⟨⟨⟨⟨⟨⟨⟨⟨⟨⟨t0, t1⟩, t3⟩, t4⟩, t5⟩, t6⟩, t7⟩, t8⟩, t9⟩, t10⟩, t11⟩, t12⟩, t13⟩, t14⟩, t15⟩, t16⟩ := e
  exact ⟨real_of_test a0 _ _ _ _ _ t0, real_of_test a1 _ _ _ _ _ t1, real_of_test a3 _ _ _ _ _ t3,
    real_of_test a4 _ _ _ _ _ t4, real_of_test a5 _ _ _ _ _ t5, real_of_test a6 _ _ _ _ _ t6,
    real_of_test a7 _ _ _ _ _ t7, real_of_test a8 _ _ _ _ _ t8, real_of_test a9 _ _ _ _ _ t9,
    real_of_test a10 _ _ _ _ _ t10, real_of_test a11 _ _ _ _ _ t11, real_of_test a12 _ _ _ _ _ t12,
    real_of_test a13 _ _ _ _ _ t13, real_of_test a14 _ _ _ _ _ t14, real_of_test a15 _ _ _ _ _ t15,
    real_of_test a16 _ _ _ _ _ t16⟩

end Cert.Finite

end
-- ==== Proof.lean ====
/-
  The certificate of a bipartite graph network's scoring kernel against its reference, on the extended reals.

  Both programs embed the variables and the constraints by a dense layer, send messages along the edges from the
  variables to the constraints and back — an embedding row scaled by the edge's attribute and by a per-column edge
  weight, summed per receiving node —, update each node by a dense layer of its own embedding joined with what it
  received, and read a score off each variable through a two-layer head. The kernel sums the messages unscaled by
  the edge weight and folds that weight into the rows of the lower half of each update matrix, and it forms the
  update as two matrix products added where the reference multiplies the joined matrix once. Pulling the weight
  out of a sum is distributivity, which on the extended reals holds when the summands are real numbers: the
  precondition makes every float input finite, and sums, products and maxima of reals are real. Splitting a sum
  over the joined axis in two uses only that addition is commutative and associative.

  The kernel's frames are the generated ones; the reference's frame is its generated run with the result
  forgotten; nothing was rewritten by the idealization, so it is preserved trivially. For the value claim the
  kernel's result is read off its run region by region, the reference's off its run stage by stage, both as the
  model's functions of the argument arrays, and the model's two forms are equal under the finiteness facts.
-/
import proofs.«105270_j8598524526745_2_alg».proof.Defs
import proofs.«105270_j8598524526745_2_alg».proof.Proof.Gen.Kernel
import proofs.«105270_j8598524526745_2_alg».proof.Proof.Gen.Kernel.Skeleton
import proofs.«105270_j8598524526745_2_alg».proof.Proof.Gen.Kernel.Launch
import proofs.«105270_j8598524526745_2_alg».proof.Proof.Gen.Kernel.Points
import proofs.«105270_j8598524526745_2_alg».proof.Proof.Gen.Kernel.Frame
import proofs.«105270_j8598524526745_2_alg».proof.Proof.Gen.KernelIdeal
import proofs.«105270_j8598524526745_2_alg».proof.Proof.Gen.KernelIdeal.Skeleton
import proofs.«105270_j8598524526745_2_alg».proof.Proof.Gen.KernelIdeal.Launch
import proofs.«105270_j8598524526745_2_alg».proof.Proof.Gen.KernelIdeal.Points
import proofs.«105270_j8598524526745_2_alg».proof.Proof.Gen.KernelIdeal.Frame
import proofs.«105270_j8598524526745_2_alg».proof.Proof.Gen.ReferenceIdeal
import proofs.«105270_j8598524526745_2_alg».proof.Proof.Gen.Pre_finite_inputs
import proofs.«105270_j8598524526745_2_alg».proof.Proof.Gen.ReferenceIdeal.Run
import proofs.«105270_j8598524526745_2_alg».proof.Proof.Gen.ReferenceIdeal.Read
import proofs.«105270_j8598524526745_2_alg».proof.Proof.KRun
import proofs.«105270_j8598524526745_2_alg».proof.Proof.FoldValue
import proofs.«105270_j8598524526745_2_alg».proof.Proof.RefValue
import proofs.«105270_j8598524526745_2_alg».proof.Proof.Bridge
import proofs.«105270_j8598524526745_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.View

/-! ## The index columns of the two programs are the same functions of the edge list -/

theorem varRead_eq (x2 : IVec Cert.KernelIdeal.S2x1250000 32) :
    Cert.ReferenceIdeal.Read.val_main_v24 (F := Ideal) x2 = Cert.KernelIdeal.Fold.varRead x2 := rfl
theorem conRead_eq (x2 : IVec Cert.KernelIdeal.S2x1250000 32) :
    Cert.ReferenceIdeal.Read.val_main_v41 (F := Ideal) x2 = Cert.KernelIdeal.Fold.conRead x2 := rfl
theorem conLand_eq (x2 : IVec Cert.KernelIdeal.S2x1250000 32) :
    Cert.ReferenceIdeal.Read.val_main_v28 (F := Ideal) x2 = Cert.KernelIdeal.Fold.conLand x2 := rfl
theorem varLand_eq (x2 : IVec Cert.KernelIdeal.S2x1250000 32) :
    Cert.ReferenceIdeal.Read.val_main_v45 (F := Ideal) x2 = Cert.KernelIdeal.Fold.varLand x2 := rfl

/-! ## The two results are one array -/

/-- From memories that agree on the arguments, the reference's result term is the kernel's result array: both are
    the model's scores of the argument arrays, and the model's two forms agree when every float entry is real. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) = fun _ => 1#1)
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))) :
    Cert.ReferenceIdeal.Value.res_main_v62 (F := Ideal) m' c = Cert.KernelIdeal.Gen.W9 m ρ c (Proc.devRef .tc Cert.KernelIdeal.main_v50) := by
  obtain ⟨h0, h1, h2, h3, h4, h5, h6, h7, h8, h9, h10, h11, h12, h13, h14, h15, h16⟩ := hag
  rw [Cert.ReferenceIdeal.Read.val_main_v62_eq, h0, h1, h2, h3, h4, h5, h6, h7, h8, h9, h10, h11, h12, h13, h14, h15, h16]
  obtain ⟨r0, r1, r3, r4, r5, r6, r7, r8, r9, r10, r11, r12, r13, r14, r15, r16⟩ := Cert.Finite.all_real _ _ _ _ _ _ _ _ _ _ _ _ _ _ _ _ _ hpre
  funext i
  obtain ⟨v, rfl⟩ : ∃ v : Fin 100000, i = ix1 v := ⟨i 0, eq_ix1 i⟩
  refine (Cert.RefValue.value _ _ _ _ _ _ _ _ _ _ _ _ _ _ _ _ _ v).trans ?_
  refine Eq.trans ?_ (Cert.KernelIdeal.FoldValue.scores_at m ρ c v).symm
  rw [varRead_eq, conRead_eq, conLand_eq, varLand_eq]
  exact (congrFun (Cert.Bridge.kOut_eq_rOut
    (cur2 (Cert.KernelIdeal.FoldValue.a0 m c)) (cur2 (Cert.KernelIdeal.FoldValue.a1 m c)) (Cert.KernelIdeal.FoldValue.gv m c) (Cert.KernelIdeal.FoldValue.gc m c) (Cert.KernelIdeal.FoldValue.lc m c) (Cert.KernelIdeal.FoldValue.lv m c)
    (cur1 (Cert.KernelIdeal.FoldValue.a3 m c)) (cur2 (Cert.KernelIdeal.FoldValue.a4 m c)) (cur1 (Cert.KernelIdeal.FoldValue.a5 m c)) (cur2 (Cert.KernelIdeal.FoldValue.a6 m c)) (cur1 (Cert.KernelIdeal.FoldValue.a7 m c))
    (cur1 (Cert.KernelIdeal.FoldValue.a8 m c)) (cur2 (Cert.KernelIdeal.FoldValue.a9 m c)) (cur1 (Cert.KernelIdeal.FoldValue.a10 m c)) (cur2 (Cert.KernelIdeal.FoldValue.a11 m c)) (cur1 (Cert.KernelIdeal.FoldValue.a12 m c))
    (cur2 (Cert.KernelIdeal.FoldValue.a13 m c)) (cur1 (Cert.KernelIdeal.FoldValue.a14 m c)) (cur2 (Cert.KernelIdeal.FoldValue.a15 m c)) (cur1 (Cert.KernelIdeal.FoldValue.a16 m c))
    (fun p k => r0 (ix2 p k)) (fun p k => r1 (ix2 p k)) (fun e => r3 (ix1 e))
    (fun k q => r4 (ix2 k q)) (fun q => r5 (ix1 q)) (fun k q => r6 (ix2 k q)) (fun q => r7 (ix1 q))
    (fun k => r8 (ix1 k)) (fun k q => r9 (ix2 k q)) (fun q => r10 (ix1 q))
    (fun k q => r11 (ix2 k q)) (fun q => r12 (ix1 q))) v).symm

/-! ## The claims -/

theorem frame_kernel [Cert.Kernel.Facts] [Cert.Pre_finite_inputs.Facts] : Cert.frame_Kernel := fun m ρ _ => Cert.Kernel.Gen.frame m ρ
theorem frame_kernelIdeal [Cert.KernelIdeal.Facts] [Cert.Pre_finite_inputs.Facts] : Cert.frame_KernelIdeal := fun m ρ _ => Cert.KernelIdeal.Gen.frame m ρ
theorem frame_referenceIdeal [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W9 m ρ c (Proc.devRef .tc Cert.KernelIdeal.main_v50), Cert.KernelIdeal.RunV.run (F := Ideal) m ρ, ?_⟩
  refine (θ_run Cert.ReferenceIdeal.defs _ _).mono (fun _ h c => ⟨(h c).1.trans ?_, (h c).2⟩)
    (Cert.ReferenceIdeal.Value.run (F := Ideal) m' ρ')
  exact result_eq m ρ m' c (hpre c) (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
